-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v75)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x800000 : Shape := ⟨2, ![2, 800000]⟩
abbrev S128 : Shape := ⟨1, ![128]⟩
abbrev S128x257 : Shape := ⟨2, ![128, 257]⟩
abbrev S128x128 : Shape := ⟨2, ![128, 128]⟩
abbrev S1x128 : Shape := ⟨2, ![1, 128]⟩
abbrev S1 : Shape := ⟨1, ![1]⟩
abbrev S128x256 : Shape := ⟨2, ![128, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S128 : S_.BroadcastsInDim S128 (![] : Fin 0 → Fin S128.rank)
  reducesTo_S128_S_d0 : S128.ReducesTo [0] S_
  bcast_S_S128x257 : S_.BroadcastsInDim S128x257 (![] : Fin 0 → Fin S128x257.rank)
  reducesTo_S128x257_S_d0_1 : S128x257.ReducesTo [0, 1] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S128x256 : S_.BroadcastsInDim S128x256 (![] : Fin 0 → Fin S128x256.rank)
  reducesTo_S128x256_S_d0_1 : S128x256.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128x128 .f32) (main_arg14 : FVec F S128 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg8 : FVec F S128 .f32) (main_arg9 : FVec F S1x128 .f32) (main_arg10 : FVec F S1 .f32) (main_arg11 : FVec F S128x256 .f32) (main_arg12 : FVec F S128 .f32) (main_arg13 : FVec F S128x128 .f32) (main_arg14 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S1x128 .f32 := Host.absf main_arg9
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S128x256 .f32 := Host.absf main_arg11
  let main_cst_18 : FVec F S_ .f32 := constant S_ .f32 0x7F800000#32
  let main_v50 : FVec F S128x256 .f32 := broadcastInDim S128x256 ![] bcast_S_S128x256 main_cst_18
  fn_part3 (F := F) main_arg12 main_arg13 main_arg14 main_v48 main_v49 main_v50

def fn_part1 {F : FTy → Type} [FloatOps F] (main_arg5 : FVec F S128x257 .f32) (main_arg6 : FVec F S128 .f32) (main_arg7 : FVec F S128x128 .f32) (main_arg8 : FVec F S128 .f32) (main_arg9 : FVec F S1x128 .f32) (main_arg10 : FVec F S1 .f32) (main_arg11 : FVec F S128x256 .f32) (main_arg12 : FVec F S128 .f32) (main_arg13 : FVec F S128x128 .f32) (main_arg14 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x257 .f32 := Host.absf main_arg5
  let main_cst_6 : FVec F S_ .f32 := constant S_ .f32 0x7F800000#32
  let main_v20 : FVec F S128x257 .f32 := broadcastInDim S128x257 ![] bcast_S_S128x257 main_cst_6
  let main_v21 : IVec S128x257 1 := cmpf .olt main_v19 main_v20
  let main_c_7 : IVec S_ 1 := constantI S_ 1 1#1
  let main_v22 : IVec S_ 1 := (fun x v => Host.reduce IntOp.andi x v reducesTo_S128x257_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : FVec F S50000x3 .f32) (main_arg2 : IVec S2x800000 32) (main_arg3 : FVec F S128 .f32) (main_arg4 : FVec F S128 .f32) (main_arg5 : FVec F S128x257 .f32) (main_arg6 : FVec F S128 .f32) (main_arg7 : FVec F S128x128 .f32) (main_arg8 : FVec F S128 .f32) (main_arg9 : FVec F S1x128 .f32) (main_arg10 : FVec F S1 .f32) (main_arg11 : FVec F S128x256 .f32) (main_arg12 : FVec F S128 .f32) (main_arg13 : FVec F S128x128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S50000x3 : Shape := ⟨2, ![50000, 3]⟩
abbrev S2x800000 : Shape := ⟨2, ![2, 800000]⟩
abbrev S128 : Shape := ⟨1, ![128]⟩
abbrev S128x257 : Shape := ⟨2, ![128, 257]⟩
abbrev S128x128 : Shape := ⟨2, ![128, 128]⟩
abbrev S1x128 : Shape := ⟨2, ![1, 128]⟩
abbrev S1 : Shape := ⟨1, ![1]⟩
abbrev S128x256 : Shape := ⟨2, ![128, 256]⟩
abbrev S_ : Shape := ⟨0, ![]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S800000x3 : Shape := ⟨2, ![800000, 3]⟩
abbrev S128x1 : Shape := ⟨2, ![128, 1]⟩
abbrev S1x1 : Shape := ⟨2, ![1, 1]⟩
abbrev S8000x128 : Shape := ⟨2, ![8000, 128]⟩
abbrev S8000x1 : Shape := ⟨2, ![8000, 1]⟩
abbrev S5000x128 : Shape := ⟨2, ![5000, 128]⟩

abbrev nBuf : Space → Nat
  | .hbm => 126
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x800000, .i32⟩
  | .hbm, ⟨3, _⟩ => ⟨S128, .f32⟩
  | .hbm, ⟨4, _⟩ => ⟨S128, .f32⟩
  | .hbm, ⟨5, _⟩ => ⟨S128x257, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x128, .f32⟩
  | .hbm, ⟨10, _⟩ => ⟨S1, .f32⟩
  | .hbm, ⟨11, _⟩ => ⟨S128x256, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S_, .f32⟩
  | .hbm, ⟨25, _⟩ => ⟨S1x128, .f32⟩
  | .hbm, ⟨26, _⟩ => ⟨S1x128, .f32⟩
  | .hbm, ⟨27, _⟩ => ⟨S50000x128, .f32⟩
  | .hbm, ⟨28, _⟩ => ⟨S50000x128, .f32⟩
  | .hbm, ⟨29, _⟩ => ⟨S50000x128, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S1x128, .f32⟩
  | .hbm, ⟨54, _⟩ => ⟨S50000x128, .f32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S1x800000, .i32⟩
  | .hbm, ⟨60, _⟩ => ⟨S800000, .i32⟩
  | .hbm, ⟨61, _⟩ => ⟨S1x800000, .i32⟩
  | .hbm, ⟨62, _⟩ => ⟨S800000, .i32⟩
  | .hbm, ⟨63, _⟩ => ⟨S50000x128, .bf16⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x128, .bf16⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x128, .bf16⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x3, .f32⟩
  | .hbm, ⟨91, _⟩ => ⟨S_, .i32⟩
  | .hbm, ⟨92, _⟩ => ⟨S800000, .i32⟩
  | .hbm, ⟨93, _⟩ => ⟨S800000, .i1⟩
  | .hbm, ⟨94, _⟩ => ⟨S_, .i32⟩
  | .hbm, ⟨95, _⟩ => ⟨S800000, .i32⟩
  | .hbm, ⟨96, _⟩ => ⟨S800000, .i32⟩
  | .hbm, ⟨97, _⟩ => ⟨S800000, .i32⟩
  | .hbm, ⟨98, _⟩ => ⟨S800000x1, .i32⟩
  | .hbm, ⟨99, _⟩ => ⟨S800000x3, .f32⟩
  | .hbm, ⟨100, _⟩ => ⟨S800000x3, .f32⟩
  | .hbm, ⟨101, _⟩ => ⟨S800000x3, .f32⟩
  | .hbm, ⟨102, _⟩ => ⟨S_, .f32⟩
  | .hbm, ⟨103, _⟩ => ⟨S800000, .f32⟩
  | .hbm, ⟨104, _⟩ => ⟨S800000x1, .f32⟩
  | .hbm, ⟨105, _⟩ => ⟨S800000x1, .f32⟩
  | .hbm, ⟨106, _⟩ => ⟨S800000x1, .bf16⟩
  | .hbm, ⟨107, _⟩ => ⟨S128x128, .f32⟩
  | .hbm, ⟨108, _⟩ => ⟨S128x128, .f32⟩
  | .hbm, ⟨109, _⟩ => ⟨S128x1, .f32⟩
  | .hbm, ⟨110, _⟩ => ⟨S128, .f32⟩
  | .hbm, ⟨111, _⟩ => ⟨S1x128, .f32⟩
  | .hbm, ⟨112, _⟩ => ⟨S1x128, .f32⟩
  | .hbm, ⟨113, _⟩ => ⟨S1x128, .f32⟩
  | .hbm, ⟨114, _⟩ => ⟨S1x1, .f32⟩
  | .hbm, ⟨115, _⟩ => ⟨S800000x128, .bf16⟩
  | .hbm, ⟨116, _⟩ => ⟨S800000x128, .f32⟩
  | .hbm, ⟨117, _⟩ => ⟨S_, .f32⟩
  | .hbm, ⟨118, _⟩ => ⟨S50000x128, .f32⟩
  | .hbm, ⟨119, _⟩ => ⟨S800000x1, .i32⟩
  | .hbm, ⟨120, _⟩ => ⟨S50000x128, .f32⟩
  | .hbm, ⟨121, _⟩ => ⟨S128x128, .f32⟩
  | .hbm, ⟨122, _⟩ => ⟨S128x128, .f32⟩
  | .hbm, ⟨123, _⟩ => ⟨S1x128, .f32⟩
  | .hbm, ⟨124, _⟩ => ⟨S1x128, .f32⟩
  | .hbm, ⟨125, _⟩ => ⟨S50000x128, .f32⟩
  | .local _ .vmem, ⟨0, _⟩ => ⟨S8000x128, .bf16⟩
  | .local _ .vmem, ⟨1, _⟩ => ⟨S8000x128, .bf16⟩
  | .local _ .vmem, ⟨2, _⟩ => ⟨S8000x128, .bf16⟩
  | .local _ .vmem, ⟨3, _⟩ => ⟨S8000x128, .bf16⟩
  | .local _ .vmem, ⟨4, _⟩ => ⟨S8000x1, .bf16⟩
  | .local _ .vmem, ⟨5, _⟩ => ⟨S8000x1, .bf16⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S1x1, .f32⟩
  | .local _ .vmem, ⟨14, _⟩ => ⟨S8000x128, .bf16⟩
  | .local _ .vmem, ⟨15, _⟩ => ⟨S8000x128, .bf16⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_cst_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_cst_1 : Ref sig .tc := ⟨.hbm, 31, rfl⟩
abbrev main_call0_v8 : Ref sig .tc := ⟨.hbm, 32, rfl⟩
abbrev main_call0_cst_2 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_cst_3 : Ref sig .tc := ⟨.hbm, 37, rfl⟩
abbrev main_call0_v12 : Ref sig .tc := ⟨.hbm, 38, rfl⟩
abbrev main_call0_cst_4 : Ref sig .tc := ⟨.hbm, 39, rfl⟩
abbrev main_call0_call0_v0 : Ref sig .tc := ⟨.hbm, 40, rfl⟩
abbrev main_call0_call0_v1 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_cst_1 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_c_2 : Ref sig .tc := ⟨.hbm, 64, rfl⟩
abbrev main_v24 : Ref sig .tc := ⟨.hbm, 65, rfl⟩
abbrev main_v25 : Ref sig .tc := ⟨.hbm, 66, rfl⟩
abbrev main_c_3 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_c_4 : Ref sig .tc := ⟨.hbm, 73, rfl⟩
abbrev main_v31 : Ref sig .tc := ⟨.hbm, 74, rfl⟩
abbrev main_v32 : Ref sig .tc := ⟨.hbm, 75, rfl⟩
abbrev main_c_5 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_c_6 : Ref sig .tc := ⟨.hbm, 82, rfl⟩
abbrev main_v38 : Ref sig .tc := ⟨.hbm, 83, rfl⟩
abbrev main_v39 : Ref sig .tc := ⟨.hbm, 84, rfl⟩
abbrev main_c_7 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_c_8 : Ref sig .tc := ⟨.hbm, 91, rfl⟩
abbrev main_v45 : Ref sig .tc := ⟨.hbm, 92, rfl⟩
abbrev main_v46 : Ref sig .tc := ⟨.hbm, 93, rfl⟩
abbrev main_c_9 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_cst_10 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_cst_11 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem7_1 : DmaSem sig := 26

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x1 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8000x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  slices_S128x257_S128x128_0_0 : S128x257.Slices ![0, 0] S128x128
  slices_S128x257_S128x128_0_128 : S128x257.Slices ![0, 128] S128x128
  slices_S128x257_S128x1_0_256 : S128x257.Slices ![0, 256] S128x1
  shapeCasts_S128x1_S128 : S128x1.ShapeCasts S128
  shapeCasts_S128_S1x128 : S128.ShapeCasts S1x128
  shapeCasts_S1_S1x1 : S1.ShapeCasts S1x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S8000x1_S8000x128 : S8000x1.Broadcasts S8000x128
  broadcasts_S1x128_S8000x128 : S1x128.Broadcasts S8000x128
  transposes_S1x128_p1_0_S128x1 : S1x128.Transposes [1, 0] S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  packedbf16_S8000x128_S8000x128_0_0 : (Rect.unit (s := S8000x128) ![0, 0] S8000x128.size inb_S8000x128_S8000x128_0_0).PackedRows (EltTy.packing .bf16)
  bcast_S_S50000x128 : S_.BroadcastsInDim S50000x128 (![] : Fin 0 → Fin S50000x128.rank)
  slices_S128x256_S128x128_0_0 : S128x256.Slices ![0, 0] S128x128
  slices_S128x256_S128x128_0_128 : S128x256.Slices ![0, 128] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  gather_S50000x3_S800000x1_S800000x3_1_0_n_n_0_1_13_wf : GatherDims.WF S50000x3 S800000x1 S800000x3 [1] [0] [] [0] [] 1 ![1, 3]
  dot_S8000x128_S128x128_S8000x128_1_0_0_1_n_n_wf : DotDims.WF S8000x128 S128x128 S8000x128 [1] [0] [0] [1] [] []
  dot_S8000x128_S128x1_S8000x1_1_0_0_1_n_n_wf : DotDims.WF S8000x128 S128x1 S8000x1 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .bf16 = 32 ∨ (Rect.block (s := S800000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .bf16 = 32 ∨ (Rect.block (s := S800000x128) S8000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x1.size a ≤ S800000x1.size a
  hwx0_2 : ∀ i : grid0.Coords, EltTy.bits .bf16 = 32 ∨ (Rect.block (s := S800000x1) S8000x1.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8000x128.size a ≤ S800000x128.size a
  hwx0_11 : ∀ i : grid0.Coords, EltTy.bits .bf16 = 32 ∨ (Rect.block (s := S800000x128) S8000x128.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v30) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v57) S8000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v58) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v59) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v62) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v63) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v64) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v65) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v66) S8000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v70) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v71) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v72) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v73) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v74) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v75) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x800000 : Shape := ⟨2, ![2, 800000]⟩
abbrev S128 : Shape := ⟨1, ![128]⟩
abbrev S128x257 : Shape := ⟨2, ![128, 257]⟩
abbrev S128x128 : Shape := ⟨2, ![128, 128]⟩
abbrev S1x128 : Shape := ⟨2, ![1, 128]⟩
abbrev S1 : Shape := ⟨1, ![1]⟩
abbrev S128x256 : Shape := ⟨2, ![128, 256]⟩
abbrev S_ : Shape := ⟨0, ![]⟩
abbrev S1x800000 : Shape := ⟨2, ![1, 800000]⟩
abbrev S800000 : Shape := ⟨1, ![800000]⟩
abbrev S800000x1 : Shape := ⟨2, ![800000, 1]⟩
abbrev S800000x3 : Shape := ⟨2, ![800000, 3]⟩
abbrev S800000x128 : Shape := ⟨2, ![800000, 128]⟩
abbrev S800000x257 : Shape := ⟨2, ![800000, 257]⟩
abbrev S257x128 : Shape := ⟨2, ![257, 128]⟩
abbrev S128x1 : Shape := ⟨2, ![128, 1]⟩
abbrev S1x1 : Shape := ⟨2, ![1, 1]⟩
abbrev S50000x256 : Shape := ⟨2, ![50000, 256]⟩
abbrev S256x128 : Shape := ⟨2, ![256, 128]⟩

abbrev nBuf : Space → Nat
  | .hbm => 174
  | .vmem => 0
  | .smem => 0
  | _ => 0

abbrev hbmTy0_0 (i : Nat) : BufTy := match i % 128 with
  | 0 => ⟨S50000x128, .f32⟩
  | 1 => ⟨S50000x3, .f32⟩
  | 2 => ⟨S2x800000, .i32⟩
  | 3 => ⟨S128, .f32⟩
  | 4 => ⟨S128, .f32⟩
  | 5 => ⟨S128x257, .f32⟩
  | 6 => ⟨S128, .f32⟩
  | 7 => ⟨S128x128, .f32⟩
  | 8 => ⟨S128, .f32⟩
  | 9 => ⟨S1x128, .f32⟩
  | 10 => ⟨S1, .f32⟩
  | 11 => ⟨S128x256, .f32⟩
  | 12 => ⟨S128, .f32⟩
  | 13 => ⟨S128x128, .f32⟩
  | 14 => ⟨S128, .f32⟩
  | 15 => ⟨S_, .f32⟩
  | 16 => ⟨S128, .f32⟩
  | 17 => ⟨S_, .f32⟩
  | 18 => ⟨S128, .f32⟩
  | 19 => ⟨S128, .f32⟩
  | 20 => ⟨S_, .i32⟩
  | 21 => ⟨S_, .f32⟩
  | 22 => ⟨S128, .f32⟩
  | 23 => ⟨S1x128, .f32⟩
  | 24 => ⟨S_, .f32⟩
  | 25 => ⟨S1x128, .f32⟩
  | 26 => ⟨S1x128, .f32⟩
  | 27 => ⟨S50000x128, .f32⟩
  | 28 => ⟨S50000x128, .f32⟩
  | 29 => ⟨S50000x128, .f32⟩
  | 30 => ⟨S_, .f32⟩
  | 31 => ⟨S_, .f32⟩
  | 32 => ⟨S_, .f32⟩
  | 33 => ⟨S_, .f32⟩
  | 34 => ⟨S128, .f32⟩
  | 35 => ⟨S128, .f32⟩
  | 36 => ⟨S128, .f32⟩
  | 37 => ⟨S_, .f32⟩
  | 38 => ⟨S_, .i1⟩
  | 39 => ⟨S_, .f32⟩
  | 40 => ⟨S_, .f32⟩
  | 41 => ⟨S128, .f32⟩
  | 42 => ⟨S128, .f32⟩
  | 43 => ⟨S1x128, .f32⟩
  | 44 => ⟨S50000x128, .f32⟩
  | 45 => ⟨S50000x128, .f32⟩
  | 46 => ⟨S_, .f32⟩
  | 47 => ⟨S128, .f32⟩
  | 48 => ⟨S128, .f32⟩
  | 49 => ⟨S128, .f32⟩
  | 50 => ⟨S1x128, .f32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S1x128, .f32⟩
  | 57 => ⟨S50000x128, .f32⟩
  | 58 => ⟨S50000x128, .f32⟩
  | 59 => ⟨S1x800000, .i32⟩
  | 60 => ⟨S800000, .i32⟩
  | 61 => ⟨S1x800000, .i32⟩
  | 62 => ⟨S800000, .i32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x3, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x3, .f32⟩
  | 81 => ⟨S800000x3, .f32⟩
  | 82 => ⟨S800000x3, .f32⟩
  | 83 => ⟨S_, .f32⟩
  | 84 => ⟨S800000, .f32⟩
  | 85 => ⟨S800000x1, .f32⟩
  | 86 => ⟨S800000x1, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x128, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x128, .f32⟩
  | 105 => ⟨S800000x257, .f32⟩
  | 106 => ⟨S257x128, .f32⟩
  | 107 => ⟨S800000x128, .f32⟩
  | 108 => ⟨S1x128, .f32⟩
  | 109 => ⟨S800000x128, .f32⟩
  | 110 => ⟨S800000x128, .f32⟩
  | 111 => ⟨S800000x128, .f32⟩
  | 112 => ⟨S800000x128, .f32⟩
  | 113 => ⟨S_, .f32⟩
  | 114 => ⟨S800000x128, .f32⟩
  | 115 => ⟨S800000x128, .f32⟩
  | 116 => ⟨S_, .f32⟩
  | 117 => ⟨S800000x128, .f32⟩
  | 118 => ⟨S800000x128, .f32⟩
  | 119 => ⟨S800000x128, .f32⟩
  | 120 => ⟨S128x128, .f32⟩
  | 121 => ⟨S800000x128, .f32⟩
  | 122 => ⟨S1x128, .f32⟩
  | 123 => ⟨S800000x128, .f32⟩
  | 124 => ⟨S800000x128, .f32⟩
  | 125 => ⟨S800000x128, .f32⟩
  | 126 => ⟨S800000x128, .f32⟩
  | 127 => ⟨S_, .f32⟩
  | _ => ⟨S50000x128, .f32⟩

abbrev hbmTy0_1 (i : Nat) : BufTy := match i % 128 with
  | 0 => ⟨S800000x128, .f32⟩
  | 1 => ⟨S800000x128, .f32⟩
  | 2 => ⟨S_, .f32⟩
  | 3 => ⟨S800000x128, .f32⟩
  | 4 => ⟨S800000x128, .f32⟩
  | 5 => ⟨S800000x128, .f32⟩
  | 6 => ⟨S128x1, .f32⟩
  | 7 => ⟨S800000x1, .f32⟩
  | 8 => ⟨S1x1, .f32⟩
  | 9 => ⟨S800000x1, .f32⟩
  | 10 => ⟨S800000x1, .f32⟩
  | 11 => ⟨S800000x1, .f32⟩
  | 12 => ⟨S800000x1, .f32⟩
  | 13 => ⟨S_, .f32⟩
  | 14 => ⟨S800000x1, .f32⟩
  | 15 => ⟨S800000x1, .f32⟩
  | 16 => ⟨S_, .f32⟩
  | 17 => ⟨S800000x1, .f32⟩
  | 18 => ⟨S800000x1, .f32⟩
  | 19 => ⟨S800000x128, .f32⟩
  | 20 => ⟨S800000x128, .f32⟩
  | 21 => ⟨S_, .f32⟩
  | 22 => ⟨S50000x128, .f32⟩
  | 23 => ⟨S800000x1, .i32⟩
  | 24 => ⟨S50000x128, .f32⟩
  | 25 => ⟨S50000x256, .f32⟩
  | 26 => ⟨S256x128, .f32⟩
  | 27 => ⟨S50000x128, .f32⟩
  | 28 => ⟨S1x128, .f32⟩
  | 29 => ⟨S50000x128, .f32⟩
  | 30 => ⟨S50000x128, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S50000x128, .f32⟩
  | 40 => ⟨S128x128, .f32⟩
  | 41 => ⟨S50000x128, .f32⟩
  | 42 => ⟨S1x128, .f32⟩
  | 43 => ⟨S50000x128, .f32⟩
  | 44 => ⟨S50000x128, .f32⟩
  | 45 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_cst_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_cst_1 : Ref sig .tc := ⟨.hbm, 31, rfl⟩
abbrev main_call0_v8 : Ref sig .tc := ⟨.hbm, 32, rfl⟩
abbrev main_call0_cst_2 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_cst_3 : Ref sig .tc := ⟨.hbm, 37, rfl⟩
abbrev main_call0_v12 : Ref sig .tc := ⟨.hbm, 38, rfl⟩
abbrev main_call0_cst_4 : Ref sig .tc := ⟨.hbm, 39, rfl⟩
abbrev main_call0_call0_v0 : Ref sig .tc := ⟨.hbm, 40, rfl⟩
abbrev main_call0_call0_v1 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_cst_1 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_2 : Ref sig .tc := ⟨.hbm, 63, rfl⟩
abbrev main_v23 : Ref sig .tc := ⟨.hbm, 64, rfl⟩
abbrev main_v24 : Ref sig .tc := ⟨.hbm, 65, rfl⟩
abbrev main_c_3 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_c_4 : Ref sig .tc := ⟨.hbm, 72, rfl⟩
abbrev main_v30 : Ref sig .tc := ⟨.hbm, 73, rfl⟩
abbrev main_v31 : Ref sig .tc := ⟨.hbm, 74, rfl⟩
abbrev main_c_5 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_6 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_c_7 : Ref sig .tc := ⟨.hbm, 87, rfl⟩
abbrev main_v42 : Ref sig .tc := ⟨.hbm, 88, rfl⟩
abbrev main_v43 : Ref sig .tc := ⟨.hbm, 89, rfl⟩
abbrev main_c_8 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_c_9 : Ref sig .tc := ⟨.hbm, 96, rfl⟩
abbrev main_v49 : Ref sig .tc := ⟨.hbm, 97, rfl⟩
abbrev main_v50 : Ref sig .tc := ⟨.hbm, 98, rfl⟩
abbrev main_c_10 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_call1_v0 : Ref sig .tc := ⟨.hbm, 111, rfl⟩
abbrev main_call1_v1 : Ref sig .tc := ⟨.hbm, 112, rfl⟩
abbrev main_call1_cst : Ref sig .tc := ⟨.hbm, 113, rfl⟩
abbrev main_call1_v2 : Ref sig .tc := ⟨.hbm, 114, rfl⟩
abbrev main_call1_v3 : Ref sig .tc := ⟨.hbm, 115, rfl⟩
abbrev main_call1_cst_0 : Ref sig .tc := ⟨.hbm, 116, rfl⟩
abbrev main_call1_v4 : Ref sig .tc := ⟨.hbm, 117, rfl⟩
abbrev main_call1_v5 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_call2_v0 : Ref sig .tc := ⟨.hbm, 125, rfl⟩
abbrev main_call2_v1 : Ref sig .tc := ⟨.hbm, 126, rfl⟩
abbrev main_call2_cst : Ref sig .tc := ⟨.hbm, 127, rfl⟩
abbrev main_call2_v2 : Ref sig .tc := ⟨.hbm, 128, rfl⟩
abbrev main_call2_v3 : Ref sig .tc := ⟨.hbm, 129, rfl⟩
abbrev main_call2_cst_0 : Ref sig .tc := ⟨.hbm, 130, rfl⟩
abbrev main_call2_v4 : Ref sig .tc := ⟨.hbm, 131, rfl⟩
abbrev main_call2_v5 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_cst_11 : Ref sig .tc := ⟨.hbm, 141, rfl⟩
abbrev main_v76 : Ref sig .tc := ⟨.hbm, 142, rfl⟩
abbrev main_v77 : Ref sig .tc := ⟨.hbm, 143, rfl⟩
abbrev main_cst_12 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_cst_13 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_call3_v0 : Ref sig .tc := ⟨.hbm, 159, rfl⟩
abbrev main_call3_v1 : Ref sig .tc := ⟨.hbm, 160, rfl⟩
abbrev main_call3_cst : Ref sig .tc := ⟨.hbm, 161, rfl⟩
abbrev main_call3_v2 : Ref sig .tc := ⟨.hbm, 162, rfl⟩
abbrev main_call3_v3 : Ref sig .tc := ⟨.hbm, 163, rfl⟩
abbrev main_call3_cst_0 : Ref sig .tc := ⟨.hbm, 164, rfl⟩
abbrev main_call3_v4 : Ref sig .tc := ⟨.hbm, 165, rfl⟩
abbrev main_call3_v5 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩

abbrev nD : Nat := 1
abbrev τ : Topo := Topo.v7x

variable {F : FTy → Type} [FloatOps F]

class Facts₀ : Prop where
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  concatenates_S800000x128_S800000x128_S800000x1_S800000x257_d1 : Shape.Concatenates [S800000x128, S800000x128, S800000x1] S800000x257 1
  transposes_S128x257_S257x128_1_0 : S128x257.Transposes [1, 0] S257x128
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  transposes_S128x128_S128x128_1_0 : S128x128.Transposes [1, 0] S128x128
  transposes_S1x128_S128x1_1_0 : S1x128.Transposes [1, 0] S128x1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  transposes_S128x256_S256x128_1_0 : S128x256.Transposes [1, 0] S256x128
  gather_S50000x3_S800000x1_S800000x3_1_0_n_n_0_1_13_wf : GatherDims.WF S50000x3 S800000x1 S800000x3 [1] [0] [] [0] [] 1 ![1, 3]
  gather_S50000x128_S800000x1_S800000x128_1_0_n_n_0_1_1128_wf : GatherDims.WF S50000x128 S800000x1 S800000x128 [1] [0] [] [0] [] 1 ![1, 128]
  dot_S800000x257_S257x128_S800000x128_1_0_0_1_n_n_wf : DotDims.WF S800000x257 S257x128 S800000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x257_S257x128_S800000x128_1_0_0_1_n_n : DotDims S800000x257 S257x128 S800000x128 where
  lhsContracting := [1]
  rhsContracting := [0]
  lhsNonContracting := [0]
  rhsNonContracting := [1]
  lhsBatch := []
  rhsBatch := []
  wf := dot_S800000x257_S257x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/- The kernel program's run with its result named.

   The program is a chain of host operations, the edge kernel (a grid of 100 points, each writing 8000 rows of
   the edge array), one more host stretch, and the node kernel (a grid of 10 points, each writing 5000 rows of
   the node array).  The generated frame follows the buffer contents through that chain as a fold `Gen.W0 … Gen.W6`
   from the launch memory and reads the fifteen argument arrays back through it.  Here the same run is stated with
   one more fact in its post: the returned array `main_v75` ends at the last fold's contents, and those contents
   are the node kernel's output array — its ten written blocks laid over the array — for the proof data at the
   node kernel's entry contents `Gen.V5`. -/
import proofs.«152079_j87643102642635_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The returned array's contents after the last region: the node kernel's output array, that is, window 7's
    array after all ten grid points have written their blocks back (the window's array IS `main_v75`). -/
theorem W6_out (c : Dev nD) :
    Gen.W6 m ρ c (Proc.devRef .tc main_v75) = (Gen.dat1 (Gen.V5 m ρ) c).arrAt 7 cfg1.N :=
  Gen.W6_arr m ρ c 7

set_option backward.isDefEq.respectTransparency.types false in
/-- The run of @main from any launch memory with zero counters: every weakly fair execution terminates without a
    fault, the returned array `main_v75` ends at the last boundary's contents `Gen.W6`, and every argument array
    ends as launched.  The final thread state holds every unscoped buffer at `Gen.W6`; the result is read off it at
    `main_v75`, each argument at its own buffer and then walked back through the fold to the launch memory. -/
theorem run_out : θ_run defs (onTc (τ := τ) (main (F := F))) ⟨m, fun _ => 0, ρ⟩ (fun r => ∀ c : Dev nD,
      r.2.mem ((c.tc : Thread nD τ).loc main_v75) = Gen.W6 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v75 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)

end Cert.KernelIdeal.KRun

end
-- ==== Proof.Spec.lean ====
/-
  The EGNN layer, stated once.

  Both programs normalise the node features over the batch (mean and biased variance per feature, reciprocal square
  root, scale and shift), read the two endpoint rows of every edge and the distance between the endpoints' positions,
  push every edge through a two-layer SiLU network gated by a sigmoid, add the gated messages into the source nodes, and
  update every node by a second two-layer network with a residual connection.

  * Cert.Egnn.Shared: the parts the two programs spell with the same host operations (the batch norm hbn, the endpoint
    rows row0 / row1 of the edge table, the wrap of a negative index, the row gathers, the distance dist, the segment
    sum segsum), each as the composed term of those operations, for any float semantics.
  * Cert.Egnn.Ref: the reference's two networks as the composed terms of its host operations: the edge network refEdge
    on the concatenation [h_src | h_dst | dist] against the whole weight matrix, the node network refNode on the
    concatenation [h | m] against the whole weight matrix.
  * Cert.Egnn: the same two networks row by row on the extended reals, in the arrangement the kernels compute them
    (edgeOut, nodeOut): the first layer as the SUM of the products with the column blocks of the weight matrix. The
    arrays g0 / g1 are these row functions applied to row p of their operands, for any number of rows.
-/
import proofs.«152079_j87643102642635_2_alg».proof.Proof.Gen.KernelIdeal
import proofs.«152079_j87643102642635_2_alg».proof.Proof.Gen.ReferenceIdeal
import Idealize.ShloMosaic.PureOps.Ideal
import Idealize.ShloMosaic.Lib.ValueIdx

noncomputable section

/-! ## The shared host stages -/

namespace Cert.Egnn.Shared

open Idealize.ShloMosaic Cert.KernelIdeal Cert.KernelIdeal.Facts₀

variable {F : FTy → Type} [FloatOps F]

/-- The per-feature mean over the 50000 nodes. -/
def mean (x : FVec F S50000x128 .f32) : FVec F S128 .f32 :=
  Host.divf (Host.reduceAdd x (constant S_ .f32 0x00000000#32) reducesTo_S50000x128_S128_d0 h_S_)
    (broadcastInDim S128 ![] bcast_S_S128 (constant S_ .f32 0x47435000#32))

/-- The per-feature biased variance over the 50000 nodes: the sum of squared deviations over the count 50000 - 0,
    guarded by the positivity of that count. -/
def var (x : FVec F S50000x128 .f32) : FVec F S128 .f32 :=
  let s : FVec F S128 .f32 := Host.reduceAdd x (constant S_ .f32 0x00000000#32) reducesTo_S50000x128_S128_d0 h_S_
  let mu : FVec F S1x128 .f32 := Host.divf (broadcastInDim S1x128 ![1] bcast_S128_S1x128_1 s)
    (broadcastInDim S1x128 ![] bcast_S_S1x128 (constant S_ .f32 0x47435000#32))
  let dev : FVec F S50000x128 .f32 := subf x (broadcastInDim S50000x128 ![0, 1] bcast_S1x128_S50000x128_0_1 mu)
  let cnt : FVec F S_ .f32 := subf (constant S_ .f32 0x47435000#32) (sitofp .f32 (constantI S_ 32 0#32))
  select (broadcastInDim S128 ![] bcast_S_S128 (cmpf (F := F) .ogt cnt (constant S_ .f32 0x00000000#32)))
    (Host.divf (Host.reduceAdd (mulf dev dev) (constant S_ .f32 0x00000000#32) reducesTo_S50000x128_S128_d0 h_S_)
      (broadcastInDim S128 ![] bcast_S_S128 cnt))
    (broadcastInDim S128 ![] bcast_S_S128 (id (constant S_ .f32 0x7FC00000#32)))

/-- The batch norm: (x - mean) * rsqrt (var + eps) * gamma + beta. -/
def hbn (x : FVec F S50000x128 .f32) (g b : FVec F S128 .f32) : FVec F S50000x128 .f32 :=
  addf
    (mulf
      (mulf
        (subf x (broadcastInDim S50000x128 ![0, 1] bcast_S1x128_S50000x128_0_1 (broadcastInDim S1x128 ![1] bcast_S128_S1x128_1 (mean x))))
        (broadcastInDim S50000x128 ![0, 1] bcast_S1x128_S50000x128_0_1 (broadcastInDim S1x128 ![1] bcast_S128_S1x128_1
          (Host.rsqrt (addf (var x) (broadcastInDim S128 ![] bcast_S_S128 (constant S_ .f32 0x3727C5AC#32)))))))
      (broadcastInDim S50000x128 ![0, 1] bcast_S1x128_S50000x128_0_1 (broadcastInDim S1x128 ![1] bcast_S128_S1x128_1 g)))
    (broadcastInDim S50000x128 ![0, 1] bcast_S1x128_S50000x128_0_1 (broadcastInDim S1x128 ![1] bcast_S128_S1x128_1 b))

/-- Row 0 of the edge table: the source node of every edge. -/
def row0 (e : IVec S2x800000 32) : IVec S800000 32 :=
  shapeCast S800000 (extractStridedSlice S1x800000 ![0, 0] e slices_S2x800000_S1x800000_0_0) shapeCasts_S1x800000_S800000

/-- Row 1 of the edge table: the destination node of every edge. -/
def row1 (e : IVec S2x800000 32) : IVec S800000 32 :=
  shapeCast S800000 (extractStridedSlice S1x800000 ![1, 0] e slices_S2x800000_S1x800000_1_0) shapeCasts_S1x800000_S800000

/-- A column of start indices: a negative index is taken from the end (i + 50000). -/
def wrap (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The rows of a node-feature table at a column of start indices. -/
def rows {φ : FTy} (t : FVec F S50000x128 φ) (i : IVec S800000x1 32) : FVec F S800000x128 φ :=
  Host.gather gather_S50000x128_S800000x1_S800000x128_1_0_n_n_0_1_1128 t i

/-- The positions at a column of start indices. -/
def pos (x : FVec F S50000x3 .f32) (i : IVec S800000x1 32) : FVec F S800000x3 .f32 :=
  Host.gather gather_S50000x3_S800000x1_S800000x3_1_0_n_n_0_1_13 x i

/-- The distance between the endpoints of every edge, as a column. -/
def dist (x : FVec F S50000x3 .f32) (e : IVec S2x800000 32) : FVec F S800000x1 .f32 :=
  let d : FVec F S800000x3 .f32 := subf (pos x (wrap (row0 e))) (pos x (wrap (row1 e)))
  Host.sqrt (broadcastInDim S800000x1 ![0] bcast_S800000_S800000x1_0
    (Host.reduceAdd (mulf d d) (constant S_ .f32 0x00000000#32) reducesTo_S800000x3_S800000_d1 h_S_))

/-- The messages added into their source nodes (an accumulating row scatter into the zero table). -/
def segsum (src : IVec S800000 32) (u : FVec F S800000x128 .f32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 src) u

/-! ### The operands the two kernels are handed: column blocks of the weight matrices, the biases as rows -/

/-- Columns 0 … 127 of the first edge layer's weights: the block that meets the source row. -/
def edgeWa (w1 : FVec F S128x257 .f32) : FVec F S128x128 .f32 := extractStridedSlice S128x128 ![0, 0] w1 slices_S128x257_S128x128_0_0
/-- Columns 128 … 255: the block that meets the destination row. -/
def edgeWb (w1 : FVec F S128x257 .f32) : FVec F S128x128 .f32 := extractStridedSlice S128x128 ![0, 128] w1 slices_S128x257_S128x128_0_128
/-- Column 256, as a row: the weights of the distance. -/
def edgeWc (w1 : FVec F S128x257 .f32) : FVec F S1x128 .f32 :=
  shapeCast S1x128 (shapeCast S128 (extractStridedSlice S128x1 ![0, 256] w1 slices_S128x257_S128x1_0_256) shapeCasts_S128x1_S128) shapeCasts_S128_S1x128
/-- A bias vector as a row. -/
def asRow (b : FVec F S128 .f32) : FVec F S1x128 .f32 := shapeCast S1x128 b shapeCasts_S128_S1x128
/-- The gate's bias as a 1 × 1 array. -/
def asCell (b : FVec F S1 .f32) : FVec F S1x1 .f32 := shapeCast S1x1 b shapeCasts_S1_S1x1
/-- Columns 0 … 127 of the first node layer's weights: the block that meets the node's own features. -/
def nodeWh (w1 : FVec F S128x256 .f32) : FVec F S128x128 .f32 := extractStridedSlice S128x128 ![0, 0] w1 slices_S128x256_S128x128_0_0
/-- Columns 128 … 255: the block that meets the aggregated messages. -/
def nodeWm (w1 : FVec F S128x256 .f32) : FVec F S128x128 .f32 := extractStridedSlice S128x128 ![0, 128] w1 slices_S128x256_S128x128_0_128

end Cert.Egnn.Shared

/-! ## The reference's two networks, as it spells them -/

namespace Cert.Egnn.Ref

open Idealize.ShloMosaic Cert.ReferenceIdeal Cert.ReferenceIdeal.Facts₀

variable {F : FTy → Type} [FloatOps F]

/-- z * (1 / (1 + exp (-z))) on an edge array. -/
def siluE (z : FVec F S800000x128 .f32) : FVec F S800000x128 .f32 :=
  mulf z (Host.divf (broadcastInDim S800000x128 ![] bcast_S_S800000x128 (constant S_ .f32 0x3F800000#32))
    (addf (broadcastInDim S800000x128 ![] bcast_S_S800000x128 (constant S_ .f32 0x3F800000#32)) (Host.exp (Host.negf z))))

/-- z * (1 / (1 + exp (-z))) on a node array. -/
def siluN (z : FVec F S50000x128 .f32) : FVec F S50000x128 .f32 :=
  mulf z (Host.divf (broadcastInDim S50000x128 ![] bcast_S_S50000x128 (constant S_ .f32 0x3F800000#32))
    (addf (broadcastInDim S50000x128 ![] bcast_S_S50000x128 (constant S_ .f32 0x3F800000#32)) (Host.exp (Host.negf z))))

/-- The second hidden layer of the edge network: silu (silu ([a | b | d] W1ᵀ + b1) W2ᵀ + b2). -/
def refHidden (a b : FVec F S800000x128 .f32) (d : FVec F S800000x1 .f32) (w1 : FVec F S128x257 .f32) (b1 : FVec F S128 .f32)
    (w2 : FVec F S128x128 .f32) (b2 : FVec F S128 .f32) : FVec F S800000x128 .f32 :=
  let cat : FVec F S800000x257 .f32 := concatenate S800000x257 1 [⟨S800000x128, a⟩, ⟨S800000x128, b⟩, ⟨S800000x1, d⟩]
    concatenates_S800000x128_S800000x128_S800000x1_S800000x257_d1
  let l1 : FVec F S800000x128 .f32 := addf
    (Host.dotGeneral dot_S800000x257_S257x128_S800000x128_1_0_0_1_n_n none cat (transpose S257x128 [1, 0] w1 transposes_S128x257_S257x128_1_0))
    (broadcastInDim S800000x128 ![0, 1] bcast_S1x128_S800000x128_0_1 (broadcastInDim S1x128 ![1] bcast_S128_S1x128_1 b1))
  siluE (addf
    (Host.dotGeneral dot_S800000x128_S128x128_S800000x128_1_0_0_1_n_n none (siluE l1) (transpose S128x128 [1, 0] w2 transposes_S128x128_S128x128_1_0))
    (broadcastInDim S800000x128 ![0, 1] bcast_S1x128_S800000x128_0_1 (broadcastInDim S1x128 ![1] bcast_S128_S1x128_1 b2)))

/-- The gated message of every edge: sigmoid (m fwᵀ + fb) * m with m the second hidden layer. -/
def refEdge (a b : FVec F S800000x128 .f32) (d : FVec F S800000x1 .f32) (w1 : FVec F S128x257 .f32) (b1 : FVec F S128 .f32)
    (w2 : FVec F S128x128 .f32) (b2 : FVec F S128 .f32) (fw : FVec F S1x128 .f32) (fb : FVec F S1 .f32) : FVec F S800000x128 .f32 :=
  let m : FVec F S800000x128 .f32 := refHidden a b d w1 b1 w2 b2
  let z : FVec F S800000x1 .f32 := addf
    (Host.dotGeneral dot_S800000x128_S128x1_S800000x1_1_0_0_1_n_n none m (transpose S128x1 [1, 0] fw transposes_S1x128_S128x1_1_0))
    (broadcastInDim S800000x1 ![0, 1] bcast_S1x1_S800000x1_0_1 (broadcastInDim S1x1 ![1] bcast_S1_S1x1_1 fb))
  let g : FVec F S800000x1 .f32 := Host.divf (broadcastInDim S800000x1 ![] bcast_S_S800000x1 (constant S_ .f32 0x3F800000#32))
    (addf (broadcastInDim S800000x1 ![] bcast_S_S800000x1 (constant S_ .f32 0x3F800000#32)) (Host.exp (Host.negf z)))
  mulf (broadcastInDim S800000x128 ![0, 1] bcast_S800000x1_S800000x128_0_1 g) m

/-- The node update: h + (silu ([h | m] W1ᵀ + b1) W2ᵀ + b2). -/
def refNode (h mi : FVec F S50000x128 .f32) (w1 : FVec F S128x256 .f32) (b1 : FVec F S128 .f32)
    (w2 : FVec F S128x128 .f32) (b2 : FVec F S128 .f32) : FVec F S50000x128 .f32 :=
  let cat : FVec F S50000x256 .f32 := concatenate S50000x256 1 [⟨S50000x128, h⟩, ⟨S50000x128, mi⟩] concatenates_S50000x128_S50000x128_S50000x256_d1
  let l1 : FVec F S50000x128 .f32 := addf
    (Host.dotGeneral dot_S50000x256_S256x128_S50000x128_1_0_0_1_n_n none cat (transpose S256x128 [1, 0] w1 transposes_S128x256_S256x128_1_0))
    (broadcastInDim S50000x128 ![0, 1] bcast_S1x128_S50000x128_0_1 (broadcastInDim S1x128 ![1] bcast_S128_S1x128_1 b1))
  addf h (addf
    (Host.dotGeneral dot_S50000x128_S128x128_S50000x128_1_0_0_1_n_n none (siluN l1) (transpose S128x128 [1, 0] w2 transposes_S128x128_S128x128_1_0))
    (broadcastInDim S50000x128 ![0, 1] bcast_S1x128_S50000x128_0_1 (broadcastInDim S1x128 ![1] bcast_S128_S1x128_1 b2)))

end Cert.Egnn.Ref

/-! ## The two networks row by row, on the extended reals -/

namespace Cert.Egnn

open Idealize.ShloMosaic Idealize.ShloMosaic.ValueIdx

/-- z * sigmoid z. -/
def silu (z : EReal) : EReal := z * Ideal.logistic z

/-- The first edge layer at hidden unit j: the products with the three column blocks of the weight matrix, summed, plus
    the bias. -/
def edgeL1 (a b : Fin 128 → EReal) (d : EReal) (wa wb : Fin 128 → Fin 128 → EReal) (wc c1 : Fin 128 → EReal) (j : Fin 128) : EReal :=
  (∑ k, a k * wa j k) + (∑ k, b k * wb j k) + d * wc j + c1 j

/-- The second hidden layer of the edge network at unit j. -/
def edgeM2 (a b : Fin 128 → EReal) (d : EReal) (wa wb : Fin 128 → Fin 128 → EReal) (wc c1 : Fin 128 → EReal)
    (w2 : Fin 128 → Fin 128 → EReal) (c2 : Fin 128 → EReal) (j : Fin 128) : EReal :=
  silu ((∑ k, silu (edgeL1 a b d wa wb wc c1 k) * w2 j k) + c2 j)

/-- The gated message of one edge at unit j. -/
def edgeOut (a b : Fin 128 → EReal) (d : EReal) (wa wb : Fin 128 → Fin 128 → EReal) (wc c1 : Fin 128 → EReal)
    (w2 : Fin 128 → Fin 128 → EReal) (c2 : Fin 128 → EReal) (fw : Fin 128 → EReal) (fb : EReal) (j : Fin 128) : EReal :=
  Ideal.logistic ((∑ k, edgeM2 a b d wa wb wc c1 w2 c2 k * fw k) + fb) * edgeM2 a b d wa wb wc c1 w2 c2 j

/-- The updated feature j of one node. -/
def nodeOut (h mi : Fin 128 → EReal) (wh wm : Fin 128 → Fin 128 → EReal) (c1 : Fin 128 → EReal)
    (w2 : Fin 128 → Fin 128 → EReal) (c2 : Fin 128 → EReal) (j : Fin 128) : EReal :=
  h j + ((∑ k, silu ((∑ l, h l * wh k l) + (∑ l, mi l * wm k l) + c1 k) * w2 j k) + c2 j)

/-- The edge network on n edges: entry (p, q) reads row p of the three edge operands (held in any float format: the
    extended reals do not tell formats apart). -/
def g0 {n : Nat} {φa φd : FTy} (hs he : FVec Ideal ⟨2, ![n, 128]⟩ φa) (d : FVec Ideal ⟨2, ![n, 1]⟩ φd)
    (w1a w1b : FVec Ideal ⟨2, ![128, 128]⟩ .f32) (w1c b1 : FVec Ideal ⟨2, ![1, 128]⟩ .f32)
    (w2 : FVec Ideal ⟨2, ![128, 128]⟩ .f32) (b2 fw : FVec Ideal ⟨2, ![1, 128]⟩ .f32) (fb : FVec Ideal ⟨2, ![1, 1]⟩ .f32)
    (p : Fin n) (q : Fin 128) : EReal :=
  edgeOut (fun k => hs (ix2 p k)) (fun k => he (ix2 p k)) (d (ix2 p 0))
    (fun j k => w1a (ix2 j k)) (fun j k => w1b (ix2 j k)) (fun j => w1c (ix2 0 j)) (fun j => b1 (ix2 0 j))
    (fun j k => w2 (ix2 j k)) (fun j => b2 (ix2 0 j)) (fun k => fw (ix2 0 k)) (fb (ix2 0 0)) q

/-- The node network on n nodes: entry (p, q) reads row p of the two node operands. -/
def g1 {n : Nat} (h mi : FVec Ideal ⟨2, ![n, 128]⟩ .f32)
    (wh wm : FVec Ideal ⟨2, ![128, 128]⟩ .f32) (c1 : FVec Ideal ⟨2, ![1, 128]⟩ .f32)
    (w2 : FVec Ideal ⟨2, ![128, 128]⟩ .f32) (c2 : FVec Ideal ⟨2, ![1, 128]⟩ .f32)
    (p : Fin n) (q : Fin 128) : EReal :=
  nodeOut (fun k => h (ix2 p k)) (fun k => mi (ix2 p k))
    (fun j k => wh (ix2 j k)) (fun j k => wm (ix2 j k)) (fun j => c1 (ix2 0 j))
    (fun j k => w2 (ix2 j k)) (fun j => c2 (ix2 0 j)) q

end Cert.Egnn

end
-- ==== Proof.KHost.lean ====
/-
  The host operations around the two kernels, read back.

  Before the first kernel the program normalises the node features, reads the two endpoint rows of every edge and the
  distance between the endpoints, and cuts the first edge layer's weight matrix into its three column blocks; between
  the kernels it adds the gated messages into their source nodes and cuts the first node layer's weight matrix into its
  two column blocks. Each buffer a kernel is handed is the composed term of those operations over the contents the
  stretch starts from, and the stretches write no argument: every equation here is the fold of the operations' results
  computed.
-/
import proofs.«152079_j87643102642635_2_alg».proof.Proof.Gen.KernelIdeal.Launch
import proofs.«152079_j87643102642635_2_alg».proof.Proof.Spec
import Idealize.ShloMosaic.Lib.StableHlo.Run
import Idealize.ShloMosaic.Lib.Tactic

noncomputable section

namespace Cert.KernelIdeal.KHost

open Idealize.ShloMosaic Idealize.ShloMosaic.TcCoe Idealize.ShloMosaic.Tactic Idealize.ShloMosaic.StableHlo Cert.KernelIdeal Cert.KernelIdeal.Gen Cert.Egnn.Shared

variable {F : FTy → Type} [FloatOps F]

/-- The contents region 0 is entered with, from the contents at launch: the three stretches of host operations before it. -/
abbrev pre0 (V0 : Valuation τ sig (Elt F)) : Valuation τ sig (Elt F) :=
  after hostOps0_2 (after hostOps0_1 (after hostOps0 V0))

/-! ## Before region 0 -/

/-- The normalised node features. -/
theorem pre0_v18 (V0 : Valuation τ sig (Elt F)) : pre0 V0 (main_v18 : DevRef τ sig) = (hbn (V0 (main_arg0 : DevRef τ sig)) (V0 (main_arg3 : DevRef τ sig)) (V0 (main_arg4 : DevRef τ sig))) := by sl_kernel_rfl
/-- The source node of every edge. -/
theorem pre0_v20 (V0 : Valuation τ sig (Elt F)) : pre0 V0 (main_v20 : DevRef τ sig) = row0 (V0 (main_arg2 : DevRef τ sig)) := by sl_kernel_rfl
/-- The source rows of the normalised features, in the narrower format. -/
theorem pre0_v30 (V0 : Valuation τ sig (Elt F)) :
    pre0 V0 (main_v30 : DevRef τ sig) = rows (truncf .bf16 (hbn (V0 (main_arg0 : DevRef τ sig)) (V0 (main_arg3 : DevRef τ sig)) (V0 (main_arg4 : DevRef τ sig))) Facts₀.bitsLt_bf16_f32) (wrap (row0 (V0 (main_arg2 : DevRef τ sig)))) := by sl_kernel_rfl
/-- The destination rows. -/
theorem pre0_v37 (V0 : Valuation τ sig (Elt F)) :
    pre0 V0 (main_v37 : DevRef τ sig) = rows (truncf .bf16 (hbn (V0 (main_arg0 : DevRef τ sig)) (V0 (main_arg3 : DevRef τ sig)) (V0 (main_arg4 : DevRef τ sig))) Facts₀.bitsLt_bf16_f32) (wrap (row1 (V0 (main_arg2 : DevRef τ sig)))) := by sl_kernel_rfl
/-- The distance column, in the narrower format. -/
theorem pre0_v57 (V0 : Valuation τ sig (Elt F)) :
    pre0 V0 (main_v57 : DevRef τ sig) = truncf .bf16 (dist (V0 (main_arg1 : DevRef τ sig)) (V0 (main_arg2 : DevRef τ sig))) Facts₀.bitsLt_bf16_f32 := by sl_kernel_rfl
theorem pre0_v58 (V0 : Valuation τ sig (Elt F)) : pre0 V0 (main_v58 : DevRef τ sig) = edgeWa (V0 (main_arg5 : DevRef τ sig)) := by sl_kernel_rfl
theorem pre0_v59 (V0 : Valuation τ sig (Elt F)) : pre0 V0 (main_v59 : DevRef τ sig) = edgeWb (V0 (main_arg5 : DevRef τ sig)) := by sl_kernel_rfl
theorem pre0_v62 (V0 : Valuation τ sig (Elt F)) : pre0 V0 (main_v62 : DevRef τ sig) = edgeWc (V0 (main_arg5 : DevRef τ sig)) := by sl_kernel_rfl
theorem pre0_v63 (V0 : Valuation τ sig (Elt F)) : pre0 V0 (main_v63 : DevRef τ sig) = asRow (V0 (main_arg6 : DevRef τ sig)) := by sl_kernel_rfl
theorem pre0_v64 (V0 : Valuation τ sig (Elt F)) : pre0 V0 (main_v64 : DevRef τ sig) = asRow (V0 (main_arg8 : DevRef τ sig)) := by sl_kernel_rfl
theorem pre0_v65 (V0 : Valuation τ sig (Elt F)) : pre0 V0 (main_v65 : DevRef τ sig) = asCell (V0 (main_arg10 : DevRef τ sig)) := by sl_kernel_rfl
/-- No operation before region 0 writes an argument. -/
theorem pre0_arg7 (V0 : Valuation τ sig (Elt F)) : pre0 V0 (main_arg7 : DevRef τ sig) = (V0 (main_arg7 : DevRef τ sig)) := by sl_kernel_rfl
theorem pre0_arg9 (V0 : Valuation τ sig (Elt F)) : pre0 V0 (main_arg9 : DevRef τ sig) = (V0 (main_arg9 : DevRef τ sig)) := by sl_kernel_rfl
theorem pre0_arg11 (V0 : Valuation τ sig (Elt F)) : pre0 V0 (main_arg11 : DevRef τ sig) = (V0 (main_arg11 : DevRef τ sig)) := by sl_kernel_rfl
theorem pre0_arg12 (V0 : Valuation τ sig (Elt F)) : pre0 V0 (main_arg12 : DevRef τ sig) = (V0 (main_arg12 : DevRef τ sig)) := by sl_kernel_rfl
theorem pre0_arg13 (V0 : Valuation τ sig (Elt F)) : pre0 V0 (main_arg13 : DevRef τ sig) = (V0 (main_arg13 : DevRef τ sig)) := by sl_kernel_rfl
theorem pre0_arg14 (V0 : Valuation τ sig (Elt F)) : pre0 V0 (main_arg14 : DevRef τ sig) = (V0 (main_arg14 : DevRef τ sig)) := by sl_kernel_rfl

/-! ## Between the regions -/

/-- The gated messages, widened, added into their source nodes. -/
theorem post1_v70 (U : Valuation τ sig (Elt F)) :
    after hostOps1 U (main_v70 : DevRef τ sig)
      = segsum (U (main_v20 : DevRef τ sig)) (extf .f32 (U (main_v66 : DevRef τ sig)) Facts₀.bitsLt_bf16_f32) := by sl_kernel_rfl
theorem post1_v71 (U : Valuation τ sig (Elt F)) : after hostOps1 U (main_v71 : DevRef τ sig) = nodeWh (U (main_arg11 : DevRef τ sig)) := by sl_kernel_rfl
theorem post1_v72 (U : Valuation τ sig (Elt F)) : after hostOps1 U (main_v72 : DevRef τ sig) = nodeWm (U (main_arg11 : DevRef τ sig)) := by sl_kernel_rfl
theorem post1_v73 (U : Valuation τ sig (Elt F)) : after hostOps1 U (main_v73 : DevRef τ sig) = asRow (U (main_arg12 : DevRef τ sig)) := by sl_kernel_rfl
theorem post1_v74 (U : Valuation τ sig (Elt F)) : after hostOps1 U (main_v74 : DevRef τ sig) = asRow (U (main_arg14 : DevRef τ sig)) := by sl_kernel_rfl
theorem post1_v18 (U : Valuation τ sig (Elt F)) : after hostOps1 U (main_v18 : DevRef τ sig) = U (main_v18 : DevRef τ sig) := by sl_kernel_rfl
theorem post1_arg13 (U : Valuation τ sig (Elt F)) : after hostOps1 U (main_arg13 : DevRef τ sig) = U (main_arg13 : DevRef τ sig) := by sl_kernel_rfl

end Cert.KernelIdeal.KHost

end
-- ==== Proof.LibMatmulSum.lean ====
/-
  A matrix product with ONE contracted axis, read at an output index as a sum over that axis's positions.

  At the ideal instance a `tpu.matmul` into the zero accumulator, and the host's `dot_general`, are at every
  output index the sum over the contraction index of the products of the two operands' entries. When exactly one axis is
  contracted, the contraction index is one number `k < K`; if at the output index `j` the left operand is read at
  `L k` and the right one at `R k`, the entry is `∑ k : Fin K, lhs (L k) * rhs (R k)`. The two index facts are
  the only thing a caller supplies; they hold for any layout of the contracted and free axes.
-/
import Idealize.ShloMosaic.PureOps.Ideal.Laws
import Idealize.ShloMosaic.Lib.ValueIdx

noncomputable section

namespace Idealize.ShloMosaic.MatmulSum

open Idealize.ShloMosaic Idealize.ShloMosaic.ValueIdx

variable {sl sr so : Shape} {φ₁ φ₂ : FTy}

/-- A `tpu.matmul` into the zero splat with one contracted axis of extent `K`: at `j` it is the sum over `k < K` of the
    left operand at `L k` times the right operand at `R k`, where `L k` and `R k` are the operand indices the
    dimension numbers assign to output index `j` and contraction position `k`. -/
theorem matmul_zero_apply_single (D : DotDims sl sr so) (prec : Option ContractPrecision) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The host's `dot_general` with one contracted axis of extent `K`, read the same way. -/
theorem dotGeneral_apply_single (D : DotDims sl sr so) (prec : Option ContractPrecision) (sched : HostSchedule) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.dotGeneral D prec sched lhs rhs j = ∑ k : Fin K, lhs (L k) * rhs (R k) := by
  rw [Ideal.dotGeneral_apply, ← Equiv.sum_comp (contrEquiv1 D K hr hs).symm]
  exact Finset.sum_congr rfl fun k _ => by rw [hL k, hR k]

end Idealize.ShloMosaic.MatmulSum

end
-- ==== Proof.LibPlainMatmul.lean ====
/-
  The plain matrix product, M×K by K×N, read at an output entry.

  For the dimension numbers that contract the left operand's second axis with the right operand's first one and have no
  batch axes, the left operand is read at (p, l) and the right one at (l, q) when the output index is (p, q) and the
  contraction position is l. Hence, at the ideal instance, a matrix product into the zero accumulator and the host's
  product are at (p, q) the sum over l < K of lhs (p, l) * rhs (l, q), for every M, K, N and operand formats.
-/
import Idealize.ShloMosaic.PureOps.Ideal.Laws
import Idealize.ShloMosaic.Lib.ValueIdx
import proofs.«152079_j87643102642635_2_alg».proof.Proof.LibMatmulSum

noncomputable section

namespace Idealize.ShloMosaic.PlainMatmul

open Idealize.ShloMosaic Idealize.ShloMosaic.ValueIdx

variable (M K N : Nat)

/-- On its first axis (a free axis) the left operand's index is the output index's first coordinate. -/
theorem plain_lhs_0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On its second axis (the contracted one) the left operand's index is the contraction position. -/
theorem plain_lhs_1 (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- On its first axis (the contracted one) the right operand's index is the contraction position. -/
theorem plain_rhs_0 (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- On its second axis (a free axis) the right operand's index is the output index's second coordinate. -/
theorem plain_rhs_1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index (p, q) and contraction position l is (p, l). -/
theorem plain_lhsIdx (p : Fin M) (q : Fin N) (l : Fin K) :
    (DotDims.plain M K N).lhsIdx (ix2 p q) ((contrEquiv1 (DotDims.plain M K N) K rfl rfl).symm l) = ix2 p l :=
  funext fun a => Fin.ext (by
    match a with
    | ⟨0, _⟩ => exact plain_lhs_0 M K N _ _
    | ⟨1, _⟩ => exact (plain_lhs_1 M K N _ _).trans (contrEquiv1_symm_val (DotDims.plain M K N) K rfl rfl l))

/-- The right operand's index at output index (p, q) and contraction position l is (l, q). -/
theorem plain_rhsIdx (p : Fin M) (q : Fin N) (l : Fin K) :
    (DotDims.plain M K N).rhsIdx (ix2 p q) ((contrEquiv1 (DotDims.plain M K N) K rfl rfl).symm l) = ix2 l q :=
  funext fun a => Fin.ext (by
    match a with
    | ⟨0, _⟩ => exact (plain_rhs_0 M K N _ _).trans (contrEquiv1_symm_val (DotDims.plain M K N) K rfl rfl l)
    | ⟨1, _⟩ => exact plain_rhs_1 M K N _ _)

/-- A matrix product M×K by K×N into the zero accumulator is, at (p, q), the sum over l of lhs (p, l) * rhs (l, q). -/
theorem plain_matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ l : Fin K, lhs (ix2 p l) * rhs (ix2 l q) :=
  MatmulSum.matmul_zero_apply_single (DotDims.plain M K N) prec K rfl rfl lhs rhs (ix2 p q) (fun l => ix2 p l) (fun l => ix2 l q)
    (plain_lhsIdx M K N p q) (plain_rhsIdx M K N p q)

/-- The host's product M×K by K×N is, at (p, q), the sum over l of lhs (p, l) * rhs (l, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  MatmulSum.dotGeneral_apply_single (DotDims.plain M K N) prec sched K rfl rfl lhs rhs (ix2 p q) (fun l => ix2 p l) (fun l => ix2 l q)
    (plain_lhsIdx M K N p q) (plain_rhsIdx M K N p q)

end Idealize.ShloMosaic.PlainMatmul

end
-- ==== Proof.KPay.lean ====
/-
  What the two kernels store, read at one entry.

  The edge kernel's stored block is, at row p and unit q, the gated message of edge p: with a, b the two endpoint rows
  and d the distance, the first layer is a Waᵀ + b Wbᵀ + d wc + c1 (three products, one per column block of the weight
  matrix, summed), then SiLU, a second layer m W2ᵀ + c2, SiLU, and the sigmoid of the gate's logit m2 fwᵀ + fb times m2.
  The node kernel's stored block is, at row p and feature q, h + (silu (h Whᵀ + m Wmᵀ + c1) W2ᵀ + c2).

  Each matrix product with a transposed weight matrix is, at (p, q), the sum over l of x (p, l) * W (q, l); a row
  broadcast reads its one row, a column broadcast its one column; a change of float format is the identity on the
  extended reals. Assembled, the stored value at (p, q) is the row function of the specification (g0, g1) at row p.
-/
import proofs.«152079_j87643102642635_2_alg».proof.Proof.Gen.KernelIdeal.Skeleton
import proofs.«152079_j87643102642635_2_alg».proof.Proof.Spec
import proofs.«152079_j87643102642635_2_alg».proof.Proof.LibPlainMatmul
import Idealize.ShloMosaic.Lib.ValueLayout
import Idealize.ShloMosaic.Lib.Pipeline.Value

noncomputable section

namespace Cert.KernelIdeal.KPay

open Idealize.ShloMosaic Idealize.ShloMosaic.ValueIdx Cert.KernelIdeal Cert.KernelIdeal.Facts₀

/-- A product with a transposed weight matrix: x Wᵀ at (p, q) is the sum over l of x (p, l) * W (q, l). -/
theorem matmulT_apply {n m : Nat} {φ ψ : FTy} (D : DotDims ⟨2, ![n, 128]⟩ ⟨2, ![128, m]⟩ ⟨2, ![n, m]⟩) (hD : D = DotDims.plain n 128 m)
    (X : FVec Ideal ⟨2, ![n, 128]⟩ φ) (W : FVec Ideal ⟨2, ![m, 128]⟩ ψ)
    (hT : (⟨2, ![m, 128]⟩ : Shape).Transposes [1, 0] ⟨2, ![128, m]⟩) (p : Fin n) (q : Fin m) :
    matmul D none X (transpose ⟨2, ![128, m]⟩ [1, 0] W hT) (constant ⟨2, ![n, m]⟩ .f32 0x00000000#32) (ix2 p q)
      = ∑ l : Fin 128, X (ix2 p l) * W (ix2 q l) := by
  subst hD
  refine (PlainMatmul.plain_matmul_zero_apply n 128 m none X _ p q).trans ?_
  exact Finset.sum_congr rfl fun l _ => congrArg (X (ix2 p l) * ·) (transpose_ix2_apply W hT l q)

/-- A column broadcast along the rows' entries: an [a, 1] array broadcast to [a, b] reads, at (p, c), the column at p. -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A first layer on two row operands: x Aᵀ + y Bᵀ + c at (p, k) is the two row products plus the bias at k. -/
theorem layer2_apply {n : Nat} {φ ψ : FTy} (D : DotDims ⟨2, ![n, 128]⟩ ⟨2, ![128, 128]⟩ ⟨2, ![n, 128]⟩) (hD : D = DotDims.plain n 128 128)
    (X Y : FVec Ideal ⟨2, ![n, 128]⟩ φ) (A B : FVec Ideal ⟨2, ![128, 128]⟩ ψ) (c : FVec Ideal ⟨2, ![1, 128]⟩ .f32)
    (hT : (⟨2, ![128, 128]⟩ : Shape).Transposes [1, 0] ⟨2, ![128, 128]⟩)
    (hB : (⟨2, ![1, 128]⟩ : Shape).Broadcasts ⟨2, ![n, 128]⟩) (p : Fin n) (k : Fin 128) :
    addf (addf (matmul D none X (transpose ⟨2, ![128, 128]⟩ [1, 0] A hT) (constant ⟨2, ![n, 128]⟩ .f32 0x00000000#32))
        (matmul D none Y (transpose ⟨2, ![128, 128]⟩ [1, 0] B hT) (constant ⟨2, ![n, 128]⟩ .f32 0x00000000#32)))
      (broadcastTo ⟨2, ![n, 128]⟩ c hB) (ix2 p k)
      = (∑ l : Fin 128, X (ix2 p l) * A (ix2 k l)) + (∑ l : Fin 128, Y (ix2 p l) * B (ix2 k l)) + c (ix2 (0 : Fin 1) k) := by
  show (matmul D none X _ _ (ix2 p k) : EReal) + (matmul D none Y _ _ (ix2 p k) : EReal) + (broadcastTo ⟨2, ![n, 128]⟩ c hB (ix2 p k) : EReal) = _
  rw [matmulT_apply D hD X A hT p k, matmulT_apply D hD Y B hT p k, broadcastTo_1b_ab_apply c hB p k]

/-- The payload of a hidden unit: the SiLU of a pre-activation array, kept in the narrower format, read at an index. -/
theorem silu_apply {s : Shape} (Z : FVec Ideal s .f32) (h : FTy.bf16.bits < FTy.f32.bits) (i : s.Idx) :
    (truncf .bf16 (mulf Z (logistic Z)) h : FVec Ideal s .bf16) i = Cert.Egnn.silu (Z i) := rfl

/-- The edge network's first layer on two row operands and a column: x Aᵀ + y Bᵀ + d wc + c at (p, k). -/
theorem layer3_apply {n : Nat} {φ ψ : FTy} (D : DotDims ⟨2, ![n, 128]⟩ ⟨2, ![128, 128]⟩ ⟨2, ![n, 128]⟩) (hD : D = DotDims.plain n 128 128)
    (X Y : FVec Ideal ⟨2, ![n, 128]⟩ φ) (d : FVec Ideal ⟨2, ![n, 1]⟩ .f32) (A B : FVec Ideal ⟨2, ![128, 128]⟩ ψ)
    (wc c : FVec Ideal ⟨2, ![1, 128]⟩ .f32)
    (hT : (⟨2, ![128, 128]⟩ : Shape).Transposes [1, 0] ⟨2, ![128, 128]⟩)
    (hC : (⟨2, ![n, 1]⟩ : Shape).Broadcasts ⟨2, ![n, 128]⟩)
    (hB : (⟨2, ![1, 128]⟩ : Shape).Broadcasts ⟨2, ![n, 128]⟩) (p : Fin n) (k : Fin 128) :
    addf (addf (addf (matmul D none X (transpose ⟨2, ![128, 128]⟩ [1, 0] A hT) (constant ⟨2, ![n, 128]⟩ .f32 0x00000000#32))
          (matmul D none Y (transpose ⟨2, ![128, 128]⟩ [1, 0] B hT) (constant ⟨2, ![n, 128]⟩ .f32 0x00000000#32)))
        (mulf (broadcastTo ⟨2, ![n, 128]⟩ d hC) (broadcastTo ⟨2, ![n, 128]⟩ wc hB)))
      (broadcastTo ⟨2, ![n, 128]⟩ c hB) (ix2 p k)
      = (∑ l : Fin 128, X (ix2 p l) * A (ix2 k l)) + (∑ l : Fin 128, Y (ix2 p l) * B (ix2 k l))
          + d (ix2 p (0 : Fin 1)) * wc (ix2 (0 : Fin 1) k) + c (ix2 (0 : Fin 1) k) := by
  show (matmul D none X _ _ (ix2 p k) : EReal) + (matmul D none Y _ _ (ix2 p k) : EReal)
      + (broadcastTo ⟨2, ![n, 128]⟩ d hC (ix2 p k) : EReal) * (broadcastTo ⟨2, ![n, 128]⟩ wc hB (ix2 p k) : EReal)
      + (broadcastTo ⟨2, ![n, 128]⟩ c hB (ix2 p k) : EReal) = _
  rw [matmulT_apply D hD X A hT p k, matmulT_apply D hD Y B hT p k, broadcastTo_a1_ab_apply d hC p k,
    broadcastTo_1b_ab_apply wc hB p k, broadcastTo_1b_ab_apply c hB p k]

/-- A later layer: m Wᵀ + c at (p, j). -/
theorem layer1_apply {n : Nat} {φ ψ : FTy} (D : DotDims ⟨2, ![n, 128]⟩ ⟨2, ![128, 128]⟩ ⟨2, ![n, 128]⟩) (hD : D = DotDims.plain n 128 128)
    (M : FVec Ideal ⟨2, ![n, 128]⟩ φ) (W : FVec Ideal ⟨2, ![128, 128]⟩ ψ) (c : FVec Ideal ⟨2, ![1, 128]⟩ .f32)
    (hT : (⟨2, ![128, 128]⟩ : Shape).Transposes [1, 0] ⟨2, ![128, 128]⟩)
    (hB : (⟨2, ![1, 128]⟩ : Shape).Broadcasts ⟨2, ![n, 128]⟩) (p : Fin n) (j : Fin 128) :
    addf (matmul D none M (transpose ⟨2, ![128, 128]⟩ [1, 0] W hT) (constant ⟨2, ![n, 128]⟩ .f32 0x00000000#32))
      (broadcastTo ⟨2, ![n, 128]⟩ c hB) (ix2 p j)
      = (∑ k : Fin 128, M (ix2 p k) * W (ix2 j k)) + c (ix2 (0 : Fin 1) j) := by
  show (matmul D none M _ _ (ix2 p j) : EReal) + (broadcastTo ⟨2, ![n, 128]⟩ c hB (ix2 p j) : EReal) = _
  rw [matmulT_apply D hD M W hT p j, broadcastTo_1b_ab_apply c hB p j]

/-- The gate's logit: m wᵀ + c for one output unit, at row p. -/
theorem layerG_apply {n : Nat} {φ ψ : FTy} (D : DotDims ⟨2, ![n, 128]⟩ ⟨2, ![128, 1]⟩ ⟨2, ![n, 1]⟩) (hD : D = DotDims.plain n 128 1)
    (M : FVec Ideal ⟨2, ![n, 128]⟩ φ) (w : FVec Ideal ⟨2, ![1, 128]⟩ ψ) (c : FVec Ideal ⟨2, ![1, 1]⟩ .f32)
    (hT : (⟨2, ![1, 128]⟩ : Shape).Transposes [1, 0] ⟨2, ![128, 1]⟩)
    (hB : (⟨2, ![1, 1]⟩ : Shape).Broadcasts ⟨2, ![n, 1]⟩) (p : Fin n) :
    addf (matmul D none M (transpose ⟨2, ![128, 1]⟩ [1, 0] w hT) (constant ⟨2, ![n, 1]⟩ .f32 0x00000000#32))
      (broadcastTo ⟨2, ![n, 1]⟩ c hB) (ix2 p (0 : Fin 1))
      = (∑ k : Fin 128, M (ix2 p k) * w (ix2 (0 : Fin 1) k)) + c (ix2 (0 : Fin 1) (0 : Fin 1)) := by
  show (matmul D none M _ _ (ix2 p (0 : Fin 1)) : EReal) + (broadcastTo ⟨2, ![n, 1]⟩ c hB (ix2 p (0 : Fin 1)) : EReal) = _
  rw [matmulT_apply D hD M w hT p (0 : Fin 1), broadcastTo_1b_ab_apply c hB p (0 : Fin 1)]

/-- The SiLU of a pre-activation array read at an index. -/
theorem silu_apply' {s : Shape} (Z : FVec Ideal s .f32) (i : s.Idx) : mulf Z (logistic Z) i = Cert.Egnn.silu (Z i) := rfl

/-- A gated message: the gate column broadcast along the row, times the hidden layer, read at (p, q). -/
theorem gate_apply {n : Nat} (G : FVec Ideal ⟨2, ![n, 1]⟩ .f32) (M : FVec Ideal ⟨2, ![n, 128]⟩ .f32)
    (hC : (⟨2, ![n, 1]⟩ : Shape).Broadcasts ⟨2, ![n, 128]⟩) (h : FTy.bf16.bits < FTy.f32.bits) (p : Fin n) (q : Fin 128) :
    (truncf .bf16 (mulf (broadcastTo ⟨2, ![n, 128]⟩ G hC) M) h : FVec Ideal ⟨2, ![n, 128]⟩ .bf16) (ix2 p q)
      = G (ix2 p (0 : Fin 1)) * M (ix2 p q) := by
  show (broadcastTo ⟨2, ![n, 128]⟩ G hC (ix2 p q) : EReal) * (M (ix2 p q) : EReal) = _
  rw [broadcastTo_a1_ab_apply G hC p q]

/-- The node kernel's stored value at (p, q) is the node update of row p: the node's own feature plus the second layer
    over the SiLU of the first, the first layer the sum of the products with the two column blocks. -/
theorem pay1_apply (x0 x1 : Vec Ideal S5000x128 .f32) (x2 x3 : Vec Ideal S128x128 .f32) (x4 : Vec Ideal S1x128 .f32)
    (x5 : Vec Ideal S128x128 .f32) (x6 : Vec Ideal S1x128 .f32) (p : Fin 5000) (q : Fin 128) :
    Gen.k1_pay1 x0 x1 x2 x3 x4 x5 x6 (ix2 p q) = Cert.Egnn.g1 (n := 5000) x0 x1 x2 x3 x4 x5 x6 p q := by
  unfold Gen.k1_pay1 Cert.Egnn.g1 Cert.Egnn.nodeOut
  dsimp only
  simp only [shapeCast_self]
  show (x0 (ix2 p q) : EReal) + ((matmul (F := Ideal) _ none _ _ _ (ix2 p q) : EReal) + (broadcastTo S5000x128 x6 _ (ix2 p q) : EReal)) = _
  rw [broadcastTo_1b_ab_apply x6 _ p q, matmulT_apply dot_S5000x128_S128x128_S5000x128_1_0_0_1_n_n rfl _ _ _ p q]
  refine congrArg (x0 (ix2 p q) + ·) (congrArg (· + x6 (ix2 (0 : Fin 1) q)) (Finset.sum_congr rfl fun k _ => ?_))
  rw [silu_apply, layer2_apply dot_S5000x128_S128x128_S5000x128_1_0_0_1_n_n rfl _ _ _ _ _ _ _ p k]
  rfl

/-- A sigmoid of a pre-activation array read at an index. -/
theorem logistic_apply {s : Shape} (Z : FVec Ideal s .f32) (i : s.Idx) : logistic Z i = Ideal.logistic (Z i) := rfl

/-- The edge kernel's stored value at (p, q) is the gated message of edge row p at unit q: the first layer the sum of
    the products with the source block, the destination block and the distance column of the weights. -/
theorem pay0_apply (x0 x1 : Vec Ideal S8000x128 .bf16) (x2 : Vec Ideal S8000x1 .bf16) (x3 x4 : Vec Ideal S128x128 .f32)
    (x5 x6 : Vec Ideal S1x128 .f32) (x7 : Vec Ideal S128x128 .f32) (x8 x9 : Vec Ideal S1x128 .f32) (x10 : Vec Ideal S1x1 .f32)
    (p : Fin 8000) (q : Fin 128) :
    Gen.k0_pay1 (Gen.k0_pay2 x0 x1 x3 x4 x2 x5 x6 x7) (Gen.k0_pay3 x8) x9 x10 (ix2 p q)
      = Cert.Egnn.g0 (n := 8000) (φa := .bf16) (φd := .bf16) x0 x1 x2 x3 x4 x5 x6 x7 x8 x9 x10 p q := by
  unfold Gen.k0_pay1 Gen.k0_pay2 Gen.k0_pay3 Cert.Egnn.g0 Cert.Egnn.edgeOut Cert.Egnn.edgeM2 Cert.Egnn.edgeL1
  dsimp only
  simp only [shapeCast_self]
  rw [gate_apply]
  simp only [logistic_apply, silu_apply, silu_apply',
    layerG_apply dot_S8000x128_S128x1_S8000x1_1_0_0_1_n_n rfl,
    layer1_apply dot_S8000x128_S128x128_S8000x128_1_0_0_1_n_n rfl,
    layer3_apply dot_S8000x128_S128x128_S8000x128_1_0_0_1_n_n rfl]
  rfl

end Cert.KernelIdeal.KPay

end
-- ==== Proof.KValue.lean ====
/- The two kernels' output arrays as whole-array functions.

   Each kernel runs over a one-dimensional grid; point t reads rows [R t, R t + R) of its row-blocked operands (R = 8000
   edges per point for the edge kernel, 5000 nodes per point for the node kernel), reads every weight array whole, and
   writes rows [R t, R t + R) of its output array.  Entry (p, q) of the stored block is the network's row function at
   row p of the blocks; since that function reads only row p of the row-blocked operands, it is the same function at row
   R t + p of the whole arrays.  So every written block is the restriction of ONE function of the whole arrays — the
   specification's g0 (edges) and g1 (nodes) — and the blocks of the grid's points tile the output array (row r lies in
   the block of point r / R), so after the region the output array IS that function.  All of this holds for any
   contents V the region is entered with. -/
import proofs.«152079_j87643102642635_2_alg».proof.Proof.Gen.KernelIdeal.Frame
import proofs.«152079_j87643102642635_2_alg».proof.Proof.Spec
import proofs.«152079_j87643102642635_2_alg».proof.Proof.KPay
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.KValue
open Cert.KernelIdeal Cert.KernelIdeal.Gen

/-- The offsets of a store or load of a whole staging buffer are zero on both axes. -/
theorem hz : (![0, 0] : Fin 2 → Nat) = fun _ => 0 := funext fun a => by fin_cases a <;> rfl

/-! ## The node network: region 1 -/

/-- Entry (p, q) of the node network reads only row p of its two row operands: two settings whose rows agree there
    (row p of a block, row P of the whole array) give the same entry. -/
theorem g1_rows {n N : Nat} (h mi : FVec Ideal ⟨2, ![n, 128]⟩ .f32) (H M : FVec Ideal ⟨2, ![N, 128]⟩ .f32)
    (wh wm : FVec Ideal ⟨2, ![128, 128]⟩ .f32) (c1 : FVec Ideal ⟨2, ![1, 128]⟩ .f32)
    (w2 : FVec Ideal ⟨2, ![128, 128]⟩ .f32) (c2 : FVec Ideal ⟨2, ![1, 128]⟩ .f32)
    (p : Fin n) (P : Fin N) (q : Fin 128)
    (hh : ∀ k : Fin 128, h (ix2 p k) = H (ix2 P k)) (hm : ∀ k : Fin 128, mi (ix2 p k) = M (ix2 P k)) :
    Cert.Egnn.g1 h mi wh wm c1 w2 c2 p q = Cert.Egnn.g1 H M wh wm c1 w2 c2 P q := by
  unfold Cert.Egnn.g1
  rw [show (fun k => h (ix2 p k)) = fun k => H (ix2 P k) from funext hh,
      show (fun k => mi (ix2 p k)) = fun k => M (ix2 P k) from funext hm]

/-- What the node kernel stores at entry (p, q) of a block, over the whole arrays: when rows p of the two blocked
    operands are rows P of the whole arrays and the five weight blocks are the whole weight arrays, the stored value is
    the node network's entry (P, q) over the whole arrays. -/
theorem pay1_block (X0 X1 : FVec Ideal S50000x128 .f32) (X2 X3 : FVec Ideal S128x128 .f32) (X4 : FVec Ideal S1x128 .f32)
    (X5 : FVec Ideal S128x128 .f32) (X6 : FVec Ideal S1x128 .f32)
    (x0 x1 : Vec Ideal S5000x128 .f32) (x2 x3 : Vec Ideal S128x128 .f32) (x4 : Vec Ideal S1x128 .f32)
    (x5 : Vec Ideal S128x128 .f32) (x6 : Vec Ideal S1x128 .f32)
    (p : Fin 5000) (q : Fin 128) (P : Fin 50000)
    (h0 : ∀ k : Fin 128, x0 (ix2 p k) = X0 (ix2 P k)) (h1 : ∀ k : Fin 128, x1 (ix2 p k) = X1 (ix2 P k))
    (h2 : x2 = X2) (h3 : x3 = X3) (h4 : x4 = X4) (h5 : x5 = X5) (h6 : x6 = X6) :
    Gen.k1_pay1 x0 x1 x2 x3 x4 x5 x6 (ix2 p q) = Cert.Egnn.g1 (n := 50000) X0 X1 X2 X3 X4 X5 X6 P q := by
  subst h2 h3 h4 h5 h6
  exact (KPay.pay1_apply x0 x1 x2 x3 x4 x5 x6 p q).trans (g1_rows x0 x1 X0 X1 x2 x3 x4 x5 x6 p P q h0 h1)

/-! The node kernel's index maps over its ten grid points: the two row-blocked inputs and the output sit at block row
    t, block column 0; the five weight windows at block (0, 0). -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = t.val ∧ win1_7.index t (1 : Fin 2) = 0 :=
  (by decide +kernel : ∀ t : Fin grid1.N, _)

variable (V : (c : Dev nD) → (b : Ref sig .tc) → Buf (Elt Ideal) ((c : Thread nD τ).loc b))

/-! Each input block read where it sits in its array: a block's entry (y0, y1) is the array's entry
    (block row × rows per block + y0, block column × columns per block + y1). -/

theorem blk1_0_row (c : Dev nD) (t : Fin cfg1.N) (p : Fin 5000) (k : Fin 128) (P : Fin 50000)
    (hP : P.val = 5000 * t.val + p.val) : Gen.iblk1 V c 0 t (ix2 p k) = V c main_v18 (ix2 P k) := by
  obtain ⟨e0, e1⟩ := idx1_0 t
  show V c main_v18 (((cfg1.win 0).blk t).view.emb (ix2 p k)) = V c main_v18 (ix2 P k)
  refine congrArg _ ?_
  funext a; apply Fin.ext
  match a with
  | ⟨0, _⟩ => show win1_0.index t (0 : Fin 2) * 5000 + 1 * p.val = P.val; omega
  | ⟨1, _⟩ => show win1_0.index t (1 : Fin 2) * 128 + 1 * k.val = k.val; omega

theorem blk1_1_row (c : Dev nD) (t : Fin cfg1.N) (p : Fin 5000) (k : Fin 128) (P : Fin 50000)
    (hP : P.val = 5000 * t.val + p.val) : Gen.iblk1 V c 1 t (ix2 p k) = V c main_v70 (ix2 P k) := by
  obtain ⟨e0, e1⟩ := idx1_1 t
  show V c main_v70 (((cfg1.win 1).blk t).view.emb (ix2 p k)) = V c main_v70 (ix2 P k)
  refine congrArg _ ?_
  funext a; apply Fin.ext
  match a with
  | ⟨0, _⟩ => show win1_1.index t (0 : Fin 2) * 5000 + 1 * p.val = P.val; omega
  | ⟨1, _⟩ => show win1_1.index t (1 : Fin 2) * 128 + 1 * k.val = k.val; omega

theorem blk1_2_whole (c : Dev nD) (t : Fin cfg1.N) : Gen.iblk1 V c 2 t = V c main_v71 := by
  obtain ⟨e0, e1⟩ := idx1_2 t
  funext y
  show V c main_v71 (((cfg1.win 2).blk t).view.emb y) = V c main_v71 y
  refine congrArg _ ?_
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem blk1_3_whole (c : Dev nD) (t : Fin cfg1.N) : Gen.iblk1 V c 3 t = V c main_v72 := by
  obtain ⟨e0, e1⟩ := idx1_3 t
  funext y
  show V c main_v72 (((cfg1.win 3).blk t).view.emb y) = V c main_v72 y
  refine congrArg _ ?_
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem blk1_4_whole (c : Dev nD) (t : Fin cfg1.N) : Gen.iblk1 V c 4 t = V c main_v73 := by
  obtain ⟨e0, e1⟩ := idx1_4 t
  funext y
  show V c main_v73 (((cfg1.win 4).blk t).view.emb y) = V c main_v73 y
  refine congrArg _ ?_
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

theorem blk1_5_whole (c : Dev nD) (t : Fin cfg1.N) : Gen.iblk1 V c 5 t = V c main_arg13 := by
  obtain ⟨e0, e1⟩ := idx1_5 t
  funext y
  show V c main_arg13 (((cfg1.win 5).blk t).view.emb y) = V c main_arg13 y
  refine congrArg _ ?_
  funext a; apply Fin.ext
  match a with
  | ⟨0, _⟩ => show win1_5.index t (0 : Fin 2) * 128 + 1 * (y 0).val = (y 0).val; omega
  | ⟨1, _⟩ => show win1_5.index t (1 : Fin 2) * 128 + 1 * (y 1).val = (y 1).val; omega

theorem blk1_6_whole (c : Dev nD) (t : Fin cfg1.N) : Gen.iblk1 V c 6 t = V c main_v74 := by
  obtain ⟨e0, e1⟩ := idx1_6 t
  funext y
  show V c main_v74 (((cfg1.win 6).blk t).view.emb y) = V c main_v74 y
  refine congrArg _ ?_
  funext a; apply Fin.ext
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- The node array the region leaves: the node network row by row over the arrays the region was entered with. -/
abbrev G1 (c : Dev nD) : S50000x128.Idx → EReal :=
  fun i => Cert.Egnn.g1 (n := 50000) (V c main_v18) (V c main_v70) (V c main_v71) (V c main_v72) (V c main_v73) (V c main_arg13) (V c main_v74) (i 0) (i 1)

/-- Where entry (p, q) of the output block of point t sits in the node array: row 5000 t + p, column q. -/
theorem out1_emb (t : Fin cfg1.N) (p : Fin 5000) (q : Fin 128) (P : Fin 50000) (hP : P.val = 5000 * t.val + p.val) :
    ((cfg1.win 7).blk t).view.emb (ix2 p q) = ix2 P q := by
  obtain ⟨e0, e1⟩ := idx1_7 t
  funext a; apply Fin.ext
  match a with
  | ⟨0, _⟩ => show win1_7.index t (0 : Fin 2) * 5000 + 1 * p.val = P.val; omega
  | ⟨1, _⟩ => show win1_7.index t (1 : Fin 2) * 128 + 1 * q.val = q.val; omega

/-- WHAT POINT t WRITES BACK is block t of the node network over the entry arrays. -/
theorem flushed1_eq (c : Dev nD) (t : Fin cfg1.N) :
    (Gen.dat1 (F := Ideal) V c).flushed 7 t = ((cfg1.win 7).blk t).view.read (Elt Ideal) (G1 V c) := by
  show (cfg1.win 7).cut (grid1.coords t) ((Gen.dat1 V c).after 7 t) = _
  rw [Gen.after1_7]
  unfold Gen.out1_7
  rw [View.canon_unit_zero hz]
  simp only [View.ld_unit_zero (S := S5000x128) hz, View.ld_unit_zero (S := S128x128) hz, View.ld_unit_zero (S := S1x128) hz]
  have hN : cfg1.N = 10 := Gen.N_1
  have ht : t.val < 10 := hN ▸ t.isLt
  funext j
  obtain ⟨p, q, rfl⟩ : ∃ (p : Fin 5000) (q : Fin 128), j = ix2 p q := ⟨j 0, j 1, eq_ix2 j⟩
  obtain ⟨P, hP⟩ : ∃ P : Fin 50000, P.val = 5000 * t.val + p.val := ⟨⟨5000 * t.val + p.val, by have := p.isLt; omega⟩, rfl⟩
  show Gen.k1_pay1 (Gen.iblk1 V c 0 t) (Gen.iblk1 V c 1 t) (Gen.iblk1 V c 2 t) (Gen.iblk1 V c 3 t) (Gen.iblk1 V c 4 t) (Gen.iblk1 V c 5 t) (Gen.iblk1 V c 6 t) (ix2 p q)
      = G1 V c (((cfg1.win 7).blk t).view.emb (ix2 p q))
  rw [out1_emb t p q P hP]
  exact pay1_block (V c main_v18) (V c main_v70) (V c main_v71) (V c main_v72) (V c main_v73) (V c main_arg13) (V c main_v74)
    (Gen.iblk1 V c 0 t) (Gen.iblk1 V c 1 t) (Gen.iblk1 V c 2 t) (Gen.iblk1 V c 3 t) (Gen.iblk1 V c 4 t) (Gen.iblk1 V c 5 t) (Gen.iblk1 V c 6 t)
    p q P (fun k => blk1_0_row V c t p k P hP) (fun k => blk1_1_row V c t p k P hP)
    (blk1_2_whole V c t) (blk1_3_whole V c t) (blk1_4_whole V c t) (blk1_5_whole V c t) (blk1_6_whole V c t)

/-- An index of the node array is in point t's block iff each coordinate is in the block's range on its axis. -/
theorem mem_blk1 (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v75).slice (win1_7.rect t)).set ↔ _
  rw [View.set_slice_whole, Rect.mem_set_unit]
  exact Iff.rfl

/-- The ten blocks of 5000 rows tile the 50000 rows: row r is in the block of point r / 5000. -/
theorem cover1 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 10 := Gen.N_1
  obtain ⟨t, ht⟩ : ∃ t : Fin cfg1.N, t.val = (i 0).val / 5000 := ⟨⟨(i 0).val / 5000, by rw [hN]; omega⟩, rfl⟩
  obtain ⟨e0, e1⟩ := idx1_7 t
  refine ⟨t, Gen.flush1_7 t, ?_⟩
  rw [mem_blk1]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-- THE NODE ARRAY after region 1, for any entry contents: the node network, row by row, of the arrays the region was
    entered with. -/
theorem region1_value (c : Dev nD) :
    (Gen.dat1 (F := Ideal) V c).arrAt 7 cfg1.N
      = fun i => Cert.Egnn.g1 (n := 50000) (V c main_v18) (V c main_v70) (V c main_v71) (V c main_v72) (V c main_v73) (V c main_arg13) (V c main_v74) (i 0) (i 1) :=
  (Gen.dat1 V c).arrAt_eq_of_cover 7 (G1 V c) (fun t _ => flushed1_eq V c t) (cover1)

/-! ## The edge network: region 0 -/

/-- Entry (p, q) of the edge network reads only row p of its three row operands (the two endpoint rows and the
    distance): two settings whose rows agree there give the same entry. -/
theorem g0_rows {n N : Nat} {φa φd : FTy} (hs he : FVec Ideal ⟨2, ![n, 128]⟩ φa) (d : FVec Ideal ⟨2, ![n, 1]⟩ φd)
    (Hs He : FVec Ideal ⟨2, ![N, 128]⟩ φa) (D : FVec Ideal ⟨2, ![N, 1]⟩ φd)
    (w1a w1b : FVec Ideal ⟨2, ![128, 128]⟩ .f32) (w1c b1 : FVec Ideal ⟨2, ![1, 128]⟩ .f32)
    (w2 : FVec Ideal ⟨2, ![128, 128]⟩ .f32) (b2 fw : FVec Ideal ⟨2, ![1, 128]⟩ .f32) (fb : FVec Ideal ⟨2, ![1, 1]⟩ .f32)
    (p : Fin n) (P : Fin N) (q : Fin 128)
    (hhs : ∀ k : Fin 128, hs (ix2 p k) = Hs (ix2 P k)) (hhe : ∀ k : Fin 128, he (ix2 p k) = He (ix2 P k))
    (hd : d (ix2 p 0) = D (ix2 P 0)) :
    Cert.Egnn.g0 hs he d w1a w1b w1c b1 w2 b2 fw fb p q = Cert.Egnn.g0 Hs He D w1a w1b w1c b1 w2 b2 fw fb P q := by
  unfold Cert.Egnn.g0
  rw [show (fun k => hs (ix2 p k)) = fun k => Hs (ix2 P k) from funext hhs,
      show (fun k => he (ix2 p k)) = fun k => He (ix2 P k) from funext hhe, hd]

/-- What the edge kernel stores at entry (p, q) of a block, over the whole arrays: when rows p of the three blocked
    operands are rows P of the whole arrays and the eight weight blocks are the whole weight arrays, the stored value is
    the edge network's entry (P, q) over the whole arrays. -/
theorem pay0_block (X0 X1 : FVec Ideal S800000x128 .bf16) (X2 : FVec Ideal S800000x1 .bf16) (X3 X4 : FVec Ideal S128x128 .f32)
    (X5 X6 : FVec Ideal S1x128 .f32) (X7 : FVec Ideal S128x128 .f32) (X8 X9 : FVec Ideal S1x128 .f32) (X10 : FVec Ideal S1x1 .f32)
    (x0 x1 : Vec Ideal S8000x128 .bf16) (x2 : Vec Ideal S8000x1 .bf16) (x3 x4 : Vec Ideal S128x128 .f32)
    (x5 x6 : Vec Ideal S1x128 .f32) (x7 : Vec Ideal S128x128 .f32) (x8 x9 : Vec Ideal S1x128 .f32) (x10 : Vec Ideal S1x1 .f32)
    (p : Fin 8000) (q : Fin 128) (P : Fin 800000)
    (h0 : ∀ k : Fin 128, x0 (ix2 p k) = X0 (ix2 P k)) (h1 : ∀ k : Fin 128, x1 (ix2 p k) = X1 (ix2 P k))
    (h2 : x2 (ix2 p (0 : Fin 1)) = X2 (ix2 P (0 : Fin 1)))
    (h3 : x3 = X3) (h4 : x4 = X4) (h5 : x5 = X5) (h6 : x6 = X6) (h7 : x7 = X7) (h8 : x8 = X8) (h9 : x9 = X9) (h10 : x10 = X10) :
    Gen.k0_pay1 (Gen.k0_pay2 x0 x1 x3 x4 x2 x5 x6 x7) (Gen.k0_pay3 x8) x9 x10 (ix2 p q)
      = Cert.Egnn.g0 (n := 800000) (φa := .bf16) (φd := .bf16) X0 X1 X2 X3 X4 X5 X6 X7 X8 X9 X10 P q := by
  subst h3 h4 h5 h6 h7 h8 h9 h10
  exact (KPay.pay0_apply x0 x1 x2 x3 x4 x5 x6 x7 x8 x9 x10 p q).trans
    (g0_rows (φa := .bf16) (φd := .bf16) x0 x1 x2 X0 X1 X2 x3 x4 x5 x6 x7 x8 x9 x10 p P q h0 h1 h2)

/-! The edge kernel's index maps over its hundred grid points: the three row-blocked inputs and the output sit at block
    row t, block column 0; the eight weight windows at block (0, 0). -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx0_10 : ∀ t : Fin cfg0.N, win0_10.index t (0 : Fin 2) = 0 ∧ win0_10.index t (1 : Fin 2) = 0 :=
  (by decide +kernel : ∀ t : Fin grid0.N, _)
theorem idx0_11 : ∀ t : Fin cfg0.N, win0_11.index t (0 : Fin 2) = t.val ∧ win0_11.index t (1 : Fin 2) = 0 :=
  (by decide +kernel : ∀ t : Fin grid0.N, _)

/-! Each input block read where it sits in its array. -/

theorem blk0_0_row (c : Dev nD) (t : Fin cfg0.N) (p : Fin 8000) (k : Fin 128) (P : Fin 800000)
    (hP : P.val = 8000 * t.val + p.val) : Gen.iblk0 V c 0 t (ix2 p k) = V c main_v30 (ix2 P k) := by
  obtain ⟨e0, e1⟩ := idx0_0 t
  show V c main_v30 (((cfg0.win 0).blk t).view.emb (ix2 p k)) = V c main_v30 (ix2 P k)
  refine congrArg _ ?_
  funext a; apply Fin.ext
  match a with
  | ⟨0, _⟩ => show win0_0.index t (0 : Fin 2) * 8000 + 1 * p.val = P.val; omega
  | ⟨1, _⟩ => show win0_0.index t (1 : Fin 2) * 128 + 1 * k.val = k.val; omega

theorem blk0_1_row (c : Dev nD) (t : Fin cfg0.N) (p : Fin 8000) (k : Fin 128) (P : Fin 800000)
    (hP : P.val = 8000 * t.val + p.val) : Gen.iblk0 V c 1 t (ix2 p k) = V c main_v37 (ix2 P k) := by
  obtain ⟨e0, e1⟩ := idx0_1 t
  show V c main_v37 (((cfg0.win 1).blk t).view.emb (ix2 p k)) = V c main_v37 (ix2 P k)
  refine congrArg _ ?_
  funext a; apply Fin.ext
  match a with
  | ⟨0, _⟩ => show win0_1.index t (0 : Fin 2) * 8000 + 1 * p.val = P.val; omega
  | ⟨1, _⟩ => show win0_1.index t (1 : Fin 2) * 128 + 1 * k.val = k.val; omega

theorem blk0_2_row (c : Dev nD) (t : Fin cfg0.N) (p : Fin 8000) (k : Fin 1) (P : Fin 800000)
    (hP : P.val = 8000 * t.val + p.val) : Gen.iblk0 V c 2 t (ix2 p k) = V c main_v57 (ix2 P k) := by
  obtain ⟨e0, e1⟩ := idx0_2 t
  show V c main_v57 (((cfg0.win 2).blk t).view.emb (ix2 p k)) = V c main_v57 (ix2 P k)
  refine congrArg _ ?_
  funext a; apply Fin.ext
  match a with
  | ⟨0, _⟩ => show win0_2.index t (0 : Fin 2) * 8000 + 1 * p.val = P.val; omega
  | ⟨1, _⟩ => show win0_2.index t (1 : Fin 2) * 1 + 1 * k.val = k.val; omega

theorem blk0_3_whole (c : Dev nD) (t : Fin cfg0.N) : Gen.iblk0 V c 3 t = V c main_v58 := by
  obtain ⟨e0, e1⟩ := idx0_3 t
  funext y
  show V c main_v58 (((cfg0.win 3).blk t).view.emb y) = V c main_v58 y
  refine congrArg _ ?_
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem blk0_4_whole (c : Dev nD) (t : Fin cfg0.N) : Gen.iblk0 V c 4 t = V c main_v59 := by
  obtain ⟨e0, e1⟩ := idx0_4 t
  funext y
  show V c main_v59 (((cfg0.win 4).blk t).view.emb y) = V c main_v59 y
  refine congrArg _ ?_
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem blk0_5_whole (c : Dev nD) (t : Fin cfg0.N) : Gen.iblk0 V c 5 t = V c main_v62 := by
  obtain ⟨e0, e1⟩ := idx0_5 t
  funext y
  show V c main_v62 (((cfg0.win 5).blk t).view.emb y) = V c main_v62 y
  refine congrArg _ ?_
  funext a; apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

theorem blk0_6_whole (c : Dev nD) (t : Fin cfg0.N) : Gen.iblk0 V c 6 t = V c main_v63 := by
  obtain ⟨e0, e1⟩ := idx0_6 t
  funext y
  show V c main_v63 (((cfg0.win 6).blk t).view.emb y) = V c main_v63 y
  refine congrArg _ ?_
  funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

theorem blk0_7_whole (c : Dev nD) (t : Fin cfg0.N) : Gen.iblk0 V c 7 t = V c main_arg7 := by
  obtain ⟨e0, e1⟩ := idx0_7 t
  funext y
  show V c main_arg7 (((cfg0.win 7).blk t).view.emb y) = V c main_arg7 y
  refine congrArg _ ?_
  funext a; apply Fin.ext
  match a with
  | ⟨0, _⟩ => show win0_7.index t (0 : Fin 2) * 128 + 1 * (y 0).val = (y 0).val; omega
  | ⟨1, _⟩ => show win0_7.index t (1 : Fin 2) * 128 + 1 * (y 1).val = (y 1).val; omega

theorem blk0_8_whole (c : Dev nD) (t : Fin cfg0.N) : Gen.iblk0 V c 8 t = V c main_v64 := by
  obtain ⟨e0, e1⟩ := idx0_8 t
  funext y
  show V c main_v64 (((cfg0.win 8).blk t).view.emb y) = V c main_v64 y
  refine congrArg _ ?_
  funext a; apply Fin.ext
  match a with
  | ⟨0, _⟩ => show win0_8.index t (0 : Fin 2) * 1 + 1 * (y 0).val = (y 0).val; omega
  | ⟨1, _⟩ => show win0_8.index t (1 : Fin 2) * 128 + 1 * (y 1).val = (y 1).val; omega

theorem blk0_9_whole (c : Dev nD) (t : Fin cfg0.N) : Gen.iblk0 V c 9 t = V c main_arg9 := by
  obtain ⟨e0, e1⟩ := idx0_9 t
  funext y
  show V c main_arg9 (((cfg0.win 9).blk t).view.emb y) = V c main_arg9 y
  refine congrArg _ ?_
  funext a; apply Fin.ext
  match a with
  | ⟨0, _⟩ => show win0_9.index t (0 : Fin 2) * 1 + 1 * (y 0).val = (y 0).val; omega
  | ⟨1, _⟩ => show win0_9.index t (1 : Fin 2) * 128 + 1 * (y 1).val = (y 1).val; omega

theorem blk0_10_whole (c : Dev nD) (t : Fin cfg0.N) : Gen.iblk0 V c 10 t = V c main_v65 := by
  obtain ⟨e0, e1⟩ := idx0_10 t
  funext y
  show V c main_v65 (((cfg0.win 10).blk t).view.emb y) = V c main_v65 y
  refine congrArg _ ?_
  funext a; apply Fin.ext
  match a with
  | ⟨0, _⟩ => show win0_10.index t (0 : Fin 2) * 1 + 1 * (y 0).val = (y 0).val; omega
  | ⟨1, _⟩ => show win0_10.index t (1 : Fin 2) * 1 + 1 * (y 1).val = (y 1).val; omega

/-- The edge array the region leaves: the edge network row by row over the arrays the region was entered with. -/
abbrev G0 (c : Dev nD) : S800000x128.Idx → EReal :=
  fun i => Cert.Egnn.g0 (n := 800000) (φa := .bf16) (φd := .bf16) (V c main_v30) (V c main_v37) (V c main_v57) (V c main_v58) (V c main_v59) (V c main_v62) (V c main_v63) (V c main_arg7) (V c main_v64) (V c main_arg9) (V c main_v65) (i 0) (i 1)

/-- Where entry (p, q) of the output block of point t sits in the edge array: row 8000 t + p, column q. -/
theorem out0_emb (t : Fin cfg0.N) (p : Fin 8000) (q : Fin 128) (P : Fin 800000) (hP : P.val = 8000 * t.val + p.val) :
    ((cfg0.win 11).blk t).view.emb (ix2 p q) = ix2 P q := by
  obtain ⟨e0, e1⟩ := idx0_11 t
  funext a; apply Fin.ext
  match a with
  | ⟨0, _⟩ => show win0_11.index t (0 : Fin 2) * 8000 + 1 * p.val = P.val; omega
  | ⟨1, _⟩ => show win0_11.index t (1 : Fin 2) * 128 + 1 * q.val = q.val; omega

/-- WHAT POINT t WRITES BACK is block t of the edge network over the entry arrays. -/
theorem flushed0_eq (c : Dev nD) (t : Fin cfg0.N) :
    (Gen.dat0 (F := Ideal) V c).flushed 11 t = ((cfg0.win 11).blk t).view.read (Elt Ideal) (G0 V c) := by
  show (cfg0.win 11).cut (grid0.coords t) ((Gen.dat0 V c).after 11 t) = _
  rw [Gen.after0_11]
  unfold Gen.out0_11
  rw [View.canon_unit_zero hz]
  simp only [View.ld_unit_zero (S := S8000x128) hz, View.ld_unit_zero (S := S8000x1) hz, View.ld_unit_zero (S := S128x128) hz,
    View.ld_unit_zero (S := S1x128) hz, View.ld_unit_zero (S := S1x1) hz]
  have hN : cfg0.N = 100 := Gen.N_0
  have ht : t.val < 100 := hN ▸ t.isLt
  funext j
  obtain ⟨p, q, rfl⟩ : ∃ (p : Fin 8000) (q : Fin 128), j = ix2 p q := ⟨j 0, j 1, eq_ix2 j⟩
  obtain ⟨P, hP⟩ : ∃ P : Fin 800000, P.val = 8000 * t.val + p.val := ⟨⟨8000 * t.val + p.val, by have := p.isLt; omega⟩, rfl⟩
  show Gen.k0_pay1 (Gen.k0_pay2 (Gen.iblk0 V c 0 t) (Gen.iblk0 V c 1 t) (Gen.iblk0 V c 3 t) (Gen.iblk0 V c 4 t) (Gen.iblk0 V c 2 t) (Gen.iblk0 V c 5 t) (Gen.iblk0 V c 6 t) (Gen.iblk0 V c 7 t))
        (Gen.k0_pay3 (Gen.iblk0 V c 8 t)) (Gen.iblk0 V c 9 t) (Gen.iblk0 V c 10 t) (ix2 p q)
      = G0 V c (((cfg0.win 11).blk t).view.emb (ix2 p q))
  rw [out0_emb t p q P hP]
  exact pay0_block (V c main_v30) (V c main_v37) (V c main_v57) (V c main_v58) (V c main_v59) (V c main_v62) (V c main_v63) (V c main_arg7) (V c main_v64) (V c main_arg9) (V c main_v65)
    (Gen.iblk0 V c 0 t) (Gen.iblk0 V c 1 t) (Gen.iblk0 V c 2 t) (Gen.iblk0 V c 3 t) (Gen.iblk0 V c 4 t) (Gen.iblk0 V c 5 t) (Gen.iblk0 V c 6 t) (Gen.iblk0 V c 7 t) (Gen.iblk0 V c 8 t) (Gen.iblk0 V c 9 t) (Gen.iblk0 V c 10 t)
    p q P (fun k => blk0_0_row V c t p k P hP) (fun k => blk0_1_row V c t p k P hP) (blk0_2_row V c t p 0 P hP)
    (blk0_3_whole V c t) (blk0_4_whole V c t) (blk0_5_whole V c t) (blk0_6_whole V c t) (blk0_7_whole V c t) (blk0_8_whole V c t) (blk0_9_whole V c t) (blk0_10_whole V c t)

/-- An index of the edge array is in point t's block iff each coordinate is in the block's range on its axis. -/
theorem mem_blk0 (t : Fin cfg0.N) (i : S800000x128.Idx) :
    i ∈ ((cfg0.win 11).blk t).view.set ↔ ∀ a : Fin 2, win0_11.index t a * S8000x128.size a ≤ (i a).val ∧ (i a).val < win0_11.index t a * S8000x128.size a + S8000x128.size a := by
  show i ∈ ((View.whole main_v66).slice (win0_11.rect t)).set ↔ _
  rw [View.set_slice_whole, Rect.mem_set_unit]
  exact Iff.rfl

/-- The hundred blocks of 8000 rows tile the 800000 rows: row r is in the block of point r / 8000. -/
theorem cover0 (i : S800000x128.Idx) :
    ∃ t : Fin cfg0.N, (cfg0.win 11).flush t = true ∧ i ∈ ((cfg0.win 11).blk t).view.set := by
  have hi0 : (i 0).val < 800000 := (i 0).isLt
  have hi1 : (i 1).val < 128 := (i 1).isLt
  have hN : cfg0.N = 100 := Gen.N_0
  obtain ⟨t, ht⟩ : ∃ t : Fin cfg0.N, t.val = (i 0).val / 8000 := ⟨⟨(i 0).val / 8000, by rw [hN]; omega⟩, rfl⟩
  obtain ⟨e0, e1⟩ := idx0_11 t
  refine ⟨t, Gen.flush0_11 t, ?_⟩
  rw [mem_blk0]
  intro a
  match a with
  | ⟨0, _⟩ => show win0_11.index t (0 : Fin 2) * 8000 ≤ (i 0).val ∧ (i 0).val < win0_11.index t (0 : Fin 2) * 8000 + 8000; omega
  | ⟨1, _⟩ => show win0_11.index t (1 : Fin 2) * 128 ≤ (i 1).val ∧ (i 1).val < win0_11.index t (1 : Fin 2) * 128 + 128; omega

/-- THE EDGE ARRAY after region 0, for any entry contents: the edge network, row by row, of the arrays the region was
    entered with. -/
theorem region0_value (c : Dev nD) :
    (Gen.dat0 (F := Ideal) V c).arrAt 11 cfg0.N
      = fun i => Cert.Egnn.g0 (n := 800000) (φa := .bf16) (φd := .bf16) (V c main_v30) (V c main_v37) (V c main_v57) (V c main_v58) (V c main_v59) (V c main_v62) (V c main_v63) (V c main_arg7) (V c main_v64) (V c main_arg9) (V c main_v65) (i 0) (i 1) :=
  (Gen.dat0 V c).arrAt_eq_of_cover 11 (G0 V c) (fun t _ => flushed0_eq V c t) (cover0)

end Cert.KernelIdeal.KValue
end
-- ==== Proof.Out.lean ====
/-
  The kernel program's result as one function of the fifteen argument arrays, on the extended reals.

  Every edge's gated message is the edge network (g0) on the source and destination rows of the normalised features and
  on the distance column, with the first layer's weights cut into their three column blocks; the messages are added into
  their source nodes; every node's new features are the node network (g1) on its normalised features and its sum of
  messages, with the first layer's weights cut into their two column blocks. Float formats do not matter here: the
  narrowings and widenings on the way are the identity on the extended reals.
-/
import proofs.«152079_j87643102642635_2_alg».proof.Proof.Spec

noncomputable section

namespace Cert.Egnn

open Idealize.ShloMosaic Cert.KernelIdeal Cert.Egnn.Shared

/-- The gated message of every edge, as the first kernel leaves it (in the narrower format). -/
def kGated (a0 : FVec Ideal S50000x128 .f32) (a1 : FVec Ideal S50000x3 .f32) (a2 : IVec S2x800000 32) (a3 a4 : FVec Ideal S128 .f32)
    (a5 : FVec Ideal S128x257 .f32) (a6 : FVec Ideal S128 .f32) (a7 : FVec Ideal S128x128 .f32) (a8 : FVec Ideal S128 .f32)
    (a9 : FVec Ideal S1x128 .f32) (a10 : FVec Ideal S1 .f32) : FVec Ideal S800000x128 .bf16 :=
  fun j => g0 (n := 800000) (φa := .bf16) (φd := .bf16)
    (rows (truncf .bf16 (hbn a0 a3 a4) Facts₀.bitsLt_bf16_f32) (wrap (row0 a2)))
    (rows (truncf .bf16 (hbn a0 a3 a4) Facts₀.bitsLt_bf16_f32) (wrap (row1 a2)))
    (truncf .bf16 (dist a1 a2) Facts₀.bitsLt_bf16_f32)
    (edgeWa a5) (edgeWb a5) (edgeWc a5) (asRow a6) a7 (asRow a8) a9 (asCell a10) (j 0) (j 1)

/-- The updated node features, as the second kernel leaves them. -/
def kOut (a0 : FVec Ideal S50000x128 .f32) (a1 : FVec Ideal S50000x3 .f32) (a2 : IVec S2x800000 32) (a3 a4 : FVec Ideal S128 .f32)
    (a5 : FVec Ideal S128x257 .f32) (a6 : FVec Ideal S128 .f32) (a7 : FVec Ideal S128x128 .f32) (a8 : FVec Ideal S128 .f32)
    (a9 : FVec Ideal S1x128 .f32) (a10 : FVec Ideal S1 .f32) (a11 : FVec Ideal S128x256 .f32) (a12 : FVec Ideal S128 .f32)
    (a13 : FVec Ideal S128x128 .f32) (a14 : FVec Ideal S128 .f32) : FVec Ideal S50000x128 .f32 :=
  fun i => g1 (n := 50000) (hbn a0 a3 a4)
    (segsum (row0 a2) (extf .f32 (kGated a0 a1 a2 a3 a4 a5 a6 a7 a8 a9 a10) Facts₀.bitsLt_bf16_f32))
    (nodeWh a11) (nodeWm a11) (asRow a12) a13 (asRow a14) (i 0) (i 1)

end Cert.Egnn

end
-- ==== Proof.KFinal.lean ====
/-
  The kernel program's result array, as one function of the arguments.

  The program is a line of host operations, the edge kernel, a second line, the node kernel. The contents of every
  buffer at each boundary are the fold of what came before: the operations' results computed, and for a kernel its
  output array at the blocks its grid points wrote back, which tile the array and are the restrictions of one
  whole-array function (the edge network on the arrays the first kernel is handed, the node network on those the second
  is handed). Substituting what each kernel is handed — the normalised features, their source and destination rows, the
  distance column, the column blocks of the weight matrices; then the normalised features again and the messages added
  into their source nodes — gives the result array as kOut of the fifteen arguments.
-/
import proofs.«152079_j87643102642635_2_alg».proof.Proof.KRun
import proofs.«152079_j87643102642635_2_alg».proof.Proof.KHost
import proofs.«152079_j87643102642635_2_alg».proof.Proof.KValue
import proofs.«152079_j87643102642635_2_alg».proof.Proof.Out

noncomputable section

namespace Cert.KernelIdeal.KFinal

open Idealize.ShloMosaic Idealize.ShloMosaic.TcCoe Idealize.ShloMosaic.StableHlo Idealize.SL.Sem Cert.KernelIdeal Cert.Egnn Cert.Egnn.Shared

variable (m : (ℓ : Loc nD τ sig) → Buf (Elt Ideal) ℓ) (ρ : Dev nD → PrngReg) (c : Dev nD)

/-! ## Congruence of the two networks in their operands -/

theorem g0_fun_congr {x0 x0' x1 x1' : FVec Ideal S800000x128 .bf16} {x2 x2' : FVec Ideal S800000x1 .bf16}
    {x3 x3' x4 x4' : FVec Ideal S128x128 .f32} {x5 x5' x6 x6' : FVec Ideal S1x128 .f32} {x7 x7' : FVec Ideal S128x128 .f32}
    {x8 x8' x9 x9' : FVec Ideal S1x128 .f32} {x10 x10' : FVec Ideal S1x1 .f32}
    (h0 : x0 = x0') (h1 : x1 = x1') (h2 : x2 = x2') (h3 : x3 = x3') (h4 : x4 = x4') (h5 : x5 = x5') (h6 : x6 = x6')
    (h7 : x7 = x7') (h8 : x8 = x8') (h9 : x9 = x9') (h10 : x10 = x10') :
    (fun i : S800000x128.Idx => g0 (n := 800000) (φa := .bf16) (φd := .bf16) x0 x1 x2 x3 x4 x5 x6 x7 x8 x9 x10 (i 0) (i 1))
      = fun i => g0 (n := 800000) (φa := .bf16) (φd := .bf16) x0' x1' x2' x3' x4' x5' x6' x7' x8' x9' x10' (i 0) (i 1) := by
  subst h0 h1 h2 h3 h4 h5 h6 h7 h8 h9 h10; rfl

theorem g1_fun_congr {x0 x0' x1 x1' : FVec Ideal S50000x128 .f32} {x2 x2' x3 x3' : FVec Ideal S128x128 .f32}
    {x4 x4' : FVec Ideal S1x128 .f32} {x5 x5' : FVec Ideal S128x128 .f32} {x6 x6' : FVec Ideal S1x128 .f32}
    (h0 : x0 = x0') (h1 : x1 = x1') (h2 : x2 = x2') (h3 : x3 = x3') (h4 : x4 = x4') (h5 : x5 = x5') (h6 : x6 = x6') :
    (fun i : S50000x128.Idx => g1 (n := 50000) x0 x1 x2 x3 x4 x5 x6 (i 0) (i 1))
      = fun i => g1 (n := 50000) x0' x1' x2' x3' x4' x5' x6' (i 0) (i 1) := by
  subst h0 h1 h2 h3 h4 h5 h6; rfl

/-! ## What the first kernel is handed -/

theorem V3_v30 : (Gen.V3 m ρ c main_v30 : FVec Ideal S800000x128 .bf16) = rows (F := Ideal) (truncf .bf16 (hbn (m ((c.tc : Thread nD τ).loc main_arg0)) (m ((c.tc : Thread nD τ).loc main_arg3)) (m ((c.tc : Thread nD τ).loc main_arg4))) Facts₀.bitsLt_bf16_f32) (wrap (row0 (m ((c.tc : Thread nD τ).loc main_arg2)))) := KHost.pre0_v30 (Gen.W0 m ρ c)
theorem V3_v37 : (Gen.V3 m ρ c main_v37 : FVec Ideal S800000x128 .bf16) = rows (F := Ideal) (truncf .bf16 (hbn (m ((c.tc : Thread nD τ).loc main_arg0)) (m ((c.tc : Thread nD τ).loc main_arg3)) (m ((c.tc : Thread nD τ).loc main_arg4))) Facts₀.bitsLt_bf16_f32) (wrap (row1 (m ((c.tc : Thread nD τ).loc main_arg2)))) := KHost.pre0_v37 (Gen.W0 m ρ c)
theorem V3_v57 : (Gen.V3 m ρ c main_v57 : FVec Ideal S800000x1 .bf16) = truncf (F := Ideal) .bf16 (dist (m ((c.tc : Thread nD τ).loc main_arg1)) (m ((c.tc : Thread nD τ).loc main_arg2))) Facts₀.bitsLt_bf16_f32 := KHost.pre0_v57 (Gen.W0 m ρ c)
theorem V3_v58 : (Gen.V3 m ρ c main_v58 : FVec Ideal S128x128 .f32) = edgeWa (F := Ideal) (m ((c.tc : Thread nD τ).loc main_arg5)) := KHost.pre0_v58 (Gen.W0 m ρ c)
theorem V3_v59 : (Gen.V3 m ρ c main_v59 : FVec Ideal S128x128 .f32) = edgeWb (F := Ideal) (m ((c.tc : Thread nD τ).loc main_arg5)) := KHost.pre0_v59 (Gen.W0 m ρ c)
theorem V3_v62 : (Gen.V3 m ρ c main_v62 : FVec Ideal S1x128 .f32) = edgeWc (F := Ideal) (m ((c.tc : Thread nD τ).loc main_arg5)) := KHost.pre0_v62 (Gen.W0 m ρ c)
theorem V3_v63 : (Gen.V3 m ρ c main_v63 : FVec Ideal S1x128 .f32) = asRow (F := Ideal) (m ((c.tc : Thread nD τ).loc main_arg6)) := KHost.pre0_v63 (Gen.W0 m ρ c)
theorem V3_arg7 : Gen.V3 m ρ c main_arg7 = (m ((c.tc : Thread nD τ).loc main_arg7)) := KHost.pre0_arg7 (Gen.W0 m ρ c)
theorem V3_v64 : (Gen.V3 m ρ c main_v64 : FVec Ideal S1x128 .f32) = asRow (F := Ideal) (m ((c.tc : Thread nD τ).loc main_arg8)) := KHost.pre0_v64 (Gen.W0 m ρ c)
theorem V3_arg9 : Gen.V3 m ρ c main_arg9 = (m ((c.tc : Thread nD τ).loc main_arg9)) := KHost.pre0_arg9 (Gen.W0 m ρ c)
theorem V3_v65 : (Gen.V3 m ρ c main_v65 : FVec Ideal S1x1 .f32) = asCell (F := Ideal) (m ((c.tc : Thread nD τ).loc main_arg10)) := KHost.pre0_v65 (Gen.W0 m ρ c)

/-! ## The first kernel's result -/

/-- After the first kernel its output array holds the gated message of every edge. -/
theorem gated_eq : (Gen.W4 m ρ c (main_v66 : DevRef τ sig) : FVec Ideal S800000x128 .bf16) = kGated (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (Gen.W4_arr m ρ c 11).trans ((KValue.region0_value (Gen.V3 m ρ) c).trans
    (g0_fun_congr (V3_v30 m ρ c) (V3_v37 m ρ c) (V3_v57 m ρ c) (V3_v58 m ρ c) (V3_v59 m ρ c) (V3_v62 m ρ c) (V3_v63 m ρ c)
      (V3_arg7 m ρ c) (V3_v64 m ρ c) (V3_arg9 m ρ c) (V3_v65 m ρ c)))

/-! ## What the second kernel is handed -/

theorem V5_v18 : (Gen.V5 m ρ c main_v18 : FVec Ideal S50000x128 .f32) = hbn (F := Ideal) (m ((c.tc : Thread nD τ).loc main_arg0)) (m ((c.tc : Thread nD τ).loc main_arg3)) (m ((c.tc : Thread nD τ).loc main_arg4)) :=
  (KHost.post1_v18 (Gen.W4 m ρ c)).trans ((Gen.W4_of_ne m ρ c main_v18 (by decide)).trans (KHost.pre0_v18 (Gen.W0 m ρ c)))

theorem V5_v70 : (Gen.V5 m ρ c main_v70 : FVec Ideal S50000x128 .f32)
    = segsum (F := Ideal) (row0 (m ((c.tc : Thread nD τ).loc main_arg2))) (extf .f32 (kGated (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) Facts₀.bitsLt_bf16_f32) :=
  (KHost.post1_v70 (Gen.W4 m ρ c)).trans
    (congrArg₂ (fun (s : IVec S800000 32) (u : FVec Ideal S800000x128 .bf16) => segsum (F := Ideal) s (extf .f32 u Facts₀.bitsLt_bf16_f32))
      ((Gen.W4_of_ne m ρ c main_v20 (by decide)).trans (KHost.pre0_v20 (Gen.W0 m ρ c))) (gated_eq m ρ c))

theorem V5_v71 : (Gen.V5 m ρ c main_v71 : FVec Ideal S128x128 .f32) = nodeWh (F := Ideal) (m ((c.tc : Thread nD τ).loc main_arg11)) :=
  (KHost.post1_v71 (Gen.W4 m ρ c)).trans (congrArg nodeWh ((Gen.W4_of_ne m ρ c main_arg11 (by decide)).trans (KHost.pre0_arg11 (Gen.W0 m ρ c))))
theorem V5_v72 : (Gen.V5 m ρ c main_v72 : FVec Ideal S128x128 .f32) = nodeWm (F := Ideal) (m ((c.tc : Thread nD τ).loc main_arg11)) :=
  (KHost.post1_v72 (Gen.W4 m ρ c)).trans (congrArg nodeWm ((Gen.W4_of_ne m ρ c main_arg11 (by decide)).trans (KHost.pre0_arg11 (Gen.W0 m ρ c))))
theorem V5_v73 : (Gen.V5 m ρ c main_v73 : FVec Ideal S1x128 .f32) = asRow (F := Ideal) (m ((c.tc : Thread nD τ).loc main_arg12)) :=
  (KHost.post1_v73 (Gen.W4 m ρ c)).trans (congrArg asRow ((Gen.W4_of_ne m ρ c main_arg12 (by decide)).trans (KHost.pre0_arg12 (Gen.W0 m ρ c))))
theorem V5_arg13 : Gen.V5 m ρ c main_arg13 = (m ((c.tc : Thread nD τ).loc main_arg13)) :=
  (KHost.post1_arg13 (Gen.W4 m ρ c)).trans ((Gen.W4_of_ne m ρ c main_arg13 (by decide)).trans (KHost.pre0_arg13 (Gen.W0 m ρ c)))
theorem V5_v74 : (Gen.V5 m ρ c main_v74 : FVec Ideal S1x128 .f32) = asRow (F := Ideal) (m ((c.tc : Thread nD τ).loc main_arg14)) :=
  (KHost.post1_v74 (Gen.W4 m ρ c)).trans (congrArg asRow ((Gen.W4_of_ne m ρ c main_arg14 (by decide)).trans (KHost.pre0_arg14 (Gen.W0 m ρ c))))

/-! ## The result -/

/-- After the second kernel the result array holds the updated features of every node. -/
theorem W6_v75 : (Gen.W6 m ρ c (Proc.devRef .tc main_v75) : FVec Ideal S50000x128 .f32) = kOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (KRun.W6_out m ρ c).trans ((KValue.region1_value (Gen.V5 m ρ) c).trans
    (g1_fun_congr (V5_v18 m ρ c) (V5_v70 m ρ c) (V5_v71 m ρ c) (V5_v72 m ρ c) (V5_v73 m ρ c) (V5_arg13 m ρ c) (V5_v74 m ρ c)))

/-- The kernel program's run: every weakly fair execution terminates, the result array holds the updated node features
    as one function of the arguments, and the arguments are as launched. -/
theorem kernel_run : θ_run (defs (F := Ideal)) (onTc (τ := τ) (main (F := Ideal))) ⟨m, fun _ => 0, ρ⟩ (fun r => ∀ c : Dev nD,
      r.2.mem ((c.tc : Thread nD τ).loc main_v75) = kOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run (defs (F := Ideal)) _ _).mono (fun _ h c => ⟨(h c).1.trans (W6_v75 m ρ c), (h c).2⟩) (KRun.run_out m ρ)

end Cert.KernelIdeal.KFinal

end
-- ==== Proof.RefRun.lean ====
/- The reference program's run. Its @main is a straight line of host operations: the two windows
   `main_part0`, `main_part1` in order, and at each call of an outlined function (`@_var`, which itself calls
   `@_where`; `@silu` twice; `@silu_0`) that function's body over the call's own buffers. Listed as such, every
   weakly fair execution terminates with each buffer at the fold of the operations' results over the launch
   contents (`run_seq`). -/
import proofs.«152079_j87643102642635_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's 159 host operations in program order. An outlined function's operations stand at its
    call, over the call's buffer record: `@_var`'s nineteen and, at its end, `@_where`'s three (record `main_call0`
    and its field `call0`), `@silu`'s nine at each of its two calls (`main_call1`, `main_call2`), `@silu_0`'s
    nine (`main_call3`); a function's arguments are the caller's buffers, its returned value the record field
    named after the caller's result (`main_v3`, `main_v62`, `main_v68`, `main_v91`). -/
abbrev ops : List (HloOp τ sig (Elt F)) :=
  [ StableHlo.nullary main_cst (constant S_ .f32 0x00000000#32),
    StableHlo.binary main_arg0 main_cst main_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_0 (constant S_ .f32 0x47435000#32),
    StableHlo.unary main_cst_0 main_v1 (broadcastInDim S128 ![] bcast_S_S128 : (⟨S_, .f32⟩ : BufTy).Contents (Elt F) → (⟨S128, .f32⟩ : BufTy).Contents (Elt F)),
    StableHlo.binary main_v0 main_v1 main_v2 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32),
    StableHlo.TRef.nullary main_call0.cst (constant S_ .f32 0x00000000#32),
    StableHlo.TRef.binary (.of main_arg0) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_arg0) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf (F := F) .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v2 main_v4 (broadcastInDim S1x128 ![1] bcast_S128_S1x128_1 : (⟨S128, .f32⟩ : BufTy).Contents (Elt F) → (⟨S1x128, .f32⟩ : BufTy).Contents (Elt F)),
    StableHlo.unary main_v4 main_v5 (broadcastInDim S50000x128 ![0, 1] bcast_S1x128_S50000x128_0_1 : (⟨S1x128, .f32⟩ : BufTy).Contents (Elt F) → (⟨S50000x128, .f32⟩ : BufTy).Contents (Elt F)),
    StableHlo.binary main_arg0 main_v5 main_v6 (subf : (⟨S50000x128, .f32⟩ : BufTy).Contents (Elt F) → (⟨S50000x128, .f32⟩ : BufTy).Contents (Elt F) → (⟨S50000x128, .f32⟩ : BufTy).Contents (Elt F)),
    StableHlo.nullary main_cst_1 (constant S_ .f32 0x3727C5AC#32),
    StableHlo.unary main_cst_1 main_v7 (broadcastInDim S128 ![] bcast_S_S128 : (⟨S_, .f32⟩ : BufTy).Contents (Elt F) → (⟨S128, .f32⟩ : BufTy).Contents (Elt F)),
    StableHlo.binary main_v3 main_v7 main_v8 (addf : (⟨S128, .f32⟩ : BufTy).Contents (Elt F) → (⟨S128, .f32⟩ : BufTy).Contents (Elt F) → (⟨S128, .f32⟩ : BufTy).Contents (Elt F)),
    StableHlo.unary main_v8 main_v9 (Host.rsqrt : (⟨S128, .f32⟩ : BufTy).Contents (Elt F) → (⟨S128, .f32⟩ : BufTy).Contents (Elt F)),
    StableHlo.unary main_v9 main_v10 (broadcastInDim S1x128 ![1] bcast_S128_S1x128_1 : (⟨S128, .f32⟩ : BufTy).Contents (Elt F) → (⟨S1x128, .f32⟩ : BufTy).Contents (Elt F)),
    StableHlo.unary main_v10 main_v11 (broadcastInDim S50000x128 ![0, 1] bcast_S1x128_S50000x128_0_1 : (⟨S1x128, .f32⟩ : BufTy).Contents (Elt F) → (⟨S50000x128, .f32⟩ : BufTy).Contents (Elt F)),
    StableHlo.binary main_v6 main_v11 main_v12 (mulf : (⟨S50000x128, .f32⟩ : BufTy).Contents (Elt F) → (⟨S50000x128, .f32⟩ : BufTy).Contents (Elt F) → (⟨S50000x128, .f32⟩ : BufTy).Contents (Elt F)),
    StableHlo.unary main_arg3 main_v13 (broadcastInDim S1x128 ![1] bcast_S128_S1x128_1 : (⟨S128, .f32⟩ : BufTy).Contents (Elt F) → (⟨S1x128, .f32⟩ : BufTy).Contents (Elt F)),
    StableHlo.unary main_v13 main_v14 (broadcastInDim S50000x128 ![0, 1] bcast_S1x128_S50000x128_0_1 : (⟨S1x128, .f32⟩ : BufTy).Contents (Elt F) → (⟨S50000x128, .f32⟩ : BufTy).Contents (Elt F)),
    StableHlo.binary main_v12 main_v14 main_v15 (mulf : (⟨S50000x128, .f32⟩ : BufTy).Contents (Elt F) → (⟨S50000x128, .f32⟩ : BufTy).Contents (Elt F) → (⟨S50000x128, .f32⟩ : BufTy).Contents (Elt F)),
    StableHlo.unary main_arg4 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S50000x128 ![0, 1] bcast_S1x128_S50000x128_0_1 : (⟨S1x128, .f32⟩ : BufTy).Contents (Elt F) → (⟨S50000x128, .f32⟩ : BufTy).Contents (Elt F)),
    StableHlo.binary main_v15 main_v17 main_v18 (addf : (⟨S50000x128, .f32⟩ : BufTy).Contents (Elt F) → (⟨S50000x128, .f32⟩ : BufTy).Contents (Elt F) → (⟨S50000x128, .f32⟩ : BufTy).Contents (Elt F)),
    StableHlo.unary main_arg2 main_v19 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v19 main_v20 rfl shapeCasts_S1x800000_S800000,
    StableHlo.unary main_arg2 main_v21 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v21 main_v22 rfl shapeCasts_S1x800000_S800000,
    StableHlo.nullary main_c_2 (constantI S_ 32 0#32),
    StableHlo.unary main_c_2 main_v23 (broadcastInDim S800000 ![] bcast_S_S800000 : (⟨S_, .i32⟩ : BufTy).Contents (Elt F) → (⟨S800000, .i32⟩ : BufTy).Contents (Elt F)),
    StableHlo.binary main_v20 main_v23 main_v24 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 50000#32),
    StableHlo.unary main_c_3 main_v25 (broadcastInDim S800000 ![] bcast_S_S800000 : (⟨S_, .i32⟩ : BufTy).Contents (Elt F) → (⟨S800000, .i32⟩ : BufTy).Contents (Elt F)),
    StableHlo.binary main_v20 main_v25 main_v26 (addi : (⟨S800000, .i32⟩ : BufTy).Contents (Elt F) → (⟨S800000, .i32⟩ : BufTy).Contents (Elt F) → (⟨S800000, .i32⟩ : BufTy).Contents (Elt F)),
    StableHlo.ternary main_v24 main_v26 main_v20 main_v27 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v27 main_v28 (broadcastInDim S800000x1 ![0] bcast_S800000_S800000x1_0 : (⟨S800000, .i32⟩ : BufTy).Contents (Elt F) → (⟨S800000x1, .i32⟩ : BufTy).Contents (Elt F)),
    StableHlo.binary main_arg1 main_v28 main_v29 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    StableHlo.nullary main_c_4 (constantI S_ 32 0#32),
    StableHlo.unary main_c_4 main_v30 (broadcastInDim S800000 ![] bcast_S_S800000 : (⟨S_, .i32⟩ : BufTy).Contents (Elt F) → (⟨S800000, .i32⟩ : BufTy).Contents (Elt F)),
    StableHlo.binary main_v22 main_v30 main_v31 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 50000#32),
    StableHlo.unary main_c_5 main_v32 (broadcastInDim S800000 ![] bcast_S_S800000 : (⟨S_, .i32⟩ : BufTy).Contents (Elt F) → (⟨S800000, .i32⟩ : BufTy).Contents (Elt F)),
    StableHlo.binary main_v22 main_v32 main_v33 (addi : (⟨S800000, .i32⟩ : BufTy).Contents (Elt F) → (⟨S800000, .i32⟩ : BufTy).Contents (Elt F) → (⟨S800000, .i32⟩ : BufTy).Contents (Elt F)),
    StableHlo.ternary main_v31 main_v33 main_v22 main_v34 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v34 main_v35 (broadcastInDim S800000x1 ![0] bcast_S800000_S800000x1_0 : (⟨S800000, .i32⟩ : BufTy).Contents (Elt F) → (⟨S800000x1, .i32⟩ : BufTy).Contents (Elt F)),
    StableHlo.binary main_arg1 main_v35 main_v36 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    StableHlo.binary main_v29 main_v36 main_v37 (subf : (⟨S800000x3, .f32⟩ : BufTy).Contents (Elt F) → (⟨S800000x3, .f32⟩ : BufTy).Contents (Elt F) → (⟨S800000x3, .f32⟩ : BufTy).Contents (Elt F)),
    StableHlo.binary main_v37 main_v37 main_v38 (mulf : (⟨S800000x3, .f32⟩ : BufTy).Contents (Elt F) → (⟨S800000x3, .f32⟩ : BufTy).Contents (Elt F) → (⟨S800000x3, .f32⟩ : BufTy).Contents (Elt F)),
    StableHlo.nullary main_cst_6 (constant S_ .f32 0x00000000#32),
    StableHlo.binary main_v38 main_cst_6 main_v39 ((fun x v => Host.reduceAdd x v reducesTo_S800000x3_S800000_d1 h_S_) : (⟨S800000x3, .f32⟩ : BufTy).Contents (Elt F) → (⟨S_, .f32⟩ : BufTy).Contents (Elt F) → (⟨S800000, .f32⟩ : BufTy).Contents (Elt F)),
    StableHlo.unary main_v39 main_v40 (broadcastInDim S800000x1 ![0] bcast_S800000_S800000x1_0 : (⟨S800000, .f32⟩ : BufTy).Contents (Elt F) → (⟨S800000x1, .f32⟩ : BufTy).Contents (Elt F)),
    StableHlo.unary main_v40 main_v41 (Host.sqrt : (⟨S800000x1, .f32⟩ : BufTy).Contents (Elt F) → (⟨S800000x1, .f32⟩ : BufTy).Contents (Elt F)),
    StableHlo.nullary main_c_7 (constantI S_ 32 0#32),
    StableHlo.unary main_c_7 main_v42 (broadcastInDim S800000 ![] bcast_S_S800000 : (⟨S_, .i32⟩ : BufTy).Contents (Elt F) → (⟨S800000, .i32⟩ : BufTy).Contents (Elt F)),
    StableHlo.binary main_v20 main_v42 main_v43 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v44 (broadcastInDim S800000 ![] bcast_S_S800000 : (⟨S_, .i32⟩ : BufTy).Contents (Elt F) → (⟨S800000, .i32⟩ : BufTy).Contents (Elt F)),
    StableHlo.binary main_v20 main_v44 main_v45 (addi : (⟨S800000, .i32⟩ : BufTy).Contents (Elt F) → (⟨S800000, .i32⟩ : BufTy).Contents (Elt F) → (⟨S800000, .i32⟩ : BufTy).Contents (Elt F)),
    StableHlo.ternary main_v43 main_v45 main_v20 main_v46 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v46 main_v47 (broadcastInDim S800000x1 ![0] bcast_S800000_S800000x1_0 : (⟨S800000, .i32⟩ : BufTy).Contents (Elt F) → (⟨S800000x1, .i32⟩ : BufTy).Contents (Elt F)),
    StableHlo.binary main_v18 main_v47 main_v48 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_c_9 (constantI S_ 32 0#32),
    StableHlo.unary main_c_9 main_v49 (broadcastInDim S800000 ![] bcast_S_S800000 : (⟨S_, .i32⟩ : BufTy).Contents (Elt F) → (⟨S800000, .i32⟩ : BufTy).Contents (Elt F)),
    StableHlo.binary main_v22 main_v49 main_v50 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v51 (broadcastInDim S800000 ![] bcast_S_S800000 : (⟨S_, .i32⟩ : BufTy).Contents (Elt F) → (⟨S800000, .i32⟩ : BufTy).Contents (Elt F)),
    StableHlo.binary main_v22 main_v51 main_v52 (addi : (⟨S800000, .i32⟩ : BufTy).Contents (Elt F) → (⟨S800000, .i32⟩ : BufTy).Contents (Elt F) → (⟨S800000, .i32⟩ : BufTy).Contents (Elt F)),
    StableHlo.ternary main_v50 main_v52 main_v22 main_v53 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v53 main_v54 (broadcastInDim S800000x1 ![0] bcast_S800000_S800000x1_0 : (⟨S800000, .i32⟩ : BufTy).Contents (Elt F) → (⟨S800000x1, .i32⟩ : BufTy).Contents (Elt F)),
    StableHlo.binary main_v18 main_v54 main_v55 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nary ![main_v48, main_v55, main_v41] main_v56 (fun u => concatenate S800000x257 1 [⟨S800000x128, u 0⟩, ⟨S800000x128, u 1⟩, ⟨S800000x1, u 2⟩] concatenates_S800000x128_S800000x128_S800000x1_S800000x257_d1),
    StableHlo.unary main_arg5 main_v57 ((transpose S257x128 [1, 0] · transposes_S128x257_S257x128_1_0) : (⟨S128x257, .f32⟩ : BufTy).Contents (Elt F) → (⟨S257x128, .f32⟩ : BufTy).Contents (Elt F)),
    StableHlo.binary main_v56 main_v57 main_v58 ((fun l r => Host.dotGeneral dot_S800000x257_S257x128_S800000x128_1_0_0_1_n_n none l r) : (⟨S800000x257, .f32⟩ : BufTy).Contents (Elt F) → (⟨S257x128, .f32⟩ : BufTy).Contents (Elt F) → (⟨S800000x128, .f32⟩ : BufTy).Contents (Elt F)),
    StableHlo.unary main_arg6 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S800000x128 ![0, 1] bcast_S1x128_S800000x128_0_1 : (⟨S1x128, .f32⟩ : BufTy).Contents (Elt F) → (⟨S800000x128, .f32⟩ : BufTy).Contents (Elt F)),
    StableHlo.binary main_v58 main_v60 main_v61 (addf : (⟨S800000x128, .f32⟩ : BufTy).Contents (Elt F) → (⟨S800000x128, .f32⟩ : BufTy).Contents (Elt F) → (⟨S800000x128, .f32⟩ : BufTy).Contents (Elt F)),
    StableHlo.TRef.unary (.of main_v61) main_call1.v0 Host.negf,
    StableHlo.TRef.unary main_call1.v0 main_call1.v1 Host.exp,
    StableHlo.TRef.nullary main_call1.cst (constant S_ .f32 0x3F800000#32),
    StableHlo.TRef.unary main_call1.cst main_call1.v2 (broadcastInDim S800000x128 ![] bcast_S_S800000x128),
    StableHlo.TRef.binary main_call1.v2 main_call1.v1 main_call1.v3 addf,
    StableHlo.TRef.nullary main_call1.cst_0 (constant S_ .f32 0x3F800000#32),
    StableHlo.TRef.unary main_call1.cst_0 main_call1.v4 (broadcastInDim S800000x128 ![] bcast_S_S800000x128),
    StableHlo.TRef.binary main_call1.v4 main_call1.v3 main_call1.v5 Host.divf,
    StableHlo.TRef.binary (.of main_v61) main_call1.v5 main_call1.v6 mulf,
    StableHlo.unary main_arg7 main_v63 ((transpose S128x128 [1, 0] · transposes_S128x128_S128x128_1_0) : (⟨S128x128, .f32⟩ : BufTy).Contents (Elt F) → (⟨S128x128, .f32⟩ : BufTy).Contents (Elt F)),
    StableHlo.binary main_v62 main_v63 main_v64 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    StableHlo.unary main_arg8 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S800000x128 ![0, 1] bcast_S1x128_S800000x128_0_1 : (⟨S1x128, .f32⟩ : BufTy).Contents (Elt F) → (⟨S800000x128, .f32⟩ : BufTy).Contents (Elt F)),
    StableHlo.binary main_v64 main_v66 main_v67 (addf : (⟨S800000x128, .f32⟩ : BufTy).Contents (Elt F) → (⟨S800000x128, .f32⟩ : BufTy).Contents (Elt F) → (⟨S800000x128, .f32⟩ : BufTy).Contents (Elt F)),
    StableHlo.TRef.unary (.of main_v67) main_call2.v0 Host.negf,
    StableHlo.TRef.unary main_call2.v0 main_call2.v1 Host.exp,
    StableHlo.TRef.nullary main_call2.cst (constant S_ .f32 0x3F800000#32),
    StableHlo.TRef.unary main_call2.cst main_call2.v2 (broadcastInDim S800000x128 ![] bcast_S_S800000x128),
    StableHlo.TRef.binary main_call2.v2 main_call2.v1 main_call2.v3 addf,
    StableHlo.TRef.nullary main_call2.cst_0 (constant S_ .f32 0x3F800000#32),
    StableHlo.TRef.unary main_call2.cst_0 main_call2.v4 (broadcastInDim S800000x128 ![] bcast_S_S800000x128),
    StableHlo.TRef.binary main_call2.v4 main_call2.v3 main_call2.v5 Host.divf,
    StableHlo.TRef.binary (.of main_v67) main_call2.v5 main_call2.v6 mulf,
    StableHlo.unary main_arg9 main_v69 ((transpose S128x1 [1, 0] · transposes_S1x128_S128x1_1_0) : (⟨S1x128, .f32⟩ : BufTy).Contents (Elt F) → (⟨S128x1, .f32⟩ : BufTy).Contents (Elt F)),
    StableHlo.binary main_v68 main_v69 main_v70 ((fun l r => Host.dotGeneral dot_S800000x128_S128x1_S800000x1_1_0_0_1_n_n none l r) : (⟨S800000x128, .f32⟩ : BufTy).Contents (Elt F) → (⟨S128x1, .f32⟩ : BufTy).Contents (Elt F) → (⟨S800000x1, .f32⟩ : BufTy).Contents (Elt F)),
    StableHlo.unary main_arg10 main_v71 (broadcastInDim S1x1 ![1] bcast_S1_S1x1_1 : (⟨S1, .f32⟩ : BufTy).Contents (Elt F) → (⟨S1x1, .f32⟩ : BufTy).Contents (Elt F)),
    StableHlo.unary main_v71 main_v72 (broadcastInDim S800000x1 ![0, 1] bcast_S1x1_S800000x1_0_1 : (⟨S1x1, .f32⟩ : BufTy).Contents (Elt F) → (⟨S800000x1, .f32⟩ : BufTy).Contents (Elt F)),
    StableHlo.binary main_v70 main_v72 main_v73 (addf : (⟨S800000x1, .f32⟩ : BufTy).Contents (Elt F) → (⟨S800000x1, .f32⟩ : BufTy).Contents (Elt F) → (⟨S800000x1, .f32⟩ : BufTy).Contents (Elt F)),
    StableHlo.unary main_v73 main_v74 (Host.negf : (⟨S800000x1, .f32⟩ : BufTy).Contents (Elt F) → (⟨S800000x1, .f32⟩ : BufTy).Contents (Elt F)),
    StableHlo.unary main_v74 main_v75 (Host.exp : (⟨S800000x1, .f32⟩ : BufTy).Contents (Elt F) → (⟨S800000x1, .f32⟩ : BufTy).Contents (Elt F)),
    StableHlo.nullary main_cst_11 (constant S_ .f32 0x3F800000#32),
    StableHlo.unary main_cst_11 main_v76 (broadcastInDim S800000x1 ![] bcast_S_S800000x1 : (⟨S_, .f32⟩ : BufTy).Contents (Elt F) → (⟨S800000x1, .f32⟩ : BufTy).Contents (Elt F)),
    StableHlo.binary main_v76 main_v75 main_v77 (addf : (⟨S800000x1, .f32⟩ : BufTy).Contents (Elt F) → (⟨S800000x1, .f32⟩ : BufTy).Contents (Elt F) → (⟨S800000x1, .f32⟩ : BufTy).Contents (Elt F)),
    StableHlo.nullary main_cst_12 (constant S_ .f32 0x3F800000#32),
    StableHlo.unary main_cst_12 main_v78 (broadcastInDim S800000x1 ![] bcast_S_S800000x1 : (⟨S_, .f32⟩ : BufTy).Contents (Elt F) → (⟨S800000x1, .f32⟩ : BufTy).Contents (Elt F)),
    StableHlo.binary main_v78 main_v77 main_v79 (Host.divf : (⟨S800000x1, .f32⟩ : BufTy).Contents (Elt F) → (⟨S800000x1, .f32⟩ : BufTy).Contents (Elt F) → (⟨S800000x1, .f32⟩ : BufTy).Contents (Elt F)),
    StableHlo.unary main_v79 main_v80 (broadcastInDim S800000x128 ![0, 1] bcast_S800000x1_S800000x128_0_1 : (⟨S800000x1, .f32⟩ : BufTy).Contents (Elt F) → (⟨S800000x128, .f32⟩ : BufTy).Contents (Elt F)),
    StableHlo.binary main_v80 main_v68 main_v81 (mulf : (⟨S800000x128, .f32⟩ : BufTy).Contents (Elt F) → (⟨S800000x128, .f32⟩ : BufTy).Contents (Elt F) → (⟨S800000x128, .f32⟩ : BufTy).Contents (Elt F)),
    StableHlo.nullary main_cst_13 (constant S_ .f32 0x00000000#32),
    StableHlo.unary main_cst_13 main_v82 (broadcastInDim S50000x128 ![] bcast_S_S50000x128 : (⟨S_, .f32⟩ : BufTy).Contents (Elt F) → (⟨S50000x128, .f32⟩ : BufTy).Contents (Elt F)),
    StableHlo.unary main_v20 main_v83 (broadcastInDim S800000x1 ![0] bcast_S800000_S800000x1_0 : (⟨S800000, .i32⟩ : BufTy).Contents (Elt F) → (⟨S800000x1, .i32⟩ : BufTy).Contents (Elt F)),
    StableHlo.ternary main_v82 main_v83 main_v81 main_v84 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v18 main_v84 main_v85 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.unary main_arg11 main_v86 ((transpose S256x128 [1, 0] · transposes_S128x256_S256x128_1_0) : (⟨S128x256, .f32⟩ : BufTy).Contents (Elt F) → (⟨S256x128, .f32⟩ : BufTy).Contents (Elt F)),
    StableHlo.binary main_v85 main_v86 main_v87 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg12 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S50000x128 ![0, 1] bcast_S1x128_S50000x128_0_1 : (⟨S1x128, .f32⟩ : BufTy).Contents (Elt F) → (⟨S50000x128, .f32⟩ : BufTy).Contents (Elt F)),
    StableHlo.binary main_v87 main_v89 main_v90 (addf : (⟨S50000x128, .f32⟩ : BufTy).Contents (Elt F) → (⟨S50000x128, .f32⟩ : BufTy).Contents (Elt F) → (⟨S50000x128, .f32⟩ : BufTy).Contents (Elt F)),
    StableHlo.TRef.unary (.of main_v90) main_call3.v0 Host.negf,
    StableHlo.TRef.unary main_call3.v0 main_call3.v1 Host.exp,
    StableHlo.TRef.nullary main_call3.cst (constant S_ .f32 0x3F800000#32),
    StableHlo.TRef.unary main_call3.cst main_call3.v2 (broadcastInDim S50000x128 ![] bcast_S_S50000x128),
    StableHlo.TRef.binary main_call3.v2 main_call3.v1 main_call3.v3 addf,
    StableHlo.TRef.nullary main_call3.cst_0 (constant S_ .f32 0x3F800000#32),
    StableHlo.TRef.unary main_call3.cst_0 main_call3.v4 (broadcastInDim S50000x128 ![] bcast_S_S50000x128),
    StableHlo.TRef.binary main_call3.v4 main_call3.v3 main_call3.v5 Host.divf,
    StableHlo.TRef.binary (.of main_v90) main_call3.v5 main_call3.v6 mulf,
    StableHlo.unary main_arg13 main_v92 ((transpose S128x128 [1, 0] · transposes_S128x128_S128x128_1_0) : (⟨S128x128, .f32⟩ : BufTy).Contents (Elt F) → (⟨S128x128, .f32⟩ : BufTy).Contents (Elt F)),
    StableHlo.binary main_v91 main_v92 main_v93 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg14 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S50000x128 ![0, 1] bcast_S1x128_S50000x128_0_1 : (⟨S1x128, .f32⟩ : BufTy).Contents (Elt F) → (⟨S50000x128, .f32⟩ : BufTy).Contents (Elt F)),
    StableHlo.binary main_v93 main_v95 main_v96 (addf : (⟨S50000x128, .f32⟩ : BufTy).Contents (Elt F) → (⟨S50000x128, .f32⟩ : BufTy).Contents (Elt F) → (⟨S50000x128, .f32⟩ : BufTy).Contents (Elt F)),
    StableHlo.binary main_v18 main_v96 main_v97 (addf : (⟨S50000x128, .f32⟩ : BufTy).Contents (Elt F) → (⟨S50000x128, .f32⟩ : BufTy).Contents (Elt F) → (⟨S50000x128, .f32⟩ : BufTy).Contents (Elt F)) ]

set_option maxRecDepth 16384 in
/-- @main is that straight line: the two windows in order, the functions' definitions unfolded at their calls;
    both sides are one chain of `hlo` steps once sequencing is reassociated (`bind_assoc`, `pure_bind`). -/
theorem main_eq (c : Dev nD) : main (F := F) c = seq ops := by
  simp only [main, main_part0, main_part1, fn_var.body, fn_where.body, fn_silu.body, fn_silu_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only: one fact per operation, in order. -/
theorem ops_sub : (ops : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., nullary_bufs_sub .., binary_bufs_sub .., unary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nary_bufs_sub .., unary_bufs_sub .., binary_bufs_sub .., unary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub .., binary_bufs_sub .., unary_bufs_sub .., binary_bufs_sub .., unary_bufs_sub ..,
    unary_bufs_sub .., binary_bufs_sub .., unary_bufs_sub .., unary_bufs_sub .., nullary_bufs_sub .., unary_bufs_sub ..,
    binary_bufs_sub .., nullary_bufs_sub .., unary_bufs_sub .., binary_bufs_sub .., binary_bufs_sub .., unary_bufs_sub ..,
    binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    unary_bufs_sub .., binary_bufs_sub .., nullary_bufs_sub .., unary_bufs_sub .., unary_bufs_sub .., ternary_bufs_sub ..,
    binary_bufs_sub .., unary_bufs_sub .., binary_bufs_sub .., unary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub .., binary_bufs_sub .., unary_bufs_sub .., binary_bufs_sub .., unary_bufs_sub ..,
    unary_bufs_sub .., binary_bufs_sub .., binary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibAfterAppend.lean ====
/-
  A straight line of host operations acts on the buffers' contents by a fold: each operation rewrites the buffers it
  writes and leaves the rest. This file has the one general fact that lets such a line be read in stages: the fold over
  two lines run one after the other is the fold over the second line, started from the fold over the first. With it a long
  program's final contents are computed stage by stage — name the contents at each cut, read each stage's result buffer
  from the contents before the stage, carry the buffers the stage does not write — instead of as one composed term.
-/
import Idealize.ShloMosaic.Lib.StableHlo.Run

noncomputable section

namespace Cert.LibAfterAppend

open Idealize.ShloMosaic Idealize.ShloMosaic.StableHlo

variable {nD : Nat} {τ : Topo} {sig : RefSig} {Val : EltTy → Type}

/-- The fold over two lines of operations one after the other is the fold over the second from the fold over the
    first, for any operations and any contents. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfterAppend

end
-- ==== Proof.RefOut.lean ====
/- The reference's result as one composed term of its arguments.

   The reference's @main is a straight line of 159 host operations (`RefRun.ops`); the contents of every buffer after
   it are the fold of the operations' results over the contents before it (`after`). Here that fold is read at the
   result buffer `main_v97`: it is the node update `refNode` of the normalised features `hbn` and of the segment sum
   `segsum` of the gated edge messages `refEdge`, each of these being the composed term of the operations that
   compute it (module Spec). The line is read in five consecutive stages — the batch norm, the edge indices with the
   distance and the two row gathers, the edge network, the segment sum, the node network — each stage's result
   buffers being read from the contents before the stage, and the buffers a stage does not write being carried
   through it; the fold over the whole line is the stages' folds composed (`after_append`). The arguments' buffers are
   written by no operation and keep their contents. -/
import proofs.«152079_j87643102642635_2_alg».proof.Proof.RefRun
import proofs.«152079_j87643102642635_2_alg».proof.Proof.Spec
import proofs.«152079_j87643102642635_2_alg».proof.Proof.LibAfterAppend

noncomputable section

namespace Cert.ReferenceIdeal.RefOut

open Cert.ReferenceIdeal Cert.ReferenceIdeal.Gen Idealize.ShloMosaic Idealize.ShloMosaic.TcCoe Idealize.SL.Sem Idealize.ShloMosaic.StableHlo

variable {F : FTy → Type} [FloatOps F]

/-! ## An operation of three operands -/

section Nary3
variable {τ : Topo} {sig : RefSig} {Val : EltTy → Type} {x a b y : Ref sig .tc}

/-- The result of an operation over a literal family of three operand buffers (a concatenation of three arrays),
    with each operand's contents at its own buffer: the function applied to the three contents in order. -/
theorem nary3_result
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- The same, with the result buffer not indexed: the form a simplification pass matches. -/
theorem nary3_result'
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

end Nary3

/-- Reads a buffer after a literal line of operations: the fold unrolled, each operation's result at the buffer it
    writes rewritten to its function of its operands' contents, and at any other buffer to what was there (the
    buffers' inequality decided), in one pass. What is left is a term over the contents before the line. -/
macro "after_results_simp3" : tactic =>
  `(tactic| (simp (disch := decide) only [after_cons, after_nil,
      nullary_result', unary_result', binary_result', ternary_result', quaternary_result', reshape_result', nary3_result', nary_result',
      nullary_result_ne', unary_result_ne', binary_result_ne', ternary_result_ne', quaternary_result_ne', reshape_result_ne',
      nary_result_ne']))

/-! ## The line in five stages -/

/-- Stage A, operations 1 … 44: the batch norm of the node features (the mean, the variance by the outlined
    `@_var` and `@_where`, the normalisation, scale and shift), ending at `main_v18`. -/
abbrev opsA : List (HloOp τ sig (Elt F)) :=
  [ StableHlo.nullary main_cst (constant S_ .f32 0x00000000#32),
    StableHlo.binary main_arg0 main_cst main_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_0 (constant S_ .f32 0x47435000#32),
    StableHlo.unary main_cst_0 main_v1 (broadcastInDim S128 ![] bcast_S_S128 : (⟨S_, .f32⟩ : BufTy).Contents (Elt F) → (⟨S128, .f32⟩ : BufTy).Contents (Elt F)),
    StableHlo.binary main_v0 main_v1 main_v2 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32),
    StableHlo.TRef.nullary main_call0.cst (constant S_ .f32 0x00000000#32),
    StableHlo.TRef.binary (.of main_arg0) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_arg0) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf (F := F) .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v2 main_v4 (broadcastInDim S1x128 ![1] bcast_S128_S1x128_1 : (⟨S128, .f32⟩ : BufTy).Contents (Elt F) → (⟨S1x128, .f32⟩ : BufTy).Contents (Elt F)),
    StableHlo.unary main_v4 main_v5 (broadcastInDim S50000x128 ![0, 1] bcast_S1x128_S50000x128_0_1 : (⟨S1x128, .f32⟩ : BufTy).Contents (Elt F) → (⟨S50000x128, .f32⟩ : BufTy).Contents (Elt F)),
    StableHlo.binary main_arg0 main_v5 main_v6 (subf : (⟨S50000x128, .f32⟩ : BufTy).Contents (Elt F) → (⟨S50000x128, .f32⟩ : BufTy).Contents (Elt F) → (⟨S50000x128, .f32⟩ : BufTy).Contents (Elt F)),
    StableHlo.nullary main_cst_1 (constant S_ .f32 0x3727C5AC#32),
    StableHlo.unary main_cst_1 main_v7 (broadcastInDim S128 ![] bcast_S_S128 : (⟨S_, .f32⟩ : BufTy).Contents (Elt F) → (⟨S128, .f32⟩ : BufTy).Contents (Elt F)),
    StableHlo.binary main_v3 main_v7 main_v8 (addf : (⟨S128, .f32⟩ : BufTy).Contents (Elt F) → (⟨S128, .f32⟩ : BufTy).Contents (Elt F) → (⟨S128, .f32⟩ : BufTy).Contents (Elt F)),
    StableHlo.unary main_v8 main_v9 (Host.rsqrt : (⟨S128, .f32⟩ : BufTy).Contents (Elt F) → (⟨S128, .f32⟩ : BufTy).Contents (Elt F)),
    StableHlo.unary main_v9 main_v10 (broadcastInDim S1x128 ![1] bcast_S128_S1x128_1 : (⟨S128, .f32⟩ : BufTy).Contents (Elt F) → (⟨S1x128, .f32⟩ : BufTy).Contents (Elt F)),
    StableHlo.unary main_v10 main_v11 (broadcastInDim S50000x128 ![0, 1] bcast_S1x128_S50000x128_0_1 : (⟨S1x128, .f32⟩ : BufTy).Contents (Elt F) → (⟨S50000x128, .f32⟩ : BufTy).Contents (Elt F)),
    StableHlo.binary main_v6 main_v11 main_v12 (mulf : (⟨S50000x128, .f32⟩ : BufTy).Contents (Elt F) → (⟨S50000x128, .f32⟩ : BufTy).Contents (Elt F) → (⟨S50000x128, .f32⟩ : BufTy).Contents (Elt F)),
    StableHlo.unary main_arg3 main_v13 (broadcastInDim S1x128 ![1] bcast_S128_S1x128_1 : (⟨S128, .f32⟩ : BufTy).Contents (Elt F) → (⟨S1x128, .f32⟩ : BufTy).Contents (Elt F)),
    StableHlo.unary main_v13 main_v14 (broadcastInDim S50000x128 ![0, 1] bcast_S1x128_S50000x128_0_1 : (⟨S1x128, .f32⟩ : BufTy).Contents (Elt F) → (⟨S50000x128, .f32⟩ : BufTy).Contents (Elt F)),
    StableHlo.binary main_v12 main_v14 main_v15 (mulf : (⟨S50000x128, .f32⟩ : BufTy).Contents (Elt F) → (⟨S50000x128, .f32⟩ : BufTy).Contents (Elt F) → (⟨S50000x128, .f32⟩ : BufTy).Contents (Elt F)),
    StableHlo.unary main_arg4 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S50000x128 ![0, 1] bcast_S1x128_S50000x128_0_1 : (⟨S1x128, .f32⟩ : BufTy).Contents (Elt F) → (⟨S50000x128, .f32⟩ : BufTy).Contents (Elt F)),
    StableHlo.binary main_v15 main_v17 main_v18 (addf : (⟨S50000x128, .f32⟩ : BufTy).Contents (Elt F) → (⟨S50000x128, .f32⟩ : BufTy).Contents (Elt F) → (⟨S50000x128, .f32⟩ : BufTy).Contents (Elt F)) ]

/-- Stage B, operations 45 … 90: the two rows of the edge table, the wrapped indices, the endpoints' positions
    and their distance (`main_v41`), the normalised features' rows at the two endpoints (`main_v48`, `main_v55`). -/
abbrev opsB : List (HloOp τ sig (Elt F)) :=
  [ StableHlo.unary main_arg2 main_v19 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v19 main_v20 rfl shapeCasts_S1x800000_S800000,
    StableHlo.unary main_arg2 main_v21 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v21 main_v22 rfl shapeCasts_S1x800000_S800000,
    StableHlo.nullary main_c_2 (constantI S_ 32 0#32),
    StableHlo.unary main_c_2 main_v23 (broadcastInDim S800000 ![] bcast_S_S800000 : (⟨S_, .i32⟩ : BufTy).Contents (Elt F) → (⟨S800000, .i32⟩ : BufTy).Contents (Elt F)),
    StableHlo.binary main_v20 main_v23 main_v24 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 50000#32),
    StableHlo.unary main_c_3 main_v25 (broadcastInDim S800000 ![] bcast_S_S800000 : (⟨S_, .i32⟩ : BufTy).Contents (Elt F) → (⟨S800000, .i32⟩ : BufTy).Contents (Elt F)),
    StableHlo.binary main_v20 main_v25 main_v26 (addi : (⟨S800000, .i32⟩ : BufTy).Contents (Elt F) → (⟨S800000, .i32⟩ : BufTy).Contents (Elt F) → (⟨S800000, .i32⟩ : BufTy).Contents (Elt F)),
    StableHlo.ternary main_v24 main_v26 main_v20 main_v27 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v27 main_v28 (broadcastInDim S800000x1 ![0] bcast_S800000_S800000x1_0 : (⟨S800000, .i32⟩ : BufTy).Contents (Elt F) → (⟨S800000x1, .i32⟩ : BufTy).Contents (Elt F)),
    StableHlo.binary main_arg1 main_v28 main_v29 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    StableHlo.nullary main_c_4 (constantI S_ 32 0#32),
    StableHlo.unary main_c_4 main_v30 (broadcastInDim S800000 ![] bcast_S_S800000 : (⟨S_, .i32⟩ : BufTy).Contents (Elt F) → (⟨S800000, .i32⟩ : BufTy).Contents (Elt F)),
    StableHlo.binary main_v22 main_v30 main_v31 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 50000#32),
    StableHlo.unary main_c_5 main_v32 (broadcastInDim S800000 ![] bcast_S_S800000 : (⟨S_, .i32⟩ : BufTy).Contents (Elt F) → (⟨S800000, .i32⟩ : BufTy).Contents (Elt F)),
    StableHlo.binary main_v22 main_v32 main_v33 (addi : (⟨S800000, .i32⟩ : BufTy).Contents (Elt F) → (⟨S800000, .i32⟩ : BufTy).Contents (Elt F) → (⟨S800000, .i32⟩ : BufTy).Contents (Elt F)),
    StableHlo.ternary main_v31 main_v33 main_v22 main_v34 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v34 main_v35 (broadcastInDim S800000x1 ![0] bcast_S800000_S800000x1_0 : (⟨S800000, .i32⟩ : BufTy).Contents (Elt F) → (⟨S800000x1, .i32⟩ : BufTy).Contents (Elt F)),
    StableHlo.binary main_arg1 main_v35 main_v36 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    StableHlo.binary main_v29 main_v36 main_v37 (subf : (⟨S800000x3, .f32⟩ : BufTy).Contents (Elt F) → (⟨S800000x3, .f32⟩ : BufTy).Contents (Elt F) → (⟨S800000x3, .f32⟩ : BufTy).Contents (Elt F)),
    StableHlo.binary main_v37 main_v37 main_v38 (mulf : (⟨S800000x3, .f32⟩ : BufTy).Contents (Elt F) → (⟨S800000x3, .f32⟩ : BufTy).Contents (Elt F) → (⟨S800000x3, .f32⟩ : BufTy).Contents (Elt F)),
    StableHlo.nullary main_cst_6 (constant S_ .f32 0x00000000#32),
    StableHlo.binary main_v38 main_cst_6 main_v39 ((fun x v => Host.reduceAdd x v reducesTo_S800000x3_S800000_d1 h_S_) : (⟨S800000x3, .f32⟩ : BufTy).Contents (Elt F) → (⟨S_, .f32⟩ : BufTy).Contents (Elt F) → (⟨S800000, .f32⟩ : BufTy).Contents (Elt F)),
    StableHlo.unary main_v39 main_v40 (broadcastInDim S800000x1 ![0] bcast_S800000_S800000x1_0 : (⟨S800000, .f32⟩ : BufTy).Contents (Elt F) → (⟨S800000x1, .f32⟩ : BufTy).Contents (Elt F)),
    StableHlo.unary main_v40 main_v41 (Host.sqrt : (⟨S800000x1, .f32⟩ : BufTy).Contents (Elt F) → (⟨S800000x1, .f32⟩ : BufTy).Contents (Elt F)),
    StableHlo.nullary main_c_7 (constantI S_ 32 0#32),
    StableHlo.unary main_c_7 main_v42 (broadcastInDim S800000 ![] bcast_S_S800000 : (⟨S_, .i32⟩ : BufTy).Contents (Elt F) → (⟨S800000, .i32⟩ : BufTy).Contents (Elt F)),
    StableHlo.binary main_v20 main_v42 main_v43 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v44 (broadcastInDim S800000 ![] bcast_S_S800000 : (⟨S_, .i32⟩ : BufTy).Contents (Elt F) → (⟨S800000, .i32⟩ : BufTy).Contents (Elt F)),
    StableHlo.binary main_v20 main_v44 main_v45 (addi : (⟨S800000, .i32⟩ : BufTy).Contents (Elt F) → (⟨S800000, .i32⟩ : BufTy).Contents (Elt F) → (⟨S800000, .i32⟩ : BufTy).Contents (Elt F)),
    StableHlo.ternary main_v43 main_v45 main_v20 main_v46 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v46 main_v47 (broadcastInDim S800000x1 ![0] bcast_S800000_S800000x1_0 : (⟨S800000, .i32⟩ : BufTy).Contents (Elt F) → (⟨S800000x1, .i32⟩ : BufTy).Contents (Elt F)),
    StableHlo.binary main_v18 main_v47 main_v48 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_c_9 (constantI S_ 32 0#32),
    StableHlo.unary main_c_9 main_v49 (broadcastInDim S800000 ![] bcast_S_S800000 : (⟨S_, .i32⟩ : BufTy).Contents (Elt F) → (⟨S800000, .i32⟩ : BufTy).Contents (Elt F)),
    StableHlo.binary main_v22 main_v49 main_v50 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v51 (broadcastInDim S800000 ![] bcast_S_S800000 : (⟨S_, .i32⟩ : BufTy).Contents (Elt F) → (⟨S800000, .i32⟩ : BufTy).Contents (Elt F)),
    StableHlo.binary main_v22 main_v51 main_v52 (addi : (⟨S800000, .i32⟩ : BufTy).Contents (Elt F) → (⟨S800000, .i32⟩ : BufTy).Contents (Elt F) → (⟨S800000, .i32⟩ : BufTy).Contents (Elt F)),
    StableHlo.ternary main_v50 main_v52 main_v22 main_v53 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v53 main_v54 (broadcastInDim S800000x1 ![0] bcast_S800000_S800000x1_0 : (⟨S800000, .i32⟩ : BufTy).Contents (Elt F) → (⟨S800000x1, .i32⟩ : BufTy).Contents (Elt F)),
    StableHlo.binary main_v18 main_v54 main_v55 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]

/-- Stage C, operations 91 … 134: the edge network (the concatenation, two layers with `@silu`, the sigmoid gate),
    ending at `main_v81`. -/
abbrev opsC : List (HloOp τ sig (Elt F)) :=
  [ StableHlo.nary ![main_v48, main_v55, main_v41] main_v56 (fun u => concatenate S800000x257 1 [⟨S800000x128, u 0⟩, ⟨S800000x128, u 1⟩, ⟨S800000x1, u 2⟩] concatenates_S800000x128_S800000x128_S800000x1_S800000x257_d1),
    StableHlo.unary main_arg5 main_v57 ((transpose S257x128 [1, 0] · transposes_S128x257_S257x128_1_0) : (⟨S128x257, .f32⟩ : BufTy).Contents (Elt F) → (⟨S257x128, .f32⟩ : BufTy).Contents (Elt F)),
    StableHlo.binary main_v56 main_v57 main_v58 ((fun l r => Host.dotGeneral dot_S800000x257_S257x128_S800000x128_1_0_0_1_n_n none l r) : (⟨S800000x257, .f32⟩ : BufTy).Contents (Elt F) → (⟨S257x128, .f32⟩ : BufTy).Contents (Elt F) → (⟨S800000x128, .f32⟩ : BufTy).Contents (Elt F)),
    StableHlo.unary main_arg6 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S800000x128 ![0, 1] bcast_S1x128_S800000x128_0_1 : (⟨S1x128, .f32⟩ : BufTy).Contents (Elt F) → (⟨S800000x128, .f32⟩ : BufTy).Contents (Elt F)),
    StableHlo.binary main_v58 main_v60 main_v61 (addf : (⟨S800000x128, .f32⟩ : BufTy).Contents (Elt F) → (⟨S800000x128, .f32⟩ : BufTy).Contents (Elt F) → (⟨S800000x128, .f32⟩ : BufTy).Contents (Elt F)),
    StableHlo.TRef.unary (.of main_v61) main_call1.v0 Host.negf,
    StableHlo.TRef.unary main_call1.v0 main_call1.v1 Host.exp,
    StableHlo.TRef.nullary main_call1.cst (constant S_ .f32 0x3F800000#32),
    StableHlo.TRef.unary main_call1.cst main_call1.v2 (broadcastInDim S800000x128 ![] bcast_S_S800000x128),
    StableHlo.TRef.binary main_call1.v2 main_call1.v1 main_call1.v3 addf,
    StableHlo.TRef.nullary main_call1.cst_0 (constant S_ .f32 0x3F800000#32),
    StableHlo.TRef.unary main_call1.cst_0 main_call1.v4 (broadcastInDim S800000x128 ![] bcast_S_S800000x128),
    StableHlo.TRef.binary main_call1.v4 main_call1.v3 main_call1.v5 Host.divf,
    StableHlo.TRef.binary (.of main_v61) main_call1.v5 main_call1.v6 mulf,
    StableHlo.unary main_arg7 main_v63 ((transpose S128x128 [1, 0] · transposes_S128x128_S128x128_1_0) : (⟨S128x128, .f32⟩ : BufTy).Contents (Elt F) → (⟨S128x128, .f32⟩ : BufTy).Contents (Elt F)),
    StableHlo.binary main_v62 main_v63 main_v64 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    StableHlo.unary main_arg8 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S800000x128 ![0, 1] bcast_S1x128_S800000x128_0_1 : (⟨S1x128, .f32⟩ : BufTy).Contents (Elt F) → (⟨S800000x128, .f32⟩ : BufTy).Contents (Elt F)),
    StableHlo.binary main_v64 main_v66 main_v67 (addf : (⟨S800000x128, .f32⟩ : BufTy).Contents (Elt F) → (⟨S800000x128, .f32⟩ : BufTy).Contents (Elt F) → (⟨S800000x128, .f32⟩ : BufTy).Contents (Elt F)),
    StableHlo.TRef.unary (.of main_v67) main_call2.v0 Host.negf,
    StableHlo.TRef.unary main_call2.v0 main_call2.v1 Host.exp,
    StableHlo.TRef.nullary main_call2.cst (constant S_ .f32 0x3F800000#32),
    StableHlo.TRef.unary main_call2.cst main_call2.v2 (broadcastInDim S800000x128 ![] bcast_S_S800000x128),
    StableHlo.TRef.binary main_call2.v2 main_call2.v1 main_call2.v3 addf,
    StableHlo.TRef.nullary main_call2.cst_0 (constant S_ .f32 0x3F800000#32),
    StableHlo.TRef.unary main_call2.cst_0 main_call2.v4 (broadcastInDim S800000x128 ![] bcast_S_S800000x128),
    StableHlo.TRef.binary main_call2.v4 main_call2.v3 main_call2.v5 Host.divf,
    StableHlo.TRef.binary (.of main_v67) main_call2.v5 main_call2.v6 mulf,
    StableHlo.unary main_arg9 main_v69 ((transpose S128x1 [1, 0] · transposes_S1x128_S128x1_1_0) : (⟨S1x128, .f32⟩ : BufTy).Contents (Elt F) → (⟨S128x1, .f32⟩ : BufTy).Contents (Elt F)),
    StableHlo.binary main_v68 main_v69 main_v70 ((fun l r => Host.dotGeneral dot_S800000x128_S128x1_S800000x1_1_0_0_1_n_n none l r) : (⟨S800000x128, .f32⟩ : BufTy).Contents (Elt F) → (⟨S128x1, .f32⟩ : BufTy).Contents (Elt F) → (⟨S800000x1, .f32⟩ : BufTy).Contents (Elt F)),
    StableHlo.unary main_arg10 main_v71 (broadcastInDim S1x1 ![1] bcast_S1_S1x1_1 : (⟨S1, .f32⟩ : BufTy).Contents (Elt F) → (⟨S1x1, .f32⟩ : BufTy).Contents (Elt F)),
    StableHlo.unary main_v71 main_v72 (broadcastInDim S800000x1 ![0, 1] bcast_S1x1_S800000x1_0_1 : (⟨S1x1, .f32⟩ : BufTy).Contents (Elt F) → (⟨S800000x1, .f32⟩ : BufTy).Contents (Elt F)),
    StableHlo.binary main_v70 main_v72 main_v73 (addf : (⟨S800000x1, .f32⟩ : BufTy).Contents (Elt F) → (⟨S800000x1, .f32⟩ : BufTy).Contents (Elt F) → (⟨S800000x1, .f32⟩ : BufTy).Contents (Elt F)),
    StableHlo.unary main_v73 main_v74 (Host.negf : (⟨S800000x1, .f32⟩ : BufTy).Contents (Elt F) → (⟨S800000x1, .f32⟩ : BufTy).Contents (Elt F)),
    StableHlo.unary main_v74 main_v75 (Host.exp : (⟨S800000x1, .f32⟩ : BufTy).Contents (Elt F) → (⟨S800000x1, .f32⟩ : BufTy).Contents (Elt F)),
    StableHlo.nullary main_cst_11 (constant S_ .f32 0x3F800000#32),
    StableHlo.unary main_cst_11 main_v76 (broadcastInDim S800000x1 ![] bcast_S_S800000x1 : (⟨S_, .f32⟩ : BufTy).Contents (Elt F) → (⟨S800000x1, .f32⟩ : BufTy).Contents (Elt F)),
    StableHlo.binary main_v76 main_v75 main_v77 (addf : (⟨S800000x1, .f32⟩ : BufTy).Contents (Elt F) → (⟨S800000x1, .f32⟩ : BufTy).Contents (Elt F) → (⟨S800000x1, .f32⟩ : BufTy).Contents (Elt F)),
    StableHlo.nullary main_cst_12 (constant S_ .f32 0x3F800000#32),
    StableHlo.unary main_cst_12 main_v78 (broadcastInDim S800000x1 ![] bcast_S_S800000x1 : (⟨S_, .f32⟩ : BufTy).Contents (Elt F) → (⟨S800000x1, .f32⟩ : BufTy).Contents (Elt F)),
    StableHlo.binary main_v78 main_v77 main_v79 (Host.divf : (⟨S800000x1, .f32⟩ : BufTy).Contents (Elt F) → (⟨S800000x1, .f32⟩ : BufTy).Contents (Elt F) → (⟨S800000x1, .f32⟩ : BufTy).Contents (Elt F)),
    StableHlo.unary main_v79 main_v80 (broadcastInDim S800000x128 ![0, 1] bcast_S800000x1_S800000x128_0_1 : (⟨S800000x1, .f32⟩ : BufTy).Contents (Elt F) → (⟨S800000x128, .f32⟩ : BufTy).Contents (Elt F)),
    StableHlo.binary main_v80 main_v68 main_v81 (mulf : (⟨S800000x128, .f32⟩ : BufTy).Contents (Elt F) → (⟨S800000x128, .f32⟩ : BufTy).Contents (Elt F) → (⟨S800000x128, .f32⟩ : BufTy).Contents (Elt F)) ]

/-- Stage D, operations 135 … 138: the messages added into their source nodes, ending at `main_v84`. -/
abbrev opsD : List (HloOp τ sig (Elt F)) :=
  [ StableHlo.nullary main_cst_13 (constant S_ .f32 0x00000000#32),
    StableHlo.unary main_cst_13 main_v82 (broadcastInDim S50000x128 ![] bcast_S_S50000x128 : (⟨S_, .f32⟩ : BufTy).Contents (Elt F) → (⟨S50000x128, .f32⟩ : BufTy).Contents (Elt F)),
    StableHlo.unary main_v20 main_v83 (broadcastInDim S800000x1 ![0] bcast_S800000_S800000x1_0 : (⟨S800000, .i32⟩ : BufTy).Contents (Elt F) → (⟨S800000x1, .i32⟩ : BufTy).Contents (Elt F)),
    StableHlo.ternary main_v82 main_v83 main_v81 main_v84 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- Stage E, operations 139 … 159: the node network (the concatenation, two layers with `@silu_0`, the residual),
    ending at the result `main_v97`. -/
abbrev opsE : List (HloOp τ sig (Elt F)) :=
  [ StableHlo.binary main_v18 main_v84 main_v85 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.unary main_arg11 main_v86 ((transpose S256x128 [1, 0] · transposes_S128x256_S256x128_1_0) : (⟨S128x256, .f32⟩ : BufTy).Contents (Elt F) → (⟨S256x128, .f32⟩ : BufTy).Contents (Elt F)),
    StableHlo.binary main_v85 main_v86 main_v87 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg12 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S50000x128 ![0, 1] bcast_S1x128_S50000x128_0_1 : (⟨S1x128, .f32⟩ : BufTy).Contents (Elt F) → (⟨S50000x128, .f32⟩ : BufTy).Contents (Elt F)),
    StableHlo.binary main_v87 main_v89 main_v90 (addf : (⟨S50000x128, .f32⟩ : BufTy).Contents (Elt F) → (⟨S50000x128, .f32⟩ : BufTy).Contents (Elt F) → (⟨S50000x128, .f32⟩ : BufTy).Contents (Elt F)),
    StableHlo.TRef.unary (.of main_v90) main_call3.v0 Host.negf,
    StableHlo.TRef.unary main_call3.v0 main_call3.v1 Host.exp,
    StableHlo.TRef.nullary main_call3.cst (constant S_ .f32 0x3F800000#32),
    StableHlo.TRef.unary main_call3.cst main_call3.v2 (broadcastInDim S50000x128 ![] bcast_S_S50000x128),
    StableHlo.TRef.binary main_call3.v2 main_call3.v1 main_call3.v3 addf,
    StableHlo.TRef.nullary main_call3.cst_0 (constant S_ .f32 0x3F800000#32),
    StableHlo.TRef.unary main_call3.cst_0 main_call3.v4 (broadcastInDim S50000x128 ![] bcast_S_S50000x128),
    StableHlo.TRef.binary main_call3.v4 main_call3.v3 main_call3.v5 Host.divf,
    StableHlo.TRef.binary (.of main_v90) main_call3.v5 main_call3.v6 mulf,
    StableHlo.unary main_arg13 main_v92 ((transpose S128x128 [1, 0] · transposes_S128x128_S128x128_1_0) : (⟨S128x128, .f32⟩ : BufTy).Contents (Elt F) → (⟨S128x128, .f32⟩ : BufTy).Contents (Elt F)),
    StableHlo.binary main_v91 main_v92 main_v93 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg14 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S50000x128 ![0, 1] bcast_S1x128_S50000x128_0_1 : (⟨S1x128, .f32⟩ : BufTy).Contents (Elt F) → (⟨S50000x128, .f32⟩ : BufTy).Contents (Elt F)),
    StableHlo.binary main_v93 main_v95 main_v96 (addf : (⟨S50000x128, .f32⟩ : BufTy).Contents (Elt F) → (⟨S50000x128, .f32⟩ : BufTy).Contents (Elt F) → (⟨S50000x128, .f32⟩ : BufTy).Contents (Elt F)),
    StableHlo.binary main_v18 main_v96 main_v97 (addf : (⟨S50000x128, .f32⟩ : BufTy).Contents (Elt F) → (⟨S50000x128, .f32⟩ : BufTy).Contents (Elt F) → (⟨S50000x128, .f32⟩ : BufTy).Contents (Elt F)) ]

/-- The line is the five stages one after the other. -/
theorem ops_split : (RefRun.ops : List (HloOp τ sig (Elt F))) = opsA ++ (opsB ++ (opsC ++ (opsD ++ opsE))) := rfl

/-! ### Stage A: the batch norm -/

set_option maxRecDepth 8192 in
/-- After stage A, `main_v18` holds the batch norm of argument 0 with scale argument 3 and shift argument 4. -/
theorem stageA_v18 (W : Valuation τ sig (Elt F)) :
    after opsA W (main_v18 : DevRef τ sig) = Cert.Egnn.Shared.hbn (W (main_arg0 : DevRef τ sig)) (W (main_arg3 : DevRef τ sig)) (W (main_arg4 : DevRef τ sig)) := by
  after_results_simp3
  rfl
theorem stageA_arg1 (W : Valuation τ sig (Elt F)) :
    after opsA W (main_arg1 : DevRef τ sig) = W (main_arg1 : DevRef τ sig) := by after_results_simp3
theorem stageA_arg2 (W : Valuation τ sig (Elt F)) :
    after opsA W (main_arg2 : DevRef τ sig) = W (main_arg2 : DevRef τ sig) := by after_results_simp3
theorem stageA_arg5 (W : Valuation τ sig (Elt F)) :
    after opsA W (main_arg5 : DevRef τ sig) = W (main_arg5 : DevRef τ sig) := by after_results_simp3
theorem stageA_arg6 (W : Valuation τ sig (Elt F)) :
    after opsA W (main_arg6 : DevRef τ sig) = W (main_arg6 : DevRef τ sig) := by after_results_simp3
theorem stageA_arg7 (W : Valuation τ sig (Elt F)) :
    after opsA W (main_arg7 : DevRef τ sig) = W (main_arg7 : DevRef τ sig) := by after_results_simp3
theorem stageA_arg8 (W : Valuation τ sig (Elt F)) :
    after opsA W (main_arg8 : DevRef τ sig) = W (main_arg8 : DevRef τ sig) := by after_results_simp3
theorem stageA_arg9 (W : Valuation τ sig (Elt F)) :
    after opsA W (main_arg9 : DevRef τ sig) = W (main_arg9 : DevRef τ sig) := by after_results_simp3
theorem stageA_arg10 (W : Valuation τ sig (Elt F)) :
    after opsA W (main_arg10 : DevRef τ sig) = W (main_arg10 : DevRef τ sig) := by after_results_simp3
theorem stageA_arg11 (W : Valuation τ sig (Elt F)) :
    after opsA W (main_arg11 : DevRef τ sig) = W (main_arg11 : DevRef τ sig) := by after_results_simp3
theorem stageA_arg12 (W : Valuation τ sig (Elt F)) :
    after opsA W (main_arg12 : DevRef τ sig) = W (main_arg12 : DevRef τ sig) := by after_results_simp3
theorem stageA_arg13 (W : Valuation τ sig (Elt F)) :
    after opsA W (main_arg13 : DevRef τ sig) = W (main_arg13 : DevRef τ sig) := by after_results_simp3
theorem stageA_arg14 (W : Valuation τ sig (Elt F)) :
    after opsA W (main_arg14 : DevRef τ sig) = W (main_arg14 : DevRef τ sig) := by after_results_simp3

/-! ### Stage B: the edge indices, the distance, the endpoint rows -/

set_option maxRecDepth 8192 in
/-- After stage B, `main_v20` holds row 0 of the edge table. -/
theorem stageB_v20 (W : Valuation τ sig (Elt F)) :
    after opsB W (main_v20 : DevRef τ sig) = Cert.Egnn.Shared.row0 (W (main_arg2 : DevRef τ sig)) := by
  after_results_simp3
  rfl
set_option maxRecDepth 8192 in
/-- After stage B, `main_v41` holds the distance between the endpoints of every edge. -/
theorem stageB_v41 (W : Valuation τ sig (Elt F)) :
    after opsB W (main_v41 : DevRef τ sig) = Cert.Egnn.Shared.dist (W (main_arg1 : DevRef τ sig)) (W (main_arg2 : DevRef τ sig)) := by
  after_results_simp3
  rfl
set_option maxRecDepth 8192 in
/-- After stage B, `main_v48` holds the rows of `main_v18` at the wrapped source indices. -/
theorem stageB_v48 (W : Valuation τ sig (Elt F)) :
    after opsB W (main_v48 : DevRef τ sig)
      = Cert.Egnn.Shared.rows (W (main_v18 : DevRef τ sig)) (Cert.Egnn.Shared.wrap (Cert.Egnn.Shared.row0 (W (main_arg2 : DevRef τ sig)))) := by
  after_results_simp3
  rfl
set_option maxRecDepth 8192 in
/-- After stage B, `main_v55` holds the rows of `main_v18` at the wrapped destination indices. -/
theorem stageB_v55 (W : Valuation τ sig (Elt F)) :
    after opsB W (main_v55 : DevRef τ sig)
      = Cert.Egnn.Shared.rows (W (main_v18 : DevRef τ sig)) (Cert.Egnn.Shared.wrap (Cert.Egnn.Shared.row1 (W (main_arg2 : DevRef τ sig)))) := by
  after_results_simp3
  rfl
theorem stageB_v18 (W : Valuation τ sig (Elt F)) :
    after opsB W (main_v18 : DevRef τ sig) = W (main_v18 : DevRef τ sig) := by after_results_simp3
theorem stageB_arg5 (W : Valuation τ sig (Elt F)) :
    after opsB W (main_arg5 : DevRef τ sig) = W (main_arg5 : DevRef τ sig) := by after_results_simp3
theorem stageB_arg6 (W : Valuation τ sig (Elt F)) :
    after opsB W (main_arg6 : DevRef τ sig) = W (main_arg6 : DevRef τ sig) := by after_results_simp3
theorem stageB_arg7 (W : Valuation τ sig (Elt F)) :
    after opsB W (main_arg7 : DevRef τ sig) = W (main_arg7 : DevRef τ sig) := by after_results_simp3
theorem stageB_arg8 (W : Valuation τ sig (Elt F)) :
    after opsB W (main_arg8 : DevRef τ sig) = W (main_arg8 : DevRef τ sig) := by after_results_simp3
theorem stageB_arg9 (W : Valuation τ sig (Elt F)) :
    after opsB W (main_arg9 : DevRef τ sig) = W (main_arg9 : DevRef τ sig) := by after_results_simp3
theorem stageB_arg10 (W : Valuation τ sig (Elt F)) :
    after opsB W (main_arg10 : DevRef τ sig) = W (main_arg10 : DevRef τ sig) := by after_results_simp3
theorem stageB_arg11 (W : Valuation τ sig (Elt F)) :
    after opsB W (main_arg11 : DevRef τ sig) = W (main_arg11 : DevRef τ sig) := by after_results_simp3
theorem stageB_arg12 (W : Valuation τ sig (Elt F)) :
    after opsB W (main_arg12 : DevRef τ sig) = W (main_arg12 : DevRef τ sig) := by after_results_simp3
theorem stageB_arg13 (W : Valuation τ sig (Elt F)) :
    after opsB W (main_arg13 : DevRef τ sig) = W (main_arg13 : DevRef τ sig) := by after_results_simp3
theorem stageB_arg14 (W : Valuation τ sig (Elt F)) :
    after opsB W (main_arg14 : DevRef τ sig) = W (main_arg14 : DevRef τ sig) := by after_results_simp3

/-! ### Stage C: the edge network -/

set_option maxRecDepth 8192 in
/-- After stage C, `main_v81` holds the gated messages of the two endpoint rows and the distance under the edge
    network's weights (arguments 5 … 10). -/
theorem stageC_v81 (W : Valuation τ sig (Elt F)) :
    after opsC W (main_v81 : DevRef τ sig) = Cert.Egnn.Ref.refEdge (W (main_v48 : DevRef τ sig)) (W (main_v55 : DevRef τ sig)) (W (main_v41 : DevRef τ sig))
      (W (main_arg5 : DevRef τ sig)) (W (main_arg6 : DevRef τ sig)) (W (main_arg7 : DevRef τ sig)) (W (main_arg8 : DevRef τ sig)) (W (main_arg9 : DevRef τ sig)) (W (main_arg10 : DevRef τ sig)) := by
  after_results_simp3
  rfl
theorem stageC_v18 (W : Valuation τ sig (Elt F)) :
    after opsC W (main_v18 : DevRef τ sig) = W (main_v18 : DevRef τ sig) := by after_results_simp3
theorem stageC_v20 (W : Valuation τ sig (Elt F)) :
    after opsC W (main_v20 : DevRef τ sig) = W (main_v20 : DevRef τ sig) := by after_results_simp3
theorem stageC_arg11 (W : Valuation τ sig (Elt F)) :
    after opsC W (main_arg11 : DevRef τ sig) = W (main_arg11 : DevRef τ sig) := by after_results_simp3
theorem stageC_arg12 (W : Valuation τ sig (Elt F)) :
    after opsC W (main_arg12 : DevRef τ sig) = W (main_arg12 : DevRef τ sig) := by after_results_simp3
theorem stageC_arg13 (W : Valuation τ sig (Elt F)) :
    after opsC W (main_arg13 : DevRef τ sig) = W (main_arg13 : DevRef τ sig) := by after_results_simp3
theorem stageC_arg14 (W : Valuation τ sig (Elt F)) :
    after opsC W (main_arg14 : DevRef τ sig) = W (main_arg14 : DevRef τ sig) := by after_results_simp3

/-! ### Stage D: the segment sum -/

/-- After stage D, `main_v84` holds the messages `main_v81` added into the source nodes `main_v20`. -/
theorem stageD_v84 (W : Valuation τ sig (Elt F)) :
    after opsD W (main_v84 : DevRef τ sig) = Cert.Egnn.Shared.segsum (W (main_v20 : DevRef τ sig)) (W (main_v81 : DevRef τ sig)) := by
  after_results_simp3
  rfl
theorem stageD_v18 (W : Valuation τ sig (Elt F)) :
    after opsD W (main_v18 : DevRef τ sig) = W (main_v18 : DevRef τ sig) := by after_results_simp3
theorem stageD_arg11 (W : Valuation τ sig (Elt F)) :
    after opsD W (main_arg11 : DevRef τ sig) = W (main_arg11 : DevRef τ sig) := by after_results_simp3
theorem stageD_arg12 (W : Valuation τ sig (Elt F)) :
    after opsD W (main_arg12 : DevRef τ sig) = W (main_arg12 : DevRef τ sig) := by after_results_simp3
theorem stageD_arg13 (W : Valuation τ sig (Elt F)) :
    after opsD W (main_arg13 : DevRef τ sig) = W (main_arg13 : DevRef τ sig) := by after_results_simp3
theorem stageD_arg14 (W : Valuation τ sig (Elt F)) :
    after opsD W (main_arg14 : DevRef τ sig) = W (main_arg14 : DevRef τ sig) := by after_results_simp3

/-! ### Stage E: the node network -/

set_option maxRecDepth 8192 in
/-- After stage E, `main_v97` holds the node update of `main_v18` and `main_v84` under the node network's weights
    (arguments 11 … 14). -/
theorem stageE_v97 (W : Valuation τ sig (Elt F)) :
    after opsE W (main_v97 : DevRef τ sig) = Cert.Egnn.Ref.refNode (W (main_v18 : DevRef τ sig)) (W (main_v84 : DevRef τ sig))
      (W (main_arg11 : DevRef τ sig)) (W (main_arg12 : DevRef τ sig)) (W (main_arg13 : DevRef τ sig)) (W (main_arg14 : DevRef τ sig)) := by
  after_results_simp3
  rfl

/-! ## The result -/

/-- After the whole line the result buffer holds the node update of the batch norm of the node features and of the
    segment sum, over the source nodes, of the gated edge messages computed from the batch norm's rows at the two
    endpoints and the endpoints' distance: the five stages composed, each stage's operands being the earlier
    stages' results carried through the stages between. -/
theorem out_eq (V : Valuation τ sig (Elt F)) :
    after RefRun.ops V (main_v97 : DevRef τ sig)
      = Cert.Egnn.Ref.refNode
          (Cert.Egnn.Shared.hbn (V (main_arg0 : DevRef τ sig)) (V (main_arg3 : DevRef τ sig)) (V (main_arg4 : DevRef τ sig)))
          (Cert.Egnn.Shared.segsum (Cert.Egnn.Shared.row0 (V (main_arg2 : DevRef τ sig)))
            (Cert.Egnn.Ref.refEdge
              (Cert.Egnn.Shared.rows (Cert.Egnn.Shared.hbn (V (main_arg0 : DevRef τ sig)) (V (main_arg3 : DevRef τ sig)) (V (main_arg4 : DevRef τ sig))) (Cert.Egnn.Shared.wrap (Cert.Egnn.Shared.row0 (V (main_arg2 : DevRef τ sig)))))
              (Cert.Egnn.Shared.rows (Cert.Egnn.Shared.hbn (V (main_arg0 : DevRef τ sig)) (V (main_arg3 : DevRef τ sig)) (V (main_arg4 : DevRef τ sig))) (Cert.Egnn.Shared.wrap (Cert.Egnn.Shared.row1 (V (main_arg2 : DevRef τ sig)))))
              (Cert.Egnn.Shared.dist (V (main_arg1 : DevRef τ sig)) (V (main_arg2 : DevRef τ sig)))
              (V (main_arg5 : DevRef τ sig)) (V (main_arg6 : DevRef τ sig)) (V (main_arg7 : DevRef τ sig)) (V (main_arg8 : DevRef τ sig)) (V (main_arg9 : DevRef τ sig)) (V (main_arg10 : DevRef τ sig))))
          (V (main_arg11 : DevRef τ sig)) (V (main_arg12 : DevRef τ sig)) (V (main_arg13 : DevRef τ sig)) (V (main_arg14 : DevRef τ sig)) := by
  rw [ops_split]
  simp only [Cert.LibAfterAppend.after_append]
  rw [stageE_v97,
    stageD_v84, stageD_v18, stageD_arg11, stageD_arg12, stageD_arg13, stageD_arg14,
    stageC_v81, stageC_v18, stageC_v20, stageC_arg11, stageC_arg12, stageC_arg13, stageC_arg14,
    stageB_v20, stageB_v41, stageB_v48, stageB_v55, stageB_v18, stageB_arg5, stageB_arg6, stageB_arg7, stageB_arg8, stageB_arg9, stageB_arg10, stageB_arg11, stageB_arg12, stageB_arg13, stageB_arg14,
    stageA_v18, stageA_arg1, stageA_arg2, stageA_arg5, stageA_arg6, stageA_arg7, stageA_arg8, stageA_arg9, stageA_arg10, stageA_arg11, stageA_arg12, stageA_arg13, stageA_arg14]

/-! ## The arguments -/

set_option maxRecDepth 8192 in
theorem arg0_eq (V : Valuation τ sig (Elt F)) :
    after RefRun.ops V (main_arg0 : DevRef τ sig) = V (main_arg0 : DevRef τ sig) := by after_results_simp3
set_option maxRecDepth 8192 in
theorem arg1_eq (V : Valuation τ sig (Elt F)) :
    after RefRun.ops V (main_arg1 : DevRef τ sig) = V (main_arg1 : DevRef τ sig) := by after_results_simp3
set_option maxRecDepth 8192 in
theorem arg2_eq (V : Valuation τ sig (Elt F)) :
    after RefRun.ops V (main_arg2 : DevRef τ sig) = V (main_arg2 : DevRef τ sig) := by after_results_simp3
set_option maxRecDepth 8192 in
theorem arg3_eq (V : Valuation τ sig (Elt F)) :
    after RefRun.ops V (main_arg3 : DevRef τ sig) = V (main_arg3 : DevRef τ sig) := by after_results_simp3
set_option maxRecDepth 8192 in
theorem arg4_eq (V : Valuation τ sig (Elt F)) :
    after RefRun.ops V (main_arg4 : DevRef τ sig) = V (main_arg4 : DevRef τ sig) := by after_results_simp3
set_option maxRecDepth 8192 in
theorem arg5_eq (V : Valuation τ sig (Elt F)) :
    after RefRun.ops V (main_arg5 : DevRef τ sig) = V (main_arg5 : DevRef τ sig) := by after_results_simp3
set_option maxRecDepth 8192 in
theorem arg6_eq (V : Valuation τ sig (Elt F)) :
    after RefRun.ops V (main_arg6 : DevRef τ sig) = V (main_arg6 : DevRef τ sig) := by after_results_simp3
set_option maxRecDepth 8192 in
theorem arg7_eq (V : Valuation τ sig (Elt F)) :
    after RefRun.ops V (main_arg7 : DevRef τ sig) = V (main_arg7 : DevRef τ sig) := by after_results_simp3
set_option maxRecDepth 8192 in
theorem arg8_eq (V : Valuation τ sig (Elt F)) :
    after RefRun.ops V (main_arg8 : DevRef τ sig) = V (main_arg8 : DevRef τ sig) := by after_results_simp3
set_option maxRecDepth 8192 in
theorem arg9_eq (V : Valuation τ sig (Elt F)) :
    after RefRun.ops V (main_arg9 : DevRef τ sig) = V (main_arg9 : DevRef τ sig) := by after_results_simp3
set_option maxRecDepth 8192 in
theorem arg10_eq (V : Valuation τ sig (Elt F)) :
    after RefRun.ops V (main_arg10 : DevRef τ sig) = V (main_arg10 : DevRef τ sig) := by after_results_simp3
set_option maxRecDepth 8192 in
theorem arg11_eq (V : Valuation τ sig (Elt F)) :
    after RefRun.ops V (main_arg11 : DevRef τ sig) = V (main_arg11 : DevRef τ sig) := by after_results_simp3
set_option maxRecDepth 8192 in
theorem arg12_eq (V : Valuation τ sig (Elt F)) :
    after RefRun.ops V (main_arg12 : DevRef τ sig) = V (main_arg12 : DevRef τ sig) := by after_results_simp3
set_option maxRecDepth 8192 in
theorem arg13_eq (V : Valuation τ sig (Elt F)) :
    after RefRun.ops V (main_arg13 : DevRef τ sig) = V (main_arg13 : DevRef τ sig) := by after_results_simp3
set_option maxRecDepth 8192 in
theorem arg14_eq (V : Valuation τ sig (Elt F)) :
    after RefRun.ops V (main_arg14 : DevRef τ sig) = V (main_arg14 : DevRef τ sig) := by after_results_simp3

end Cert.ReferenceIdeal.RefOut

end
-- ==== Proof.RefIndexOps.lean ====
/-
  The reference's host operations read at one index, at the ideal values: the pieces the two networks are assembled
  from.

  * a bias vector broadcast to a row and then over all rows reads its entry at the column;
  * a vector recast as a row reads the same entry;
  * z * (1 / (1 + exp (-z))), spelt with the host's division, exponential and negation and the constant one, is
    z * sigmoid z at every index, and 1 / (1 + exp (-z)) is sigmoid z;
  * the product with a transposed weight matrix is, at (p, j), the sum over k of u (p, k) * w (j, k).
-/
import proofs.«152079_j87643102642635_2_alg».proof.Proof.Spec
import proofs.«152079_j87643102642635_2_alg».proof.Proof.LibPlainMatmul
import Idealize.ShloMosaic.Lib.ValueLayout
import Idealize.ShloMosaic.Lib.IdealHost
import Idealize.ShloMosaic.Lib.Pipeline.Value

noncomputable section

namespace Cert.Egnn.RefIndex

open Idealize.ShloMosaic Idealize.ShloMosaic.ValueIdx

/-- A vector broadcast to a row and the row over n rows reads, at (p, q), the vector's entry q. -/
theorem bias_apply {α : Type} {n m : Nat} (b : (⟨1, ![m]⟩ : Shape).Idx → α)
    (h1 : (⟨1, ![m]⟩ : Shape).BroadcastsInDim (⟨2, ![1, m]⟩ : Shape) ![1])
    (h2 : (⟨2, ![1, m]⟩ : Shape).BroadcastsInDim (⟨2, ![n, m]⟩ : Shape) ![0, 1]) (p : Fin n) (q : Fin m) :
    broadcastInDim (⟨2, ![n, m]⟩ : Shape) ![0, 1] h2 (broadcastInDim (⟨2, ![1, m]⟩ : Shape) ![1] h1 b) (ix2 p q) = b (ix1 q) := by
  refine (broadcastInDim_apply _ h2 _ (ix2 p q) (ix2 (0 : Fin 1) q) ?_).trans ?_
  · intro a
    match a with
    | ⟨0, _⟩ => exact (if_pos rfl).symm
    | ⟨1, _⟩ =>
      show q.val = if m = 1 then 0 else q.val
      split
      · have := q.isLt; omega
      · rfl
  · refine broadcastInDim_apply _ h1 _ (ix2 (0 : Fin 1) q) (ix1 q) ?_
    intro a
    match a with
    | ⟨0, _⟩ =>
      show q.val = if m = 1 then 0 else q.val
      split
      · have := q.isLt; omega
      · rfl

/-- A vector recast as a row reads, at (0, q), its entry q. -/
theorem asRow_apply (b : FVec Ideal (⟨1, ![128]⟩ : Shape) .f32) (q : Fin 128) :
    Cert.Egnn.Shared.asRow b (ix2 (0 : Fin 1) q) = b (ix1 q) :=
  shapeCast_a_1a_apply b _ 0 q

/-- A one-entry vector recast as a 1 × 1 array reads that entry. -/
theorem asCell_apply (b : FVec Ideal (⟨1, ![1]⟩ : Shape) .f32) :
    Cert.Egnn.Shared.asCell b (ix2 (0 : Fin 1) (0 : Fin 1)) = b (ix1 (0 : Fin 1)) :=
  shapeCast_a_1a_apply b _ 0 0

/-- 1 / (1 + exp (-z)) in the host's operations, the ones broadcast constants, is the sigmoid at every index. -/
theorem sigmoid_apply {s : Shape} (z : FVec Ideal s .f32) (h : (⟨0, ![]⟩ : Shape).BroadcastsInDim s ![]) (i : s.Idx) :
    Host.divf (broadcastInDim s ![] h (constant (F := Ideal) (⟨0, ![]⟩ : Shape) .f32 0x3F800000#32))
      (addf (broadcastInDim s ![] h (constant (F := Ideal) (⟨0, ![]⟩ : Shape) .f32 0x3F800000#32)) (Host.exp (Host.negf z))) i
      = Ideal.logistic (z i) := by
  show Ideal.div (Ideal.ofBits .f32 0x3F800000#32) (Ideal.ofBits .f32 0x3F800000#32 + Ideal.exp (-(z i)))
    = Ideal.div 1 (1 + Ideal.exp (-(z i)))
  rw [Ideal.ofBits_one_f32]

/-- z * (1 / (1 + exp (-z))) in the host's operations is z * sigmoid z at every index. -/
theorem silu_apply {s : Shape} (z : FVec Ideal s .f32) (h : (⟨0, ![]⟩ : Shape).BroadcastsInDim s ![]) (i : s.Idx) :
    mulf z (Host.divf (broadcastInDim s ![] h (constant (F := Ideal) (⟨0, ![]⟩ : Shape) .f32 0x3F800000#32))
      (addf (broadcastInDim s ![] h (constant (F := Ideal) (⟨0, ![]⟩ : Shape) .f32 0x3F800000#32)) (Host.exp (Host.negf z)))) i
      = Cert.Egnn.silu (z i) :=
  congrArg (z i * ·) (sigmoid_apply z h i)

/-- The product of an n × K array with the transpose of an N × K weight matrix is, at (p, j), the sum over k of
    u (p, k) * w (j, k). -/
theorem dot_transpose_apply {n K N : Nat} (D : DotDims (⟨2, ![n, K]⟩ : Shape) (⟨2, ![K, N]⟩ : Shape) (⟨2, ![n, N]⟩ : Shape))
    (hD : D = DotDims.plain n K N) (u : FVec Ideal (⟨2, ![n, K]⟩ : Shape) .f32) (w : FVec Ideal (⟨2, ![N, K]⟩ : Shape) .f32)
    (ht : (⟨2, ![N, K]⟩ : Shape).Transposes [1, 0] (⟨2, ![K, N]⟩ : Shape)) (p : Fin n) (j : Fin N) :
    Host.dotGeneral D none u (transpose (⟨2, ![K, N]⟩ : Shape) [1, 0] w ht) (ix2 p j)
      = ∑ k : Fin K, u (ix2 p k) * w (ix2 j k) := by
  subst hD
  refine (PlainMatmul.plain_dotGeneral_apply n K N none .single u _ p j).trans ?_
  exact Finset.sum_congr rfl fun k _ => congrArg (u (ix2 p k) * ·) (transpose_ix2_apply w ht k j)

end Cert.Egnn.RefIndex

end
-- ==== Proof.LibConcat3.lean ====
/-
  Matrices with the same rows joined along their columns, read block by block.

  A concatenation along axis 1 of two or three matrices [a, b1], [a, b2] (, [a, b3]) into [a, n] reads, at row p and a
  column inside the k-th block, the k-th matrix at row p and the column less the widths of the blocks before it. The
  column is given as it comes out of a sum cut into blocks: l, b1 + l, b1 + b2 + l with l below the block's width. All
  extents are variables; each reading is the library's piece-by-piece reading of a concatenation at one piece.
-/
import Idealize.ShloMosaic.Lib.Pipeline.Value
import Idealize.ShloMosaic.Lib.ValueIdx

noncomputable section

namespace Idealize.ShloMosaic.ConcatBlocks

open Idealize.ShloMosaic Idealize.ShloMosaic.ValueIdx

variable {α : Type} {a b1 b2 b3 n : Nat}

/-- Two matrices joined along their columns: a column l of the first block reads the first matrix at (p, l). -/
theorem concat2_first (x : (⟨2, ![a, b1]⟩ : Shape).Idx → α) (y : (⟨2, ![a, b2]⟩ : Shape).Idx → α)
    (h : Shape.Concatenates [(⟨2, ![a, b1]⟩ : Shape), (⟨2, ![a, b2]⟩ : Shape)] (⟨2, ![a, n]⟩ : Shape) 1)
    (p : Fin a) (l : Fin b1) (hl : l.val < n) :
    concatenate (⟨2, ![a, n]⟩ : Shape) 1 [⟨(⟨2, ![a, b1]⟩ : Shape), x⟩, ⟨(⟨2, ![a, b2]⟩ : Shape), y⟩] h (ix2 p ⟨l.val, hl⟩)
      = x (ix2 p l) :=
  concatenate_apply_piece (t := (⟨2, ![a, n]⟩ : Shape)) 1
    [⟨(⟨2, ![a, b1]⟩ : Shape), x⟩, ⟨(⟨2, ![a, b2]⟩ : Shape), y⟩] h (ix2 p ⟨l.val, hl⟩) 0 (by simp) _ x rfl rfl 0 rfl (ix2 p l)
    (fun b hb => match b, hb with
      | ⟨0, _⟩, _ => rfl
      | ⟨1, _⟩, hb => absurd rfl hb)
    (Nat.zero_add _)

/-- Two matrices joined along their columns: column b1 + l reads the second matrix at (p, l). -/
theorem concat2_second (x : (⟨2, ![a, b1]⟩ : Shape).Idx → α) (y : (⟨2, ![a, b2]⟩ : Shape).Idx → α)
    (h : Shape.Concatenates [(⟨2, ![a, b1]⟩ : Shape), (⟨2, ![a, b2]⟩ : Shape)] (⟨2, ![a, n]⟩ : Shape) 1)
    (p : Fin a) (l : Fin b2) (hl : b1 + l.val < n) :
    concatenate (⟨2, ![a, n]⟩ : Shape) 1 [⟨(⟨2, ![a, b1]⟩ : Shape), x⟩, ⟨(⟨2, ![a, b2]⟩ : Shape), y⟩] h (ix2 p ⟨b1 + l.val, hl⟩)
      = y (ix2 p l) :=
  concatenate_apply_piece (t := (⟨2, ![a, n]⟩ : Shape)) 1
    [⟨(⟨2, ![a, b1]⟩ : Shape), x⟩, ⟨(⟨2, ![a, b2]⟩ : Shape), y⟩] h (ix2 p ⟨b1 + l.val, hl⟩) 1 (by simp) _ y rfl rfl b1 (by simp)
    (ix2 p l)
    (fun b hb => match b, hb with
      | ⟨0, _⟩, _ => rfl
      | ⟨1, _⟩, hb => absurd rfl hb)
    rfl

/-- Three matrices joined along their columns: a column l of the first block reads the first matrix at (p, l). -/
theorem concat3_first (x : (⟨2, ![a, b1]⟩ : Shape).Idx → α) (y : (⟨2, ![a, b2]⟩ : Shape).Idx → α)
    (z : (⟨2, ![a, b3]⟩ : Shape).Idx → α)
    (h : Shape.Concatenates [(⟨2, ![a, b1]⟩ : Shape), (⟨2, ![a, b2]⟩ : Shape), (⟨2, ![a, b3]⟩ : Shape)] (⟨2, ![a, n]⟩ : Shape) 1)
    (p : Fin a) (l : Fin b1) (hl : l.val < n) :
    concatenate (⟨2, ![a, n]⟩ : Shape) 1
        [⟨(⟨2, ![a, b1]⟩ : Shape), x⟩, ⟨(⟨2, ![a, b2]⟩ : Shape), y⟩, ⟨(⟨2, ![a, b3]⟩ : Shape), z⟩] h (ix2 p ⟨l.val, hl⟩)
      = x (ix2 p l) :=
  concatenate_apply_piece (t := (⟨2, ![a, n]⟩ : Shape)) 1
    [⟨(⟨2, ![a, b1]⟩ : Shape), x⟩, ⟨(⟨2, ![a, b2]⟩ : Shape), y⟩, ⟨(⟨2, ![a, b3]⟩ : Shape), z⟩] h (ix2 p ⟨l.val, hl⟩) 0 (by simp) _ x rfl rfl 0 rfl (ix2 p l)
    (fun b hb => match b, hb with
      | ⟨0, _⟩, _ => rfl
      | ⟨1, _⟩, hb => absurd rfl hb)
    (Nat.zero_add _)

/-- Three matrices joined along their columns: column b1 + l reads the second matrix at (p, l). -/
theorem concat3_second (x : (⟨2, ![a, b1]⟩ : Shape).Idx → α) (y : (⟨2, ![a, b2]⟩ : Shape).Idx → α)
    (z : (⟨2, ![a, b3]⟩ : Shape).Idx → α)
    (h : Shape.Concatenates [(⟨2, ![a, b1]⟩ : Shape), (⟨2, ![a, b2]⟩ : Shape), (⟨2, ![a, b3]⟩ : Shape)] (⟨2, ![a, n]⟩ : Shape) 1)
    (p : Fin a) (l : Fin b2) (hl : b1 + l.val < n) :
    concatenate (⟨2, ![a, n]⟩ : Shape) 1
        [⟨(⟨2, ![a, b1]⟩ : Shape), x⟩, ⟨(⟨2, ![a, b2]⟩ : Shape), y⟩, ⟨(⟨2, ![a, b3]⟩ : Shape), z⟩] h (ix2 p ⟨b1 + l.val, hl⟩)
      = y (ix2 p l) :=
  concatenate_apply_piece (t := (⟨2, ![a, n]⟩ : Shape)) 1
    [⟨(⟨2, ![a, b1]⟩ : Shape), x⟩, ⟨(⟨2, ![a, b2]⟩ : Shape), y⟩, ⟨(⟨2, ![a, b3]⟩ : Shape), z⟩] h (ix2 p ⟨b1 + l.val, hl⟩) 1 (by simp) _ y rfl rfl b1 (by simp) (ix2 p l)
    (fun b hb => match b, hb with
      | ⟨0, _⟩, _ => rfl
      | ⟨1, _⟩, hb => absurd rfl hb)
    rfl

/-- Three matrices joined along their columns: column b1 + b2 + l reads the third matrix at (p, l). -/
theorem concat3_third (x : (⟨2, ![a, b1]⟩ : Shape).Idx → α) (y : (⟨2, ![a, b2]⟩ : Shape).Idx → α)
    (z : (⟨2, ![a, b3]⟩ : Shape).Idx → α)
    (h : Shape.Concatenates [(⟨2, ![a, b1]⟩ : Shape), (⟨2, ![a, b2]⟩ : Shape), (⟨2, ![a, b3]⟩ : Shape)] (⟨2, ![a, n]⟩ : Shape) 1)
    (p : Fin a) (l : Fin b3) (hl : b1 + b2 + l.val < n) :
    concatenate (⟨2, ![a, n]⟩ : Shape) 1
        [⟨(⟨2, ![a, b1]⟩ : Shape), x⟩, ⟨(⟨2, ![a, b2]⟩ : Shape), y⟩, ⟨(⟨2, ![a, b3]⟩ : Shape), z⟩] h
        (ix2 p ⟨b1 + b2 + l.val, hl⟩)
      = z (ix2 p l) :=
  concatenate_apply_piece (t := (⟨2, ![a, n]⟩ : Shape)) 1
    [⟨(⟨2, ![a, b1]⟩ : Shape), x⟩, ⟨(⟨2, ![a, b2]⟩ : Shape), y⟩, ⟨(⟨2, ![a, b3]⟩ : Shape), z⟩] h (ix2 p ⟨b1 + b2 + l.val, hl⟩) 2 (by simp) _ z rfl rfl (b1 + b2) (by simp) (ix2 p l)
    (fun b hb => match b, hb with
      | ⟨0, _⟩, _ => rfl
      | ⟨1, _⟩, hb => absurd rfl hb)
    rfl

end Idealize.ShloMosaic.ConcatBlocks

end
-- ==== Proof.LibPadSum.lean ====
/-
  Finite sums over zero-padded index ranges and over ranges cut into blocks, in any commutative additive monoid.

    * `sum_fin_split`: a sum over `N = a + b` indices is the sum over the first `a` plus the sum over the last `b`;
    * `sum_fin_of_tail_zero`: a sum over `Fin N` whose terms vanish from index `n ≤ N` on (a contraction over an axis
      padded with zeros from `n` to `N`) is the sum of its first `n` terms;
    * `sum_range_mul_succ`: a sum over the first `m (k + 1)` naturals is the sum over the first `m k` plus the block of
      `m` terms at positions `m k + l` (a contraction accumulated block by block).
  Nothing but commutativity and associativity of `+` is used, so the lemmas hold on the extended reals.
-/
import Mathlib.Algebra.BigOperators.Fin
import Mathlib.Algebra.BigOperators.Intervals

open scoped BigOperators

namespace Cert.Interact

/-- A sum over `N = a + b` indices is the sum over the first `a` plus the sum over the last `b`. -/
theorem sum_fin_split {M : Type*} [AddCommMonoid M] {a b N : Nat} (h : N = a + b) (g : Fin N → M) :
    ∑ c : Fin N, g c
      = (∑ c : Fin a, g ⟨c.val, by have := c.isLt; omega⟩) + ∑ j : Fin b, g ⟨a + j.val, by have := j.isLt; omega⟩ := by
  subst h
  rw [Fin.sum_univ_add]
  rfl

/-- A sum whose terms vanish from index `n` on is the sum of its first `n` terms. -/
theorem sum_fin_of_tail_zero {M : Type*} [AddCommMonoid M] {n N : Nat} (h : n ≤ N) (f : Fin N → M)
    (hf : ∀ i : Fin N, n ≤ i.val → f i = 0) :
    ∑ i : Fin N, f i = ∑ i : Fin n, f (Fin.castLE h i) := by
  obtain ⟨d, rfl⟩ := Nat.exists_eq_add_of_le h
  rw [sum_fin_split rfl f]
  have tail : ∑ j : Fin d, f ⟨n + j.val, by have := j.isLt; omega⟩ = 0 :=
    Finset.sum_eq_zero fun j _ => hf _ (Nat.le_add_right n j.val)
  rw [tail, add_zero]
  rfl

/-- One more block of `m` terms: the sum over the first `m (k + 1)` naturals is the sum over the first `m k` plus the
    `m` terms at positions `m k + l`. -/
theorem sum_range_mul_succ {M : Type*} [AddCommMonoid M] (m k : ℕ) (h : ℕ → M) :
    ∑ κ ∈ Finset.range (m * (k + 1)), h κ
      = (∑ κ ∈ Finset.range (m * k), h κ) + ∑ l : Fin m, h (m * k + l.val) := by
  rw [Nat.mul_succ, Finset.sum_range_add, Finset.sum_range (fun x => h (m * k + x))]

end Cert.Interact
-- ==== Proof.RefIndexNode.lean ====
/-
  The reference's node network read at an index: entry (p, q) of h + (silu ([h | m] W1ᵀ + b1) W2ᵀ + b2) is the
  row-by-row update of node p at feature q, with the first layer as the sum of the products with the two column blocks
  of W1.

  The contraction over the 256 joined columns is cut into its two blocks of 128: on the first the concatenation reads
  h and the weight matrix its columns 0 … 127, on the second it reads m and the columns 128 … 255. Everything else is
  one operation read at one index; no reassociation of a sum is needed.
-/
import proofs.«152079_j87643102642635_2_alg».proof.Proof.RefIndexOps
import proofs.«152079_j87643102642635_2_alg».proof.Proof.LibConcat3
import proofs.«152079_j87643102642635_2_alg».proof.Proof.LibPadSum

noncomputable section

namespace Cert.Egnn.RefIndex

open Idealize.ShloMosaic Idealize.ShloMosaic.ValueIdx Cert.ReferenceIdeal Cert.ReferenceIdeal.Facts₀

/-- The first node layer before its bias, at (p, k): the contraction over [h | m] against row k of W1, cut into the
    block that meets h and the block that meets m. -/
theorem nodeDot1_apply (h mi : FVec Ideal S50000x128 .f32) (w1 : FVec Ideal S128x256 .f32) (p : Fin 50000) (k : Fin 128) :
    Host.dotGeneral dot_S50000x256_S256x128_S50000x128_1_0_0_1_n_n none
        (concatenate S50000x256 1 [⟨S50000x128, h⟩, ⟨S50000x128, mi⟩] concatenates_S50000x128_S50000x128_S50000x256_d1)
        (transpose S256x128 [1, 0] w1 transposes_S128x256_S256x128_1_0) (ix2 p k)
      = (∑ l : Fin 128, h (ix2 p l) * Cert.Egnn.Shared.nodeWh w1 (ix2 k l))
        + ∑ l : Fin 128, mi (ix2 p l) * Cert.Egnn.Shared.nodeWm w1 (ix2 k l) := by
  refine (dot_transpose_apply _ rfl _ w1 _ p k).trans ?_
  refine (Cert.Interact.sum_fin_split (show 256 = 128 + 128 from rfl) _).trans ?_
  refine congrArg₂ (· + ·) (Finset.sum_congr rfl fun l _ => ?_) (Finset.sum_congr rfl fun l _ => ?_)
  · exact congrArg₂ (· * ·) (ConcatBlocks.concat2_first h mi _ p l _)
      (slice2_axis1_apply 0 w1 _ k l _ (Nat.zero_add _).symm).symm
  · exact congrArg₂ (· * ·) (ConcatBlocks.concat2_second h mi _ p l _)
      (slice2_axis1_apply 128 w1 _ k l _ rfl).symm

/-- The reference's node network at (p, q) is the row-by-row node update of node p at feature q. -/
theorem refNode_apply (h mi : FVec Ideal S50000x128 .f32) (w1 : FVec Ideal S128x256 .f32) (b1 : FVec Ideal S128 .f32)
    (w2 : FVec Ideal S128x128 .f32) (b2 : FVec Ideal S128 .f32) (p : Fin 50000) (q : Fin 128) :
    Cert.Egnn.Ref.refNode (F := Ideal) h mi w1 b1 w2 b2 (ix2 p q)
      = Cert.Egnn.g1 (n := 50000) h mi (Cert.Egnn.Shared.nodeWh w1) (Cert.Egnn.Shared.nodeWm w1) (Cert.Egnn.Shared.asRow b1) w2
          (Cert.Egnn.Shared.asRow b2) p q := by
  unfold Cert.Egnn.Ref.refNode Cert.Egnn.g1 Cert.Egnn.nodeOut
  refine (addf_apply h _ (ix2 p q)).trans ?_
  refine congrArg (h (ix2 p q) + ·) ?_
  refine (addf_apply _ _ (ix2 p q)).trans ?_
  refine congrArg₂ (· + ·) ?_ ((bias_apply b2 _ _ p q).trans (asRow_apply b2 q).symm)
  refine (dot_transpose_apply _ rfl _ w2 _ p q).trans ?_
  refine Finset.sum_congr rfl fun k _ => congrArg (· * w2 (ix2 q k)) ?_
  refine (silu_apply _ _ (ix2 p k)).trans (congrArg Cert.Egnn.silu ?_)
  refine (addf_apply _ _ (ix2 p k)).trans ?_
  exact congrArg₂ (· + ·) (nodeDot1_apply h mi w1 p k) ((bias_apply b1 _ _ p k).trans (asRow_apply b1 k).symm)

end Cert.Egnn.RefIndex

end
-- ==== Proof.RefIndexEdge.lean ====
/-
  The reference's edge network read at an index: entry (p, q) of sigmoid (m fwᵀ + fb) * m, with m the second hidden
  layer silu (silu ([a | b | d] W1ᵀ + b1) W2ᵀ + b2), is the row-by-row gated message of edge p at unit q, with the first
  layer as the sum of the products with the three column blocks of W1.

  The contraction over the 257 joined columns is cut into 128 + 128 + 1: on the first block the concatenation reads the
  source row and the weight matrix its columns 0 … 127, on the second the destination row and the columns 128 … 255, and
  the last block is the one product of the distance with column 256. The gate is a column: it is computed at (p, 0) and
  broadcast over the 128 units.
-/
import proofs.«152079_j87643102642635_2_alg».proof.Proof.RefIndexOps
import proofs.«152079_j87643102642635_2_alg».proof.Proof.LibConcat3
import proofs.«152079_j87643102642635_2_alg».proof.Proof.LibPadSum

noncomputable section

namespace Cert.Egnn.RefIndex

open Idealize.ShloMosaic Idealize.ShloMosaic.ValueIdx Cert.ReferenceIdeal Cert.ReferenceIdeal.Facts₀

/-- A column broadcast over m columns reads, at (p, q), the column's entry p. -/
theorem column_apply {α : Type} {n m : Nat} (g : (⟨2, ![n, 1]⟩ : Shape).Idx → α)
    (h : (⟨2, ![n, 1]⟩ : Shape).BroadcastsInDim (⟨2, ![n, m]⟩ : Shape) ![0, 1]) (p : Fin n) (q : Fin m) :
    broadcastInDim (⟨2, ![n, m]⟩ : Shape) ![0, 1] h g (ix2 p q) = g (ix2 p (0 : Fin 1)) := by
  refine broadcastInDim_apply _ h _ (ix2 p q) (ix2 p (0 : Fin 1)) ?_
  intro a
  match a with
  | ⟨0, _⟩ =>
    show p.val = if n = 1 then 0 else p.val
    split
    · have := p.isLt; omega
    · rfl
  | ⟨1, _⟩ => exact (if_pos rfl).symm

/-- A column recast as a vector reads, at k, the column's entry (k, 0). -/
theorem shapeCast_a1_a_apply {α : Type} {a : Nat} (x : (⟨2, ![a, 1]⟩ : Shape).Idx → α)
    (h : (⟨2, ![a, 1]⟩ : Shape).ShapeCasts (⟨1, ![a]⟩ : Shape)) (k : Fin a) :
    shapeCast (⟨1, ![a]⟩ : Shape) x h (ix1 k) = x (ix2 k (0 : Fin 1)) :=
  shapeCast_apply x h _ _ (by
    rw [Shape.rowMajor_val_two, Shape.rowMajor_val_one]
    show k.val * 1 + 0 = k.val
    omega)

/-- The distance's weights as a row read, at (0, k), entry (k, 256) of the weight matrix. -/
theorem edgeWc_apply (w1 : FVec Ideal S128x257 .f32) (k : Fin 128) :
    Cert.Egnn.Shared.edgeWc w1 (ix2 (0 : Fin 1) k) = w1 (ix2 k (⟨256, by omega⟩ : Fin 257)) := by
  unfold Cert.Egnn.Shared.edgeWc
  refine (shapeCast_a_1a_apply _ _ 0 k).trans ?_
  refine (shapeCast_a1_a_apply _ _ k).trans ?_
  exact slice2_axis1_apply 256 w1 _ k (0 : Fin 1) _ rfl

/-- The first edge layer before its bias, at (p, k): the contraction over [a | b | d] against row k of W1, cut into the
    block that meets the source row, the block that meets the destination row and the product with the distance. -/
theorem edgeDot1_apply (a b : FVec Ideal S800000x128 .f32) (d : FVec Ideal S800000x1 .f32) (w1 : FVec Ideal S128x257 .f32)
    (p : Fin 800000) (k : Fin 128) :
    Host.dotGeneral dot_S800000x257_S257x128_S800000x128_1_0_0_1_n_n none
        (concatenate S800000x257 1 [⟨S800000x128, a⟩, ⟨S800000x128, b⟩, ⟨S800000x1, d⟩]
          concatenates_S800000x128_S800000x128_S800000x1_S800000x257_d1)
        (transpose S257x128 [1, 0] w1 transposes_S128x257_S257x128_1_0) (ix2 p k)
      = (∑ l : Fin 128, a (ix2 p l) * Cert.Egnn.Shared.edgeWa w1 (ix2 k l))
        + (∑ l : Fin 128, b (ix2 p l) * Cert.Egnn.Shared.edgeWb w1 (ix2 k l))
        + d (ix2 p (0 : Fin 1)) * Cert.Egnn.Shared.edgeWc w1 (ix2 (0 : Fin 1) k) := by
  refine (dot_transpose_apply _ rfl _ w1 _ p k).trans ?_
  refine (Cert.Interact.sum_fin_split (show 257 = 256 + 1 from rfl) _).trans ?_
  refine congrArg₂ (· + ·) ?_ ?_
  · refine (Cert.Interact.sum_fin_split (show 256 = 128 + 128 from rfl) _).trans ?_
    refine congrArg₂ (· + ·) (Finset.sum_congr rfl fun l _ => ?_) (Finset.sum_congr rfl fun l _ => ?_)
    · exact congrArg₂ (· * ·) (ConcatBlocks.concat3_first a b d _ p l _)
        (slice2_axis1_apply 0 w1 _ k l _ (Nat.zero_add _).symm).symm
    · exact congrArg₂ (· * ·) (ConcatBlocks.concat3_second a b d _ p l _)
        (slice2_axis1_apply 128 w1 _ k l _ rfl).symm
  · refine (Fin.sum_univ_one _).trans ?_
    exact congrArg₂ (· * ·) (ConcatBlocks.concat3_third a b d _ p (0 : Fin 1) _) (edgeWc_apply w1 k).symm

/-- The second hidden layer of the reference's edge network at (p, j) is the row-by-row one of edge p at unit j. -/
theorem refHidden_apply (a b : FVec Ideal S800000x128 .f32) (d : FVec Ideal S800000x1 .f32) (w1 : FVec Ideal S128x257 .f32)
    (b1 : FVec Ideal S128 .f32) (w2 : FVec Ideal S128x128 .f32) (b2 : FVec Ideal S128 .f32) (p : Fin 800000) (j : Fin 128) :
    Cert.Egnn.Ref.refHidden (F := Ideal) a b d w1 b1 w2 b2 (ix2 p j)
      = Cert.Egnn.edgeM2 (fun k => a (ix2 p k)) (fun k => b (ix2 p k)) (d (ix2 p (0 : Fin 1)))
          (fun i k => Cert.Egnn.Shared.edgeWa w1 (ix2 i k)) (fun i k => Cert.Egnn.Shared.edgeWb w1 (ix2 i k))
          (fun i => Cert.Egnn.Shared.edgeWc w1 (ix2 (0 : Fin 1) i)) (fun i => Cert.Egnn.Shared.asRow b1 (ix2 (0 : Fin 1) i))
          (fun i k => w2 (ix2 i k)) (fun i => Cert.Egnn.Shared.asRow b2 (ix2 (0 : Fin 1) i)) j := by
  unfold Cert.Egnn.Ref.refHidden Cert.Egnn.edgeM2 Cert.Egnn.edgeL1
  refine (silu_apply _ _ (ix2 p j)).trans (congrArg Cert.Egnn.silu ?_)
  refine (addf_apply _ _ (ix2 p j)).trans ?_
  refine congrArg₂ (· + ·) ?_ ((bias_apply b2 _ _ p j).trans (asRow_apply b2 j).symm)
  refine (dot_transpose_apply _ rfl _ w2 _ p j).trans ?_
  refine Finset.sum_congr rfl fun k _ => congrArg (· * w2 (ix2 j k)) ?_
  refine (silu_apply _ _ (ix2 p k)).trans (congrArg Cert.Egnn.silu ?_)
  refine (addf_apply _ _ (ix2 p k)).trans ?_
  exact congrArg₂ (· + ·) (edgeDot1_apply a b d w1 p k) ((bias_apply b1 _ _ p k).trans (asRow_apply b1 k).symm)

/-- The reference's edge network at (p, q) is the row-by-row gated message of edge p at unit q. -/
theorem refEdge_apply (a b : FVec Ideal S800000x128 .f32) (d : FVec Ideal S800000x1 .f32) (w1 : FVec Ideal S128x257 .f32)
    (b1 : FVec Ideal S128 .f32) (w2 : FVec Ideal S128x128 .f32) (b2 : FVec Ideal S128 .f32) (fw : FVec Ideal S1x128 .f32)
    (fb : FVec Ideal S1 .f32) (p : Fin 800000) (q : Fin 128) :
    Cert.Egnn.Ref.refEdge (F := Ideal) a b d w1 b1 w2 b2 fw fb (ix2 p q)
      = Cert.Egnn.g0 (n := 800000) a b d (Cert.Egnn.Shared.edgeWa w1) (Cert.Egnn.Shared.edgeWb w1) (Cert.Egnn.Shared.edgeWc w1)
          (Cert.Egnn.Shared.asRow b1) w2 (Cert.Egnn.Shared.asRow b2) fw (Cert.Egnn.Shared.asCell fb) p q := by
  unfold Cert.Egnn.Ref.refEdge Cert.Egnn.g0 Cert.Egnn.edgeOut
  refine (mulf_apply _ _ (ix2 p q)).trans ?_
  refine congrArg₂ (· * ·) ?_ (refHidden_apply a b d w1 b1 w2 b2 p q)
  refine (column_apply _ _ p q).trans ?_
  refine (sigmoid_apply _ _ (ix2 p (0 : Fin 1))).trans (congrArg Ideal.logistic ?_)
  refine (addf_apply _ _ (ix2 p (0 : Fin 1))).trans ?_
  refine congrArg₂ (· + ·) ?_ ((bias_apply fb _ _ p (0 : Fin 1)).trans (asCell_apply fb).symm)
  refine (dot_transpose_apply _ rfl _ fw _ p (0 : Fin 1)).trans ?_
  exact Finset.sum_congr rfl fun k _ => congrArg (· * fw (ix2 (0 : Fin 1) k)) (refHidden_apply a b d w1 b1 w2 b2 p k)

end Cert.Egnn.RefIndex

end
-- ==== Proof.RefIndex.lean ====
/-
  The reference's two networks read at an index, together: the node network (refNode_apply) and the edge network
  (refEdge_apply, with its second hidden layer refHidden_apply), each equal at every entry to the row-by-row function
  of the same name's operands.
-/
import proofs.«152079_j87643102642635_2_alg».proof.Proof.RefIndexNode
import proofs.«152079_j87643102642635_2_alg».proof.Proof.RefIndexEdge
-- ==== Proof.Bridge.lean ====
/-
  The reference's result is the kernel program's result function, on the extended reals.

  Entry by entry both are the node network of the same operands, once the reference's node network is read at an index;
  it remains that the two arrays of gated messages agree. Entry by entry again both are the edge network, the
  reference's on the gathered rows and the distance column as they are, the kernel's on the same arrays narrowed to the
  shorter format and the result widened back. On the extended reals a narrowing and a widening are the identity, and a
  row gather of a narrowed table reads the table's own entries, so the two edge networks read the same numbers. The
  normalisation, the distance and the sum of messages are carried along as they stand and never opened.
-/
import proofs.«152079_j87643102642635_2_alg».proof.Proof.Out
import proofs.«152079_j87643102642635_2_alg».proof.Proof.RefIndex

noncomputable section

namespace Cert.Egnn.Bridge

open Idealize.ShloMosaic Idealize.ShloMosaic.ValueIdx Cert.KernelIdeal

/-- A row gather of a narrowed table reads, at every index, what the row gather of the table itself reads. -/
theorem rows_truncf (t : FVec Ideal S50000x128 .f32) (h : FTy.bits .bf16 < FTy.bits .f32) (idx : IVec S800000x1 32)
    (y : S800000x128.Idx) :
    (Cert.Egnn.Shared.rows (truncf .bf16 t h) idx y : EReal) = Cert.Egnn.Shared.rows t idx y := rfl

/-- The edge network reads its three edge operands only through their values on row p: operands in other formats with
    the same values there give the same gated message. -/
theorem g0_congr {n : Nat} {φa φd φa' φd' : FTy} (hs he : FVec Ideal ⟨2, ![n, 128]⟩ φa) (d : FVec Ideal ⟨2, ![n, 1]⟩ φd)
    (hs' he' : FVec Ideal ⟨2, ![n, 128]⟩ φa') (d' : FVec Ideal ⟨2, ![n, 1]⟩ φd')
    (w1a w1b : FVec Ideal ⟨2, ![128, 128]⟩ .f32) (w1c b1 : FVec Ideal ⟨2, ![1, 128]⟩ .f32)
    (w2 : FVec Ideal ⟨2, ![128, 128]⟩ .f32) (b2 fw : FVec Ideal ⟨2, ![1, 128]⟩ .f32) (fb : FVec Ideal ⟨2, ![1, 1]⟩ .f32)
    (p : Fin n) (q : Fin 128)
    (Hs : ∀ k : Fin 128, (hs (ix2 p k) : EReal) = hs' (ix2 p k)) (He : ∀ k : Fin 128, (he (ix2 p k) : EReal) = he' (ix2 p k))
    (Hd : (d (ix2 p (0 : Fin 1)) : EReal) = d' (ix2 p (0 : Fin 1))) :
    Cert.Egnn.g0 hs he d w1a w1b w1c b1 w2 b2 fw fb p q = Cert.Egnn.g0 hs' he' d' w1a w1b w1c b1 w2 b2 fw fb p q := by
  have e1 : (fun k : Fin 128 => (hs (ix2 p k) : EReal)) = fun k => (hs' (ix2 p k) : EReal) := funext Hs
  have e2 : (fun k : Fin 128 => (he (ix2 p k) : EReal)) = fun k => (he' (ix2 p k) : EReal) := funext He
  unfold Cert.Egnn.g0
  rw [e1, e2, Hd]

/-- The reference's result equals the kernel program's result function of the fifteen argument arrays. -/
theorem ref_eq_kOut (a0 : FVec Ideal S50000x128 .f32) (a1 : FVec Ideal S50000x3 .f32) (a2 : IVec S2x800000 32)
    (a3 a4 : FVec Ideal S128 .f32) (a5 : FVec Ideal S128x257 .f32) (a6 : FVec Ideal S128 .f32) (a7 : FVec Ideal S128x128 .f32)
    (a8 : FVec Ideal S128 .f32) (a9 : FVec Ideal S1x128 .f32) (a10 : FVec Ideal S1 .f32) (a11 : FVec Ideal S128x256 .f32)
    (a12 : FVec Ideal S128 .f32) (a13 : FVec Ideal S128x128 .f32) (a14 : FVec Ideal S128 .f32) :
    Cert.Egnn.Ref.refNode (F := Ideal) (Cert.Egnn.Shared.hbn a0 a3 a4)
        (Cert.Egnn.Shared.segsum (Cert.Egnn.Shared.row0 a2)
          (Cert.Egnn.Ref.refEdge (F := Ideal)
            (Cert.Egnn.Shared.rows (Cert.Egnn.Shared.hbn a0 a3 a4) (Cert.Egnn.Shared.wrap (Cert.Egnn.Shared.row0 a2)))
            (Cert.Egnn.Shared.rows (Cert.Egnn.Shared.hbn a0 a3 a4) (Cert.Egnn.Shared.wrap (Cert.Egnn.Shared.row1 a2)))
            (Cert.Egnn.Shared.dist a1 a2) a5 a6 a7 a8 a9 a10))
        a11 a12 a13 a14
      = Cert.Egnn.kOut a0 a1 a2 a3 a4 a5 a6 a7 a8 a9 a10 a11 a12 a13 a14 := by
  funext i
  obtain ⟨p, q, rfl⟩ : ∃ (p : Fin 50000) (q : Fin 128), i = ix2 p q := ⟨i 0, i 1, eq_ix2 i⟩
  refine (Cert.Egnn.RefIndex.refNode_apply _ _ a11 a12 a13 a14 p q).trans ?_
  unfold Cert.Egnn.kOut
  refine congrArg (fun M => Cert.Egnn.g1 (n := 50000) (Cert.Egnn.Shared.hbn a0 a3 a4)
    (Cert.Egnn.Shared.segsum (Cert.Egnn.Shared.row0 a2) M) (Cert.Egnn.Shared.nodeWh a11) (Cert.Egnn.Shared.nodeWm a11)
    (Cert.Egnn.Shared.asRow a12) a13 (Cert.Egnn.Shared.asRow a14) p q) ?_
  funext j
  obtain ⟨e, u, rfl⟩ : ∃ (e : Fin 800000) (u : Fin 128), j = ix2 e u := ⟨j 0, j 1, eq_ix2 j⟩
  refine (Cert.Egnn.RefIndex.refEdge_apply _ _ _ a5 a6 a7 a8 a9 a10 e u).trans ?_
  refine Eq.trans ?_ (extf_apply (ψ := .f32) (Cert.Egnn.kGated a0 a1 a2 a3 a4 a5 a6 a7 a8 a9 a10) Facts₀.bitsLt_bf16_f32
    (ix2 e u)).symm
  unfold Cert.Egnn.kGated
  exact g0_congr _ _ _ _ _ _ _ _ _ _ _ _ _ _ e u (fun k => (rows_truncf _ _ _ _).symm) (fun k => (rows_truncf _ _ _ _).symm)
    (truncf_apply (ψ := .bf16) (Cert.Egnn.Shared.dist a1 a2) Facts₀.bitsLt_bf16_f32 (ix2 e (0 : Fin 1))).symm

end Cert.Egnn.Bridge

end
-- ==== Proof.lean ====
/-
  The EGNN layer: the Pallas program against the jnp reference.

  Both programs normalise the node features over the batch, read for every edge the two endpoint rows and the distance
  between the endpoints' positions, compute a gated message per edge, add the messages into their source nodes and update
  every node. They differ in one place only, twice: where the reference multiplies the concatenation [h_src | h_dst | d]
  (resp. [h | m]) by the whole first-layer weight matrix, the kernels multiply each part by its own column block of the
  matrix and add the products. A sum over the 257 (resp. 256) columns is the sum over the first 128, the next 128 and the
  last one (resp. the two halves): addition on the extended reals is commutative and associative, so the two arrangements
  agree at every entry, for all inputs — no finiteness of the inputs is used. Everything else (the sigmoid written as
  1 / (1 + exp (-z)) or as one operation, the narrower float format on the way, the tiling of the edges and the nodes
  into blocks) is the same function on the extended reals.

  The kernel program's result is kOut of its arguments (the two kernels' blocks are restrictions of whole-array
  functions, the host operations around them computed); the reference's result is its operations' composed term, which is
  kOut of its arguments entry by entry. The three frames: the two kernel programs' are the generated frame
  certificates, the reference's is its run with the result dropped. Nothing was rewritten by the idealisation.
-/
import proofs.«152079_j87643102642635_2_alg».proof.Defs
import proofs.«152079_j87643102642635_2_alg».proof.Proof.Gen.Kernel
import proofs.«152079_j87643102642635_2_alg».proof.Proof.Gen.Kernel.Skeleton
import proofs.«152079_j87643102642635_2_alg».proof.Proof.Gen.Kernel.Launch
import proofs.«152079_j87643102642635_2_alg».proof.Proof.Gen.Kernel.Points
import proofs.«152079_j87643102642635_2_alg».proof.Proof.Gen.Kernel.Frame
import proofs.«152079_j87643102642635_2_alg».proof.Proof.Gen.KernelIdeal
import proofs.«152079_j87643102642635_2_alg».proof.Proof.Gen.KernelIdeal.Skeleton
import proofs.«152079_j87643102642635_2_alg».proof.Proof.Gen.KernelIdeal.Launch
import proofs.«152079_j87643102642635_2_alg».proof.Proof.Gen.KernelIdeal.Points
import proofs.«152079_j87643102642635_2_alg».proof.Proof.Gen.KernelIdeal.Frame
import proofs.«152079_j87643102642635_2_alg».proof.Proof.Gen.ReferenceIdeal
import proofs.«152079_j87643102642635_2_alg».proof.Proof.Gen.Pre_finite_inputs
import proofs.«152079_j87643102642635_2_alg».proof.Proof.KFinal
import proofs.«152079_j87643102642635_2_alg».proof.Proof.RefOut
import proofs.«152079_j87643102642635_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference's run with the result dropped: its operations write no argument. -/
theorem frame_ri : Cert.frame_ReferenceIdeal := fun m ρ _ =>
  (θ_run (Cert.ReferenceIdeal.defs (F := Ideal)) _ _).mono (fun _ h c =>
    ⟨(h c Cert.ReferenceIdeal.main_arg0).trans (Cert.ReferenceIdeal.RefOut.arg0_eq _),
     (h c Cert.ReferenceIdeal.main_arg1).trans (Cert.ReferenceIdeal.RefOut.arg1_eq _),
     (h c Cert.ReferenceIdeal.main_arg2).trans (Cert.ReferenceIdeal.RefOut.arg2_eq _),
     (h c Cert.ReferenceIdeal.main_arg3).trans (Cert.ReferenceIdeal.RefOut.arg3_eq _),
     (h c Cert.ReferenceIdeal.main_arg4).trans (Cert.ReferenceIdeal.RefOut.arg4_eq _),
     (h c Cert.ReferenceIdeal.main_arg5).trans (Cert.ReferenceIdeal.RefOut.arg5_eq _),
     (h c Cert.ReferenceIdeal.main_arg6).trans (Cert.ReferenceIdeal.RefOut.arg6_eq _),
     (h c Cert.ReferenceIdeal.main_arg7).trans (Cert.ReferenceIdeal.RefOut.arg7_eq _),
     (h c Cert.ReferenceIdeal.main_arg8).trans (Cert.ReferenceIdeal.RefOut.arg8_eq _),
     (h c Cert.ReferenceIdeal.main_arg9).trans (Cert.ReferenceIdeal.RefOut.arg9_eq _),
     (h c Cert.ReferenceIdeal.main_arg10).trans (Cert.ReferenceIdeal.RefOut.arg10_eq _),
     (h c Cert.ReferenceIdeal.main_arg11).trans (Cert.ReferenceIdeal.RefOut.arg11_eq _),
     (h c Cert.ReferenceIdeal.main_arg12).trans (Cert.ReferenceIdeal.RefOut.arg12_eq _),
     (h c Cert.ReferenceIdeal.main_arg13).trans (Cert.ReferenceIdeal.RefOut.arg13_eq _),
     (h c Cert.ReferenceIdeal.main_arg14).trans (Cert.ReferenceIdeal.RefOut.arg14_eq _)⟩)
    (Cert.ReferenceIdeal.RefRun.run_main (F := Ideal) m ρ)

/-- The idealisation rewrote nothing. -/
theorem preserves : Cert.preserves_Kernel_KernelIdeal := trivial

/-- The reference's run: its result array is the kernels' function of its own arguments, which it leaves as launched. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v97)
          = Cert.Egnn.kOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)) :=
  (θ_run (Cert.ReferenceIdeal.defs (F := Ideal)) _ _).mono (fun _ h c =>
    ⟨(h c Cert.ReferenceIdeal.main_v97).trans ((Cert.ReferenceIdeal.RefOut.out_eq _).trans (Cert.Egnn.Bridge.ref_eq_kOut _ _ _ _ _ _ _ _ _ _ _ _ _ _ _)),
     (h c Cert.ReferenceIdeal.main_arg0).trans (Cert.ReferenceIdeal.RefOut.arg0_eq _),
     (h c Cert.ReferenceIdeal.main_arg1).trans (Cert.ReferenceIdeal.RefOut.arg1_eq _),
     (h c Cert.ReferenceIdeal.main_arg2).trans (Cert.ReferenceIdeal.RefOut.arg2_eq _),
     (h c Cert.ReferenceIdeal.main_arg3).trans (Cert.ReferenceIdeal.RefOut.arg3_eq _),
     (h c Cert.ReferenceIdeal.main_arg4).trans (Cert.ReferenceIdeal.RefOut.arg4_eq _),
     (h c Cert.ReferenceIdeal.main_arg5).trans (Cert.ReferenceIdeal.RefOut.arg5_eq _),
     (h c Cert.ReferenceIdeal.main_arg6).trans (Cert.ReferenceIdeal.RefOut.arg6_eq _),
     (h c Cert.ReferenceIdeal.main_arg7).trans (Cert.ReferenceIdeal.RefOut.arg7_eq _),
     (h c Cert.ReferenceIdeal.main_arg8).trans (Cert.ReferenceIdeal.RefOut.arg8_eq _),
     (h c Cert.ReferenceIdeal.main_arg9).trans (Cert.ReferenceIdeal.RefOut.arg9_eq _),
     (h c Cert.ReferenceIdeal.main_arg10).trans (Cert.ReferenceIdeal.RefOut.arg10_eq _),
     (h c Cert.ReferenceIdeal.main_arg11).trans (Cert.ReferenceIdeal.RefOut.arg11_eq _),
     (h c Cert.ReferenceIdeal.main_arg12).trans (Cert.ReferenceIdeal.RefOut.arg12_eq _),
     (h c Cert.ReferenceIdeal.main_arg13).trans (Cert.ReferenceIdeal.RefOut.arg13_eq _),
     (h c Cert.ReferenceIdeal.main_arg14).trans (Cert.ReferenceIdeal.RefOut.arg14_eq _)⟩)
    (Cert.ReferenceIdeal.RefRun.run_main (F := Ideal) m' ρ')

/-- From memories that agree on the arguments both programs end with the same result: one function of the arguments. -/
theorem algebraic : Cert.algebraic_KernelIdeal_ReferenceIdeal := by
  intro m ρ m' ρ' _ hagree
  refine ⟨fun c => Cert.Egnn.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    fun c => m ((c.tc : Thread Cert.KernelIdeal.nD Cert.KernelIdeal.τ).loc Cert.KernelIdeal.main_arg2), ?_, ?_⟩
  · exact (θ_run (Cert.KernelIdeal.defs (F := Ideal)) _ _).mono (fun _ h c => ⟨(h c).1, (h c).2.2.2.1, (h c).2⟩)
      (Cert.KernelIdeal.KFinal.kernel_run m ρ)
  · refine (θ_run (Cert.ReferenceIdeal.defs (F := Ideal)) _ _).mono (fun _ h c => ?_) (ref_run m' ρ')
    obtain ⟨e0, e1, e2, e3, e4, e5, e6, e7, e8, e9, e10, e11, e12, e13, e14⟩ := hagree c
    refine ⟨(h c).1.trans ?_, (h c).2.2.2.1.trans e2, (h c).2⟩
    rw [e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
